-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S64x64 : Shape := ⟨2, ![64, 64]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64x64 .f32) (main_arg10 : FVec F S64 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S64x64 .f32 := Host.absf main_arg9
  let main_cst_14 : FVec F S_ .f32 := constant S_ .f32 0x7F800000#32
  let main_v39 : FVec F S64x64 .f32 := broadcastInDim S64x64 ![] bcast_S_S64x64 main_cst_14
  let main_v40 : IVec S64x64 1 := cmpf .olt main_v38 main_v39
  let main_c_15 : IVec S_ 1 := constantI S_ 1 1#1
  let main_v41 : IVec S_ 1 := (fun x v => Host.reduce IntOp.andi x v reducesTo_S64x64_S_d0_1 h_S_) main_v40 main_c_15
  let main_v42 : IVec S_ 1 := andi main_v37 main_v41
  let main_v43 : FVec F S64 .f32 := Host.absf main_arg10
  let main_cst_16 : FVec F S_ .f32 := constant S_ .f32 0x7F800000#32
  let main_v44 : FVec F S64 .f32 := broadcastInDim S64 ![] bcast_S_S64 main_cst_16
  let main_v45 : IVec S64 1 := cmpf .olt main_v43 main_v44
  let main_c_17 : IVec S_ 1 := constantI S_ 1 1#1
  let main_v46 : IVec S_ 1 := (fun x v => Host.reduce IntOp.andi x v reducesTo_S64_S_d0 h_S_) main_v45 main_c_17
  let main_v47 : IVec S_ 1 := andi main_v42 main_v46
  main_v47

def fn_part1 {F : FTy → Type} [FloatOps F] (main_arg5 : FVec F S64 .f32) (main_arg6 : FVec F S_ .f32) (main_arg7 : FVec F S64x64 .f32) (main_arg8 : FVec F S64 .f32) (main_arg9 : FVec F S64x64 .f32) (main_arg10 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S64x64 .f32 := Host.absf main_arg7
  let main_cst_10 : FVec F S_ .f32 := constant S_ .f32 0x7F800000#32
  let main_v29 : FVec F S64x64 .f32 := broadcastInDim S64x64 ![] bcast_S_S64x64 main_cst_10
  let main_v30 : IVec S64x64 1 := cmpf .olt main_v28 main_v29
  let main_c_11 : IVec S_ 1 := constantI S_ 1 1#1
  let main_v31 : IVec S_ 1 := (fun x v => Host.reduce IntOp.andi x v reducesTo_S64x64_S_d0_1 h_S_) main_v30 main_c_11
  let main_v32 : IVec S_ 1 := andi main_v27 main_v31
  let main_v33 : FVec F S64 .f32 := Host.absf main_arg8
  fn_part2 (F := F) main_arg9 main_arg10 main_v32 main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S_ .f32) (main_arg7 : FVec F S64x64 .f32) (main_arg8 : FVec F S64 .f32) (main_arg9 : FVec F S64x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S1x1 : Shape := ⟨2, ![1, 1]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 63
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S_, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S1x1, .f32⟩
  | .hbm, ⟨43, _⟩ => ⟨S50000x64, .bf16⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .bf16⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S1x64, .f32⟩
  | .hbm, ⟨59, _⟩ => ⟨S1x1, .f32⟩
  | .hbm, ⟨60, _⟩ => ⟨S1x64, .f32⟩
  | .hbm, ⟨61, _⟩ => ⟨S1x64, .f32⟩
  | .hbm, ⟨62, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S1x1, .f32⟩
  | .local _ .vmem, ⟨15, _⟩ => ⟨S128x64, .f32⟩
  | .local _ .vmem, ⟨16, _⟩ => ⟨S5000x64, .bf16⟩
  | .local _ .vmem, ⟨17, _⟩ => ⟨S5000x64, .bf16⟩
  | .local _ .vmem, ⟨18, _⟩ => ⟨S5000x64, .f32⟩
  | .local _ .vmem, ⟨19, _⟩ => ⟨S5000x64, .f32⟩
  | .local _ .vmem, ⟨20, _⟩ => ⟨S5000x64, .bf16⟩
  | .local _ .vmem, ⟨21, _⟩ => ⟨S5000x64, .bf16⟩
  | .local _ .vmem, ⟨22, _⟩ => ⟨S5000x1, .f32⟩
  | .local _ .vmem, ⟨23, _⟩ => ⟨S5000x1, .f32⟩
  | .local _ .vmem, ⟨24, _⟩ => ⟨S1x64, .f32⟩
  | .local _ .vmem, ⟨25, _⟩ => ⟨S1x1, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S_S1x1 : S_.ShapeCasts S1x1
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  broadcasts_S1x1_S5000x64 : S1x1.Broadcasts S5000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .bf16 = 32 ∨ (Rect.block (s := S50000x64) S5000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .bf16 = 32 ∨ (Rect.block (s := S50000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S50000x64.size a
  hwx2_9 : ∀ i : grid2.Coords, EltTy.bits .f32 = 32 ∨ (Rect.block (s := S50000x64) S5000x64.size (cc2_transform_9 i) (hinb2_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v41) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v42) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S_, .f32⟩
  | 7 => ⟨S64x64, .f32⟩
  | 8 => ⟨S64, .f32⟩
  | 9 => ⟨S64x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .i1⟩
  | 74 => ⟨S50000x128, .f32⟩
  | 75 => ⟨S50000x128, .f32⟩
  | 76 => ⟨S50000x128, .f32⟩
  | 77 => ⟨S50000, .i32⟩
  | 78 => ⟨S850000, .i32⟩
  | 79 => ⟨S850000, .i32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S50000x64, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x1, .f32⟩
  | 124 => ⟨S850000x64, .f32⟩
  | 125 => ⟨S850000x64, .f32⟩
  | 126 => ⟨S_, .f32⟩
  | 127 => ⟨S50000x64, .f32⟩
  | _ => ⟨S50000x128, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S50000x64, .f32⟩
  | 7 => ⟨S50000x64, .i1⟩
  | 8 => ⟨S50000x64, .f32⟩
  | 9 => ⟨S50000x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | 15 => ⟨S_, .f32⟩
  | 16 => ⟨S50000x64, .f32⟩
  | 17 => ⟨S50000x64, .i1⟩
  | 18 => ⟨S_, .f32⟩
  | 19 => ⟨S50000x64, .f32⟩
  | 20 => ⟨S50000x64, .i1⟩
  | 21 => ⟨S_, .f32⟩
  | 22 => ⟨S_, .f32⟩
  | 23 => ⟨S50000x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_c_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_16 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_18 : Ref sig .tc := ⟨.hbm, 114, rfl⟩
abbrev main_v79 : Ref sig .tc := ⟨.hbm, 115, rfl⟩
abbrev main_v80 : Ref sig .tc := ⟨.hbm, 116, rfl⟩
abbrev main_c_19 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_20 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_21 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call4_cst : Ref sig .tc := ⟨.hbm, 143, rfl⟩
abbrev main_call4_v0 : Ref sig .tc := ⟨.hbm, 144, rfl⟩
abbrev main_call4_v1 : Ref sig .tc := ⟨.hbm, 145, rfl⟩
abbrev main_call4_cst_0 : Ref sig .tc := ⟨.hbm, 146, rfl⟩
abbrev main_call4_v2 : Ref sig .tc := ⟨.hbm, 147, rfl⟩
abbrev main_call4_v3 : Ref sig .tc := ⟨.hbm, 148, rfl⟩
abbrev main_call4_cst_1 : Ref sig .tc := ⟨.hbm, 149, rfl⟩
abbrev main_call4_call0_v0 : Ref sig .tc := ⟨.hbm, 150, rfl⟩
abbrev main_call4_call0_v1 : Ref sig .tc := ⟨.hbm, 151, rfl⟩
abbrev main_call4_v4 : Ref sig .tc := ⟨.hbm, 152, rfl⟩
abbrev main_call4_v5 : Ref sig .tc := ⟨.hbm, 153, rfl⟩
abbrev main_call4_cst_2 : Ref sig .tc := ⟨.hbm, 154, rfl⟩
abbrev main_call4_v6 : Ref sig .tc := ⟨.hbm, 155, rfl⟩
abbrev main_call4_v7 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its VALUE: every weakly fair execution of @main — three pipelined regions among
  stretches of host operations — terminates, and in the final state every unscoped buffer of each TensorCore holds
  the contents at the end of the fold of segment boundaries: launch memory, then each host stretch's operations
  applied, then each region's window arrays at what its write-backs leave. The result buffer is one of them.
-/
import proofs.«111989_j69879117906023_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped TensorCore buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The result buffer and the eleven argument arrays at the end of the run. -/
theorem run : θ_run defs (onTc (τ := τ) (main (F := F))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v42 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
    (run_all m ρ)

end Cert.KernelIdeal.KRun

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.LibRowIndexed.lean ====
/-
  Row-indexed gathers and scatters, read at coordinates.

  A table of rows `[N, C]` (or a vector `[N]`) is addressed by a column of index words `[E, 1]`:
  * a scatter (`x.at[idx].add(u)`) lands update row `e` on table row `i` exactly when the word `idx[e, 0]`, read as a
    signed integer and NOT clamped, is `i`; a word outside `[0, N)` lands nowhere;
  * a gather (`x[idx]`) reads, for result row `e`, the table row `nodeOf idx[e, 0]`: the word read signed and clamped
    into `[0, N - 1]`.
  So the accumulating scatter at table row `i` is the operand plus the sum over the edges `e` with `idx[e, 0] = i`.
-/
import Idealize.ShloMosaic.PureOps.Ideal
import Idealize.ShloMosaic.Lib.ValueIdx
import Idealize.ShloMosaic.Lib.Pipeline.Value
import proofs.«111989_j69879117906023_2_alg».proof.Proof.LibScatterAdd

namespace Idealize.ShloMosaic.RowIndexed

open ValueIdx

/-- The row an index word addresses in a gather: read signed, clamped into `[0, N - 1]`. -/
def nodeOf (N : Nat) (hN : 0 < N) {w : Nat} (v : BitVec w) : Fin N := ⟨min v.toInt.toNat (N - 1), by omega⟩

/-! ## Scatter into a table of rows -/

/-- The dimension numbers of `x.at[idx].add(u)` for a table `[N, C]`, index words `[E, 1]`, update rows `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c)` lands on table entry `(i, c')` iff the index word of row `e`, read signed, is `i`, and `c = c'`. -/
theorem rowScatter_lands {N E C w : Nat} (wf) (idx : IVec ⟨2, ![E, 1]⟩ w) (e : Fin E) (c : Fin C) (i : Fin N) (c' : Fin C) :
    (rowScatter N E C wf).resultIdx? (ix2 e c) idx = some (ix2 i c') ↔ (idx (ix2 e 0)).toInt = (i.val : Int) ∧ c = c' := by
  rw [ScatterDims.resultIdx?_eq_some_iff]
  have hs0 : (rowScatter N E C wf).start (ix2 e c) idx 0 = (idx (ix2 e 0)).toInt := by
    unfold ScatterDims.start
    rw [dif_pos (show (0 : Fin 2) ∈ (rowScatter N E C wf).scatterDimsToOperandDims from List.mem_singleton.mpr rfl)]
    congr 2
    funext b
    refine Fin.ext ?_
    match b with
    | ⟨0, _⟩ => rfl
    | ⟨1, _⟩ => rfl
  have hs1 : (rowScatter N E C wf).start (ix2 e c) idx 1 = 0 := by
    unfold ScatterDims.start
    rw [dif_neg (show (1 : Fin 2) ∉ ([0] : List (Fin 2)) from by decide)]
  have hw0 : (rowScatter N E C wf).window (ix2 e c) 0 = 0 := by
    unfold ScatterDims.window
    have hm : (0 : Fin 2) ∉ (rowScatter N E C wf).sKept := by
      show (0 : Fin 2) ∉ (List.finRange 2).filter (· ∉ ([0] : List (Fin 2)))
      decide
    rw [dif_neg hm]
  have hw1 : (rowScatter N E C wf).window (ix2 e c) 1 = c.val := by
    unfold ScatterDims.window
    have hm : (1 : Fin 2) ∈ (rowScatter N E C wf).sKept := by
      show (1 : Fin 2) ∈ (List.finRange 2).filter (· ∉ ([0] : List (Fin 2)))
      decide
    rw [dif_pos hm]
    rfl
  constructor
  · intro h
    have h0 := h 0
    have h1 := h 1
    rw [hs0, hw0] at h0
    rw [hs1, hw1] at h1
    have e0 : (((ix2 i c' : (⟨2, ![N, C]⟩ : Shape).Idx) 0).val : Int) = (i.val : Int) := rfl
    have e1 : (((ix2 i c' : (⟨2, ![N, C]⟩ : Shape).Idx) 1).val : Int) = (c'.val : Int) := rfl
    refine ⟨by omega, Fin.ext (by omega)⟩
  · rintro ⟨h0, rfl⟩ a
    match a with
    | ⟨0, _⟩ => show (rowScatter N E C wf).start (ix2 e c) idx 0 + ((rowScatter N E C wf).window (ix2 e c) 0 : Int) = _; rw [hs0, hw0, h0]; simp
    | ⟨1, _⟩ => show (rowScatter N E C wf).start (ix2 e c) idx 1 + ((rowScatter N E C wf).window (ix2 e c) 1 : Int) = _; rw [hs1, hw1]; simp

/-- The accumulating scatter at table entry `(i, c)`: the operand there plus the update entries `(e, c)` of the edges
    `e` whose index word is `i`. -/
theorem rowScatter_add_apply {N E C w : Nat} (wf) (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => (idx (ix2 e 0)).toInt = (i.val : Int)), upd (ix2 e c) := by
  unfold Ideal.hostScatterAdd
  congr 1
  rw [Finset.sum_filter, sum_idx2, Finset.sum_filter]
  refine Finset.sum_congr rfl fun e _ => ?_
  simp only [rowScatter_lands]
  by_cases h : (idx (ix2 e 0)).toInt = (i.val : Int)
  · simp only [h, true_and, if_true]
    rw [Finset.sum_ite_eq' Finset.univ c (fun c' => upd (ix2 e c'))]
    simp
  · simp only [h, false_and, if_false]
    exact Finset.sum_const_zero

/-! ## Scatter into a vector -/

/-- The dimension numbers of `x.at[idx].add(u)` for a vector `[N]`, index words `[E, 1]`, updates `[E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on vector entry `i` iff the index word of row `e`, read signed, is `i`. -/
theorem vecScatter_lands {N E w : Nat} (wf) (idx : IVec ⟨2, ![E, 1]⟩ w) (e : Fin E) (i : Fin N) :
    (vecScatter N E wf).resultIdx? (ix1 e) idx = some (ix1 i) ↔ (idx (ix2 e 0)).toInt = (i.val : Int) := by
  rw [ScatterDims.resultIdx?_eq_some_iff]
  have hs0 : (vecScatter N E wf).start (ix1 e) idx 0 = (idx (ix2 e 0)).toInt := by
    unfold ScatterDims.start
    rw [dif_pos (show (0 : Fin 1) ∈ (vecScatter N E wf).scatterDimsToOperandDims from List.mem_singleton.mpr rfl)]
    congr 2
    funext b
    refine Fin.ext ?_
    match b with
    | ⟨0, _⟩ => rfl
    | ⟨1, _⟩ => rfl
  have hw0 : (vecScatter N E wf).window (ix1 e) 0 = 0 := by
    unfold ScatterDims.window
    have hm : (0 : Fin 1) ∉ (vecScatter N E wf).sKept := by
      show (0 : Fin 1) ∉ (List.finRange 1).filter (· ∉ ([0] : List (Fin 1)))
      decide
    rw [dif_neg hm]
  have e0 : (((ix1 i : (⟨1, ![N]⟩ : Shape).Idx) 0).val : Int) = (i.val : Int) := rfl
  constructor
  · intro h
    have h0 := h 0
    rw [hs0, hw0] at h0
    omega
  · intro h0 a
    obtain rfl : a = 0 := Subsingleton.elim _ _
    rw [hs0, hw0, h0]; omega

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  (Fintype.sum_equiv (⟨fun i => i 0, ix1, fun i => (eq_ix1 i).symm, fun _ => rfl⟩ : (⟨1, ![n]⟩ : Shape).Idx ≃ Fin n)
    f (fun a => f (ix1 a)) (fun i => congrArg f (eq_ix1 i)))

/-- The accumulating scatter at vector entry `i`: the operand there plus the updates of the edges whose index word is `i`. -/
theorem vecScatter_add_apply {N E w : Nat} (wf) (x : (⟨1, ![N]⟩ : Shape).Idx → EReal) (idx : IVec ⟨2, ![E, 1]⟩ w)
    (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : Int)), upd (ix1 e) := by
  unfold Ideal.hostScatterAdd
  congr 1
  rw [Finset.sum_filter, sum_idx1, Finset.sum_filter]
  refine Finset.sum_congr rfl fun e _ => ?_
  simp only [vecScatter_lands]

/-! ## Gathers of rows and of vector entries -/

/-- The dimension numbers of `x[idx]` for a table `[N, C]` and index words `[E, 1]`: whole rows, `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` of a row gather is the table's entry `(nodeOf idx[e, 0], c)`. -/
theorem rowGather_apply {α : Type} {N E C w : Nat} (hN : 0 < N) (wf) (x : (⟨2, ![N, C]⟩ : Shape).Idx → α)
    (idx : IVec ⟨2, ![E, 1]⟩ w) (e : Fin E) (c : Fin C) :
    Host.gather (rowGather N E C wf) x idx (ix2 e c) = x (ix2 (nodeOf N hN (idx (ix2 e 0))) c) := by
  unfold Host.gather
  congr 1
  funext a
  refine Fin.ext ?_
  match a with
  | ⟨0, _⟩ =>
    show (rowGather N E C wf).start (ix2 e c) idx 0 + (rowGather N E C wf).batchCoord (ix2 e c) 0 + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1 + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ ([0] : List (Fin 2)) from by decide)]
    have ho : (rowGather N E C wf).offCoord (ix2 e c) 1 = c.val := by
      unfold GatherDims.offCoord
      have hm : (1 : Fin 2) ∈ (rowGather N E C wf).sKept :=
        (GatherDims.mem_sKept _ _).mpr ⟨fun h => absurd (List.mem_singleton.mp h) (show (1 : Fin 2) ≠ 0 from by decide), List.not_mem_nil⟩
      rw [dif_pos hm]
      rfl
    rw [hs, ho]; simp

/-- The dimension numbers of `x[idx]` for a vector `[N]` and index words `[E, 1]`: entries, `[E]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of a vector gather is the vector's entry `nodeOf idx[e, 0]`. -/
theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (nodeOf N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Small reads used with the above -/

/-- At the exact values the host's accumulating scatter is the sum form. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- A scalar broadcast to any shape reads the scalar everywhere. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector of `E` entries kept as a column `[E, 1]` reads entry `e` at `(e, 0)`. -/
theorem col_apply {E : Nat} {α : Type} (h : (⟨1, ![E]⟩ : Shape).BroadcastsInDim ⟨2, ![E, 1]⟩ ![0])
    (v : (⟨1, ![E]⟩ : Shape).Idx → α) (e : Fin E) : broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

end Idealize.ShloMosaic.RowIndexed
-- ==== Proof.GcnSpec.lean ====
/-
  The two-layer graph convolution with a projection head, written as plain formulas on the extended reals,
  in the two arrangements that are compared.

  Nodes are 0 … 49999, edges 0 … 799999; edge e carries a source word and a destination word (32-bit, read signed).
  * A row gather addresses the row `node w`: the word, wrapped by 50000 when negative, clamped into the table.
  * An accumulating scatter lands edge e on node i exactly when the destination word, read signed, IS i.
  The degree of a node counts the edges landing on it, plus one for its self-loop; dinv = 1/sqrt(degree).

  Arrangement K ("scale the nodes"): every node's row H i is scaled once by dinv i, the scaled rows are gathered along the
  edges and summed at the destinations, the node's own scaled row is added (its self-loop), and the sum is scaled by
  dinv i again.
  Arrangement R ("scale the edges"): the self-loops are 50000 further edges j = 800000 + i from i to i; every edge's
  gathered row is multiplied by dinv(source) * dinv(destination) and summed at the destination.
  The two agree when the rows H and the dinv are real numbers (distributivity), which is the layer law proved elsewhere.
-/
import Idealize.ShloMosaic.PureOps.Ideal
import Idealize.ShloMosaic.Lib.ValueIdx
import proofs.«111989_j69879117906023_2_alg».proof.Proof.LibRowIndexed

noncomputable section

namespace Cert.Gcn

open Idealize.ShloMosaic Idealize.ShloMosaic.ValueIdx Idealize.ShloMosaic.RowIndexed

abbrev Mat (a b : Nat) := (⟨2, ![a, b]⟩ : Shape).Idx → EReal
abbrev Vc (a : Nat) := (⟨1, ![a]⟩ : Shape).Idx → EReal
abbrev Sc := (⟨0, ![]⟩ : Shape).Idx → EReal
abbrev Edges := (⟨2, ![2, 800000]⟩ : Shape).Idx → BitVec 32

/-- The float words 0.0 and 1.0 as extended reals (they denote 0 and 1). -/
def zeroE : EReal := Ideal.ofBits .f32 0x00000000#32
def oneE : EReal := Ideal.ofBits .f32 0x3F800000#32

/-- Source and destination word of edge `e`. -/
def srcW (ei : Edges) (e : Fin 800000) : BitVec 32 := ei (ix2 0 e)
def dstW (ei : Edges) (e : Fin 800000) : BitVec 32 := ei (ix2 1 e)

/-- A negative index word wrapped by the table height. -/
def wrapW (w : BitVec 32) : BitVec 32 := Scalar.select (IntOp.cmpi .slt w 0#32) (IntOp.addi w 50000#32) w

/-- The table row a gather reads for the index word `w`. -/
def node (w : BitVec 32) : Fin 50000 := nodeOf 50000 (by decide) (wrapW w)

/-- The reference's 850000 index words: the 800000 edge words, then the self-loop words 0 … 49999. -/
def withLoops (f : Fin 800000 → BitVec 32) (j : Fin 850000) : BitVec 32 :=
  if h : j.val < 800000 then f ⟨j.val, h⟩ else BitVec.ofNat 32 (j.val - 800000)

/-- A matrix product read at one entry. -/
def mm {n k c : Nat} (X : Fin n → Fin k → EReal) (W : Mat k c) (i : Fin n) (j : Fin c) : EReal :=
  ∑ t : Fin k, X i t * W (ix2 t j)

/-- PReLU with slope `a`: `y` where `y ≥ 0`, else `a * y`. -/
def prelu (a y : EReal) : EReal := Scalar.select (Ideal.cmp .oge y zeroE) y (a * y)

/-! ## Arrangement K (source words `s`, destination words `d`) -/

/-- In-degree over the 800000 edges, plus the self-loop. -/
def degK (d : Fin 800000 → BitVec 32) (i : Fin 50000) : EReal :=
  (zeroE + ∑ e ∈ Finset.univ.filter (fun e : Fin 800000 => (d e).toInt = (i.val : Int)), oneE) + oneE

def dinvK (d : Fin 800000 → BitVec 32) (i : Fin 50000) : EReal := Ideal.rsqrt (degK d i)

/-- Rows gathered along the edges and summed at the destinations. -/
def aggK {C : Nat} (s d : Fin 800000 → BitVec 32) (hs : Fin 50000 → Fin C → EReal) (i : Fin 50000) (c : Fin C) : EReal :=
  zeroE + ∑ e ∈ Finset.univ.filter (fun e : Fin 800000 => (d e).toInt = (i.val : Int)), hs (node (s e)) c

/-- A node's row scaled by its dinv. -/
def scaledK {C : Nat} (d : Fin 800000 → BitVec 32) (H : Fin 50000 → Fin C → EReal) (i : Fin 50000) (c : Fin C) : EReal :=
  H i c * dinvK d i

/-- One layer before its activation, arrangement K, from the SCALED rows `hs`. -/
def preK {C : Nat} (s d : Fin 800000 → BitVec 32) (hs : Fin 50000 → Fin C → EReal) (b : Vc C) (i : Fin 50000) (c : Fin C) : EReal :=
  (aggK s d hs i c + hs i c) * dinvK d i + b (ix1 c)

/-- One layer in arrangement K, from the product rows `H`. -/
def layerK {C : Nat} (s d : Fin 800000 → BitVec 32) (H : Fin 50000 → Fin C → EReal) (b : Vc C) (a : EReal) (i : Fin 50000) (c : Fin C) : EReal :=
  prelu a (preK s d (scaledK d H) b i c)

/-- The head's ELU as the kernel spells it. -/
def eluK (h : EReal) : EReal := Scalar.select (Ideal.cmp .ogt h zeroE) h (Ideal.exp h - oneE)

/-! ## Arrangement R -/

def degR (d : Fin 800000 → BitVec 32) (i : Fin 50000) : EReal :=
  zeroE + ∑ j ∈ Finset.univ.filter (fun j : Fin 850000 => (withLoops d j).toInt = (i.val : Int)), oneE

def dinvR (d : Fin 800000 → BitVec 32) (i : Fin 50000) : EReal :=
  Scalar.select (Ideal.cmp .ogt (degR d i) zeroE) (Ideal.rsqrt (degR d i)) zeroE

/-- The weight of edge `j` (self-loops included). -/
def normR (s d : Fin 800000 → BitVec 32) (j : Fin 850000) : EReal :=
  dinvR d (node (withLoops s j)) * dinvR d (node (withLoops d j))

/-- One layer before its activation, arrangement R, from the product rows `H`. -/
def preR {C : Nat} (s d : Fin 800000 → BitVec 32) (H : Fin 50000 → Fin C → EReal) (b : Vc C) (i : Fin 50000) (c : Fin C) : EReal :=
  (zeroE + ∑ j ∈ Finset.univ.filter (fun j : Fin 850000 => (withLoops d j).toInt = (i.val : Int)),
      H (node (withLoops s j)) c * normR s d j) + b (ix1 c)

/-- One layer in arrangement R. -/
def layerR {C : Nat} (s d : Fin 800000 → BitVec 32) (H : Fin 50000 → Fin C → EReal) (b : Vc C) (a : EReal) (i : Fin 50000) (c : Fin C) : EReal :=
  prelu a (preR s d H b i c)

/-- The head's ELU as the reference spells it: the exponent is guarded, and the result multiplied by the word 1.0. -/
def eluR (h : EReal) : EReal :=
  Scalar.select (Ideal.cmp .ogt h zeroE) h (oneE * (Ideal.exp (Scalar.select (Ideal.cmp .ogt h zeroE) zeroE h) - 1))

/-! ## The projection head and the two whole programs -/

/-- Linear, an activation `act`, linear. -/
def head (act : EReal → EReal) (X : Fin 50000 → Fin 64 → EReal) (P1 : Mat 64 64) (pb1 : Vc 64) (P2 : Mat 64 64) (pb2 : Vc 64)
    (i : Fin 50000) (j : Fin 64) : EReal :=
  mm (fun i t => act (mm X P1 i t + pb1 (ix1 t))) P2 i j + pb2 (ix1 j)

def kerOut (x : Mat 50000 128) (ei : Edges) (W1 : Mat 128 128) (b1 : Vc 128) (W2 : Mat 128 64) (b2 : Vc 64) (a : Sc)
    (P1 : Mat 64 64) (pb1 : Vc 64) (P2 : Mat 64 64) (pb2 : Vc 64) : Fin 50000 → Fin 64 → EReal :=
  head eluK (layerK (srcW ei) (dstW ei) (mm (layerK (srcW ei) (dstW ei) (mm (fun i k => x (ix2 i k)) W1) b1 (a ix0)) W2) b2 (a ix0))
    P1 pb1 P2 pb2

def refOut (x : Mat 50000 128) (ei : Edges) (W1 : Mat 128 128) (b1 : Vc 128) (W2 : Mat 128 64) (b2 : Vc 64) (a : Sc)
    (P1 : Mat 64 64) (pb1 : Vc 64) (P2 : Mat 64 64) (pb2 : Vc 64) : Fin 50000 → Fin 64 → EReal :=
  head eluR (layerR (srcW ei) (dstW ei) (mm (layerR (srcW ei) (dstW ei) (mm (fun i k => x (ix2 i k)) W1) b1 (a ix0)) W2) b2 (a ix0))
    P1 pb1 P2 pb2

end Cert.Gcn

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.EdgeOps.lean ====
/-
  The host operations between the kernels, read at coordinates.

  * A row of the edge array [2, 800000], sliced out and kept as a vector, reads the array's entry of that row.
  * The source words, wrapped when negative and kept as a column [800000, 1], read `wrapW` of the word.
  * A vector kept as a column reads its entry.
  * The degree vector — an accumulating scatter of ones at the destination words into zeros, plus one — under the
    reciprocal square root and kept as a column [50000, 1] reads `dinvK`.
  * The gather of a table's rows along the wrapped source words, summed by an accumulating scatter at the destination
    words into zeros, reads `aggK`.
  * A bias vector kept as a row [1, C] reads its entry; a scalar kept as [1, 1] reads the scalar.
-/
import proofs.«111989_j69879117906023_2_alg».proof.Proof.GcnSpec
import proofs.«111989_j69879117906023_2_alg».proof.Proof.LibKeepdimsColumn
import Idealize.ShloMosaic.Lib.Pipeline.Value
import Idealize.ShloMosaic.Lib.ValueLayout

noncomputable section

namespace Cert.Gcn.EdgeOps

open Idealize.ShloMosaic Idealize.ShloMosaic.ValueIdx Idealize.ShloMosaic.RowIndexed Cert.Gcn

abbrev S0 : Shape := ⟨0, ![]⟩
abbrev S2E : Shape := ⟨2, ![2, 800000]⟩
abbrev S1E : Shape := ⟨2, ![1, 800000]⟩
abbrev SE : Shape := ⟨1, ![800000]⟩
abbrev SE1 : Shape := ⟨2, ![800000, 1]⟩
abbrev SN : Shape := ⟨1, ![50000]⟩
abbrev SN1 : Shape := ⟨2, ![50000, 1]⟩

/-- Row `r` of the edge array, sliced at offset `o = r` and kept as a vector, at edge `e`. -/
theorem edge_row (ei : S2E.Idx → BitVec 32) (o : Nat) (r : Fin 2) (ho : o = r.val) (hs : S2E.Slices ![o, 0] S1E)
    (hc : S1E.ShapeCasts SE) (e : Fin 800000) :
    shapeCast SE (extractStridedSlice S1E ![o, 0] ei hs) hc (ix1 e) = ei (ix2 r e) := by
  rw [shapeCast_apply _ hc (ix1 e) (ix2 (0 : Fin 1) e) (by
    rw [Shape.rowMajor_val_two, Shape.rowMajor_val_one]; show 0 * 800000 + e.val = e.val; omega)]
  exact extractStridedSlice_apply _ ei hs _ _ (fun a => by
    match a with
    | ⟨0, _⟩ => show r.val = o + 0; omega
    | ⟨1, _⟩ => show e.val = 0 + e.val; omega)

/-- The wrapped words kept as a column. -/
theorem wrap_col (v : SE.Idx → BitVec 32) (hb : S0.BroadcastsInDim SE ![]) (hcol : SE.BroadcastsInDim SE1 ![0]) (e : Fin 800000) :
    broadcastInDim SE1 ![0] hcol (select (cmpi .slt v (broadcastInDim SE ![] hb (constantI S0 32 0#32)))
      (addi v (broadcastInDim SE ![] hb (constantI S0 32 50000#32))) v) (ix2 e (0 : Fin 1)) = wrapW (v (ix1 e)) := by
  rw [col_apply]
  show Scalar.select (IntOp.cmpi .slt (v (ix1 e)) (broadcastInDim SE ![] hb (constantI S0 32 0#32) (ix1 e)))
      (IntOp.addi (v (ix1 e)) (broadcastInDim SE ![] hb (constantI S0 32 50000#32) (ix1 e))) (v (ix1 e)) = wrapW (v (ix1 e))
  generalize v (ix1 e) = w
  rw [bcast_scalar_apply, bcast_scalar_apply]
  simp only [wrapW, constantI]

/-- The degree vector under the reciprocal square root, kept as a column. -/
theorem dinv_col (wf) (d : SE.Idx → BitVec 32) (hz : S0.BroadcastsInDim SN ![]) (ho : S0.BroadcastsInDim SE ![])
    (hcol : SE.BroadcastsInDim SE1 ![0]) (hc : SN.ShapeCasts SN1) (i : Fin 50000) (u : Fin 1) :
    shapeCast SN1 (Host.rsqrt (F := Ideal) (addf
        (Host.scatterAdd (vecScatter 50000 800000 wf) (broadcastInDim SN ![] hz (constant (F := Ideal) S0 .f32 0x00000000#32))
          (broadcastInDim SE1 ![0] hcol d) (broadcastInDim SE ![] ho (constant (F := Ideal) S0 .f32 0x3F800000#32)))
        (broadcastInDim SN ![] hz (constant (F := Ideal) S0 .f32 0x3F800000#32)))) hc (ix2 i u)
      = dinvK (fun e => d (ix1 e)) i := by
  rw [KeepdimsColumn.shapeCast_a_a1_apply]
  have hr : ∀ y : SN.Idx → EReal, Host.rsqrt (F := Ideal) (φ := .f32) y (ix1 i) = Ideal.rsqrt (y (ix1 i)) := fun _ => rfl
  rw [hr, addf_apply, scatterAdd_ideal, vecScatter_add_apply, bcast_scalar_apply, bcast_scalar_apply]
  unfold dinvK degK
  refine congrArg Ideal.rsqrt (congrArg₂ (· + ·) (congrArg₂ (· + ·) rfl ?_) rfl)
  exact Finset.sum_congr (Finset.filter_congr fun e _ => by rw [col_apply]) (fun e _ => bcast_scalar_apply _ _ _)

/-- Rows gathered along the index column `gi` and summed at the destination column `si`, into zeros. -/
theorem agg_apply {C : Nat} (wfG) (wfS) (hs : FVec Ideal ⟨2, ![50000, C]⟩ .bf16) (gi si : SE1.Idx → BitVec 32)
    (hz : S0.BroadcastsInDim ⟨2, ![50000, C]⟩ ![]) (hlt : FTy.bf16.bits < FTy.f32.bits) (i : Fin 50000) (c : Fin C) :
    Host.scatterAdd (F := Ideal) (φ := .f32) (rowScatter 50000 800000 C wfS)
        (broadcastInDim ⟨2, ![50000, C]⟩ ![] hz (constant (F := Ideal) S0 .f32 0x00000000#32)) si
        (extf .f32 (Host.gather (rowGather 50000 800000 C wfG) hs gi) hlt) (ix2 i c)
      = zeroE + ∑ e ∈ Finset.univ.filter (fun e : Fin 800000 => (si (ix2 e 0)).toInt = (i.val : Int)),
          hs (ix2 (nodeOf 50000 (by decide) (gi (ix2 e 0))) c) := by
  rw [scatterAdd_ideal, rowScatter_add_apply, bcast_scalar_apply]
  refine congrArg₂ (· + ·) rfl (Finset.sum_congr rfl fun e _ => ?_)
  rw [extf_apply]
  exact rowGather_apply (by decide) _ _ _ e c

/-- A bias vector kept as a row. -/
theorem row_apply {C : Nat} (b : (⟨1, ![C]⟩ : Shape).Idx → EReal) (h : (⟨1, ![C]⟩ : Shape).ShapeCasts ⟨2, ![1, C]⟩) (u : Fin 1) (k : Fin C) :
    shapeCast ⟨2, ![1, C]⟩ b h (ix2 u k) = b (ix1 k) :=
  shapeCast_apply b h _ _ (by
    have hu : u.val = 0 := by omega
    rw [Shape.rowMajor_val_two, Shape.rowMajor_val_one]; show k.val = u.val * C + k.val; rw [hu]; omega)

/-- A scalar kept as a one-by-one matrix. -/
theorem scalar_apply (a : S0.Idx → EReal) (h : S0.ShapeCasts ⟨2, ![1, 1]⟩) (u v : Fin 1) :
    shapeCast ⟨2, ![1, 1]⟩ a h (ix2 u v) = a ix0 :=
  congrArg a (funext fun x => x.elim0)

end Cert.Gcn.EdgeOps

end
-- ==== Proof.KernelHost.lean ====
/-
  The idealized kernel's three stretches of host operations, read at coordinates from the contents `V` they start at.

  Stretch 0 cuts the edge array into its source and destination word vectors and computes the dinv column.
  Stretch 1 gathers the first layer's scaled rows along the edges and sums them at the destinations, and keeps the first
  bias as a row and the slope as a one-by-one matrix. Stretch 2 does the same for the second layer, and keeps the second
  bias and the head's two biases as rows.
-/
import proofs.«111989_j69879117906023_2_alg».proof.Proof.Gen.KernelIdeal.Frame
import proofs.«111989_j69879117906023_2_alg».proof.Proof.EdgeOps

noncomputable section

namespace Cert.KernelIdeal.HostStretch

open Cert.KernelIdeal Cert.KernelIdeal.Gen Idealize.ShloMosaic Idealize.ShloMosaic.TcCoe Idealize.ShloMosaic.StableHlo
open Idealize.ShloMosaic.ValueIdx Idealize.ShloMosaic.RowIndexed Cert.Gcn Cert.Gcn.EdgeOps

variable (V : Valuation τ sig (Elt Ideal))

/-! ## Stretch 0 -/

theorem s0_v1 (e : Fin 800000) :
    after (hostOps0 (F := Ideal)) V (Proc.devRef .tc main_v1) (ix1 e) = srcW (V (Proc.devRef .tc main_arg1)) e := by
  have h : after (hostOps0 (F := Ideal)) V (Proc.devRef .tc main_v1)
      = shapeCast S800000 (extractStridedSlice S1x800000 ![0, 0] (V (Proc.devRef .tc main_arg1)) slices_S2x800000_S1x800000_0_0)
          shapeCasts_S1x800000_S800000 := by
    after_results; rfl
  rw [h]
  exact edge_row _ 0 0 rfl _ _ e

theorem s0_v3 (e : Fin 800000) :
    after (hostOps0 (F := Ideal)) V (Proc.devRef .tc main_v3) (ix1 e) = dstW (V (Proc.devRef .tc main_arg1)) e := by
  have h : after (hostOps0 (F := Ideal)) V (Proc.devRef .tc main_v3)
      = shapeCast S800000 (extractStridedSlice S1x800000 ![1, 0] (V (Proc.devRef .tc main_arg1)) slices_S2x800000_S1x800000_1_0)
          shapeCasts_S1x800000_S800000 := by
    after_results; rfl
  rw [h]
  exact edge_row _ 1 1 rfl _ _ e

theorem s0_v11 (i : Fin 50000) (u : Fin 1) :
    after (hostOps0 (F := Ideal)) V (Proc.devRef .tc main_v11) (ix2 i u) = dinvK (dstW (V (Proc.devRef .tc main_arg1))) i := by
  have h : after (hostOps0 (F := Ideal)) V (Proc.devRef .tc main_v11)
      = shapeCast S50000x1 (Host.rsqrt (F := Ideal) (addf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0
              (shapeCast S800000 (extractStridedSlice S1x800000 ![1, 0] (V (Proc.devRef .tc main_arg1)) slices_S2x800000_S1x800000_1_0)
                shapeCasts_S1x800000_S800000))
            (broadcastInDim S800000 ![] bcast_S_S800000 (constant (F := Ideal) S_ .f32 0x3F800000#32)))
          (broadcastInDim S50000 ![] bcast_S_S50000 (constant (F := Ideal) S_ .f32 0x3F800000#32)))) shapeCasts_S50000_S50000x1 := by
    after_results; rfl
  rw [h]
  refine (dinv_col scatter_S50000_S800000x1_S800000_n_0_0_1_wf _ _ _ _ _ i u).trans ?_
  exact congrArg (fun d => dinvK d i) (funext fun e => edge_row _ 1 1 rfl _ _ e)

/-! ## Stretch 1 -/

theorem s1_v23 (i : Fin 50000) (c : Fin 128) :
    after (hostOps1 (F := Ideal)) V (Proc.devRef .tc main_v23) (ix2 i c)
      = aggK (fun e => V (Proc.devRef .tc main_v1) (ix1 e)) (fun e => V (Proc.devRef .tc main_v3) (ix1 e))
          (fun i c => V (Proc.devRef .tc main_v12) (ix2 i c)) i c := by
  have h : after (hostOps1 (F := Ideal)) V (Proc.devRef .tc main_v23)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_v3)))
          (extf .f32 (Host.gather gather_S50000x128_S800000x1_S800000x128_1_0_n_n_0_1_1128 (V (Proc.devRef .tc main_v12))
            (broadcastInDim S800000x1 ![0] bcast_S800000_S800000x1_0
              (select (cmpi .slt (V (Proc.devRef .tc main_v1)) (broadcastInDim S800000 ![] bcast_S_S800000 (constantI S_ 32 0#32)))
                (addi (V (Proc.devRef .tc main_v1)) (broadcastInDim S800000 ![] bcast_S_S800000 (constantI S_ 32 50000#32)))
                (V (Proc.devRef .tc main_v1))))) bitsLt_bf16_f32) := by
    after_results
  rw [h]
  refine (agg_apply (C := 128) gather_S50000x128_S800000x1_S800000x128_1_0_n_n_0_1_1128_wf
    scatter_S50000x128_S800000x1_S800000x128_1_0_0_1_wf (V (Proc.devRef .tc main_v12)) _ _ _ _ i c).trans ?_
  unfold aggK node
  refine congrArg₂ (· + ·) rfl (Finset.sum_congr (Finset.filter_congr fun e _ => by rw [col_apply]) fun e _ => ?_)
  rw [wrap_col]

theorem s1_v24 (u : Fin 1) (k : Fin 128) :
    after (hostOps1 (F := Ideal)) V (Proc.devRef .tc main_v24) (ix2 u k) = V (Proc.devRef .tc main_arg3) (ix1 k) := by
  have h : after (hostOps1 (F := Ideal)) V (Proc.devRef .tc main_v24)
      = shapeCast S1x128 (V (Proc.devRef .tc main_arg3)) shapeCasts_S128_S1x128 := by
    after_results; rfl
  rw [h]; exact row_apply _ _ u k

theorem s1_v25 (u v : Fin 1) :
    after (hostOps1 (F := Ideal)) V (Proc.devRef .tc main_v25) (ix2 u v) = V (Proc.devRef .tc main_arg6) ix0 := by
  have h : after (hostOps1 (F := Ideal)) V (Proc.devRef .tc main_v25)
      = shapeCast S1x1 (V (Proc.devRef .tc main_arg6)) shapeCasts_S_S1x1 := by
    after_results; rfl
  rw [h]; exact scalar_apply _ _ u v

theorem s1_v12 : after (hostOps1 (F := Ideal)) V (Proc.devRef .tc main_v12) = V (Proc.devRef .tc main_v12) := by after_results
theorem s1_v11 : after (hostOps1 (F := Ideal)) V (Proc.devRef .tc main_v11) = V (Proc.devRef .tc main_v11) := by after_results
theorem s1_v1 : after (hostOps1 (F := Ideal)) V (Proc.devRef .tc main_v1) = V (Proc.devRef .tc main_v1) := by after_results
theorem s1_v3 : after (hostOps1 (F := Ideal)) V (Proc.devRef .tc main_v3) = V (Proc.devRef .tc main_v3) := by after_results

/-! ## Stretch 2 -/

theorem s2_v37 (i : Fin 50000) (c : Fin 64) :
    after (hostOps2 (F := Ideal)) V (Proc.devRef .tc main_v37) (ix2 i c)
      = aggK (fun e => V (Proc.devRef .tc main_v1) (ix1 e)) (fun e => V (Proc.devRef .tc main_v3) (ix1 e))
          (fun i c => V (Proc.devRef .tc main_v26) (ix2 i c)) i c := by
  have h : after (hostOps2 (F := Ideal)) V (Proc.devRef .tc main_v37)
      = Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 (V (Proc.devRef .tc main_v3)))
          (extf .f32 (Host.gather gather_S50000x64_S800000x1_S800000x64_1_0_n_n_0_1_164 (V (Proc.devRef .tc main_v26))
            (broadcastInDim S800000x1 ![0] bcast_S800000_S800000x1_0
              (select (cmpi .slt (V (Proc.devRef .tc main_v1)) (broadcastInDim S800000 ![] bcast_S_S800000 (constantI S_ 32 0#32)))
                (addi (V (Proc.devRef .tc main_v1)) (broadcastInDim S800000 ![] bcast_S_S800000 (constantI S_ 32 50000#32)))
                (V (Proc.devRef .tc main_v1))))) bitsLt_bf16_f32) := by
    after_results
  rw [h]
  refine (agg_apply (C := 64) gather_S50000x64_S800000x1_S800000x64_1_0_n_n_0_1_164_wf
    scatter_S50000x64_S800000x1_S800000x64_1_0_0_1_wf (V (Proc.devRef .tc main_v26)) _ _ _ _ i c).trans ?_
  unfold aggK node
  refine congrArg₂ (· + ·) rfl (Finset.sum_congr (Finset.filter_congr fun e _ => by rw [col_apply]) fun e _ => ?_)
  rw [wrap_col]

theorem s2_v38 (u : Fin 1) (k : Fin 64) :
    after (hostOps2 (F := Ideal)) V (Proc.devRef .tc main_v38) (ix2 u k) = V (Proc.devRef .tc main_arg5) (ix1 k) := by
  have h : after (hostOps2 (F := Ideal)) V (Proc.devRef .tc main_v38)
      = shapeCast S1x64 (V (Proc.devRef .tc main_arg5)) shapeCasts_S64_S1x64 := by
    after_results; rfl
  rw [h]; exact row_apply _ _ u k

theorem s2_v39 (u v : Fin 1) :
    after (hostOps2 (F := Ideal)) V (Proc.devRef .tc main_v39) (ix2 u v) = V (Proc.devRef .tc main_arg6) ix0 := by
  have h : after (hostOps2 (F := Ideal)) V (Proc.devRef .tc main_v39)
      = shapeCast S1x1 (V (Proc.devRef .tc main_arg6)) shapeCasts_S_S1x1 := by
    after_results; rfl
  rw [h]; exact scalar_apply _ _ u v

theorem s2_v40 (u : Fin 1) (k : Fin 64) :
    after (hostOps2 (F := Ideal)) V (Proc.devRef .tc main_v40) (ix2 u k) = V (Proc.devRef .tc main_arg8) (ix1 k) := by
  have h : after (hostOps2 (F := Ideal)) V (Proc.devRef .tc main_v40)
      = shapeCast S1x64 (V (Proc.devRef .tc main_arg8)) shapeCasts_S64_S1x64 := by
    after_results; rfl
  rw [h]; exact row_apply _ _ u k

theorem s2_v41 (u : Fin 1) (k : Fin 64) :
    after (hostOps2 (F := Ideal)) V (Proc.devRef .tc main_v41) (ix2 u k) = V (Proc.devRef .tc main_arg10) (ix1 k) := by
  have h : after (hostOps2 (F := Ideal)) V (Proc.devRef .tc main_v41)
      = shapeCast S1x64 (V (Proc.devRef .tc main_arg10)) shapeCasts_S64_S1x64 := by
    after_results; rfl
  rw [h]; exact row_apply _ _ u k

theorem s2_v26 : after (hostOps2 (F := Ideal)) V (Proc.devRef .tc main_v26) = V (Proc.devRef .tc main_v26) := by after_results
theorem s2_v11 : after (hostOps2 (F := Ideal)) V (Proc.devRef .tc main_v11) = V (Proc.devRef .tc main_v11) := by after_results

/-! ## No stretch writes an argument array -/

theorem s0_arg0 : after (hostOps0 (F := Ideal)) V (Proc.devRef .tc main_arg0) = V (Proc.devRef .tc main_arg0) := by after_results
theorem s0_arg1 : after (hostOps0 (F := Ideal)) V (Proc.devRef .tc main_arg1) = V (Proc.devRef .tc main_arg1) := by after_results
theorem s0_arg2 : after (hostOps0 (F := Ideal)) V (Proc.devRef .tc main_arg2) = V (Proc.devRef .tc main_arg2) := by after_results
theorem s0_arg3 : after (hostOps0 (F := Ideal)) V (Proc.devRef .tc main_arg3) = V (Proc.devRef .tc main_arg3) := by after_results
theorem s0_arg4 : after (hostOps0 (F := Ideal)) V (Proc.devRef .tc main_arg4) = V (Proc.devRef .tc main_arg4) := by after_results
theorem s0_arg5 : after (hostOps0 (F := Ideal)) V (Proc.devRef .tc main_arg5) = V (Proc.devRef .tc main_arg5) := by after_results
theorem s0_arg6 : after (hostOps0 (F := Ideal)) V (Proc.devRef .tc main_arg6) = V (Proc.devRef .tc main_arg6) := by after_results
theorem s0_arg7 : after (hostOps0 (F := Ideal)) V (Proc.devRef .tc main_arg7) = V (Proc.devRef .tc main_arg7) := by after_results
theorem s0_arg8 : after (hostOps0 (F := Ideal)) V (Proc.devRef .tc main_arg8) = V (Proc.devRef .tc main_arg8) := by after_results
theorem s0_arg9 : after (hostOps0 (F := Ideal)) V (Proc.devRef .tc main_arg9) = V (Proc.devRef .tc main_arg9) := by after_results
theorem s0_arg10 : after (hostOps0 (F := Ideal)) V (Proc.devRef .tc main_arg10) = V (Proc.devRef .tc main_arg10) := by after_results
theorem s1_arg0 : after (hostOps1 (F := Ideal)) V (Proc.devRef .tc main_arg0) = V (Proc.devRef .tc main_arg0) := by after_results
theorem s1_arg1 : after (hostOps1 (F := Ideal)) V (Proc.devRef .tc main_arg1) = V (Proc.devRef .tc main_arg1) := by after_results
theorem s1_arg2 : after (hostOps1 (F := Ideal)) V (Proc.devRef .tc main_arg2) = V (Proc.devRef .tc main_arg2) := by after_results
theorem s1_arg3 : after (hostOps1 (F := Ideal)) V (Proc.devRef .tc main_arg3) = V (Proc.devRef .tc main_arg3) := by after_results
theorem s1_arg4 : after (hostOps1 (F := Ideal)) V (Proc.devRef .tc main_arg4) = V (Proc.devRef .tc main_arg4) := by after_results
theorem s1_arg5 : after (hostOps1 (F := Ideal)) V (Proc.devRef .tc main_arg5) = V (Proc.devRef .tc main_arg5) := by after_results
theorem s1_arg6 : after (hostOps1 (F := Ideal)) V (Proc.devRef .tc main_arg6) = V (Proc.devRef .tc main_arg6) := by after_results
theorem s1_arg7 : after (hostOps1 (F := Ideal)) V (Proc.devRef .tc main_arg7) = V (Proc.devRef .tc main_arg7) := by after_results
theorem s1_arg8 : after (hostOps1 (F := Ideal)) V (Proc.devRef .tc main_arg8) = V (Proc.devRef .tc main_arg8) := by after_results
theorem s1_arg9 : after (hostOps1 (F := Ideal)) V (Proc.devRef .tc main_arg9) = V (Proc.devRef .tc main_arg9) := by after_results
theorem s1_arg10 : after (hostOps1 (F := Ideal)) V (Proc.devRef .tc main_arg10) = V (Proc.devRef .tc main_arg10) := by after_results
theorem s2_arg0 : after (hostOps2 (F := Ideal)) V (Proc.devRef .tc main_arg0) = V (Proc.devRef .tc main_arg0) := by after_results
theorem s2_arg1 : after (hostOps2 (F := Ideal)) V (Proc.devRef .tc main_arg1) = V (Proc.devRef .tc main_arg1) := by after_results
theorem s2_arg2 : after (hostOps2 (F := Ideal)) V (Proc.devRef .tc main_arg2) = V (Proc.devRef .tc main_arg2) := by after_results
theorem s2_arg3 : after (hostOps2 (F := Ideal)) V (Proc.devRef .tc main_arg3) = V (Proc.devRef .tc main_arg3) := by after_results
theorem s2_arg4 : after (hostOps2 (F := Ideal)) V (Proc.devRef .tc main_arg4) = V (Proc.devRef .tc main_arg4) := by after_results
theorem s2_arg5 : after (hostOps2 (F := Ideal)) V (Proc.devRef .tc main_arg5) = V (Proc.devRef .tc main_arg5) := by after_results
theorem s2_arg6 : after (hostOps2 (F := Ideal)) V (Proc.devRef .tc main_arg6) = V (Proc.devRef .tc main_arg6) := by after_results
theorem s2_arg7 : after (hostOps2 (F := Ideal)) V (Proc.devRef .tc main_arg7) = V (Proc.devRef .tc main_arg7) := by after_results
theorem s2_arg8 : after (hostOps2 (F := Ideal)) V (Proc.devRef .tc main_arg8) = V (Proc.devRef .tc main_arg8) := by after_results
theorem s2_arg9 : after (hostOps2 (F := Ideal)) V (Proc.devRef .tc main_arg9) = V (Proc.devRef .tc main_arg9) := by after_results
theorem s2_arg10 : after (hostOps2 (F := Ideal)) V (Proc.devRef .tc main_arg10) = V (Proc.devRef .tc main_arg10) := by after_results

end Cert.KernelIdeal.HostStretch

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.Region0Pay.lean ====
/-
  The first layer's linear stage on one block of 5000 rows, read at one entry. The block's rows are multiplied by the
  128×128 weight matrix (both operands pass through a narrower format first, which on the extended reals changes
  nothing) and each product row is scaled by that row's entry of the one-column scale block: at row r and column c the
  result is (Σ_k x(r, k) · W(k, c)) · d(r, 0).
-/
import proofs.«111989_j69879117906023_2_alg».proof.Proof.Gen.KernelIdeal.Skeleton
import proofs.«111989_j69879117906023_2_alg».proof.Proof.LibPlainMatmul
import proofs.«111989_j69879117906023_2_alg».proof.Proof.LibKeepdimsColumn
import Idealize.ShloMosaic.Lib.ValueIdx
import Idealize.ShloMosaic.Lib.Pipeline.Value

noncomputable section

namespace Cert.KernelIdeal.Region0

open Idealize.ShloMosaic Idealize.ShloMosaic.ValueIdx Cert.KernelIdeal.Gen

/-- The product's dimension numbers are the plain ones: rows by columns, one shared axis. -/
theorem dot_plain : dot_S5000x128_S128x128_S5000x128_1_0_0_1_n_n = DotDims.plain 5000 128 128 := rfl

/-- The block's result at row `r`, column `c`: the row of `v0` against the column of `v2`, scaled by `v5` at row `r`. -/
theorem pay_apply (v0 : Vec Ideal S5000x128 .f32) (v2 : Vec Ideal S128x128 .f32) (v5 : Vec Ideal S5000x1 .f32)
    (r : Fin 5000) (c : Fin 128) :
    k0_pay1 (F := Ideal) v0 v2 v5 (ix2 r c) = (∑ k : Fin 128, v0 (ix2 r k) * v2 (ix2 k c)) * v5 (ix2 r (0 : Fin 1)) := by
  unfold k0_pay1
  show FloatOps.matmul dot_S5000x128_S128x128_S5000x128_1_0_0_1_n_n none
        (v0 : FVec Ideal S5000x128 .bf16) (v2 : FVec Ideal S128x128 .bf16) (constant (F := Ideal) S5000x128 .f32 0x00000000#32) (ix2 r c)
      * broadcastTo S5000x128 (shapeCast S5000x1 v5 shapeCasts_S5000x1_S5000x1) broadcasts_S5000x1_S5000x128 (ix2 r c) = _
  rw [dot_plain]
  refine congrArg₂ (· * ·) (PlainMatmul.apply_zero (M := 5000) (K := 128) (N := 128) _ _ r c) ?_
  rw [shapeCast_self]
  exact KeepdimsColumn.broadcastTo_a1_ab_apply v5 broadcasts_S5000x1_S5000x128 r c

end Cert.KernelIdeal.Region0

end
-- ==== Proof.Region0.lean ====
/-
  The first layer's linear stage over the whole node table. The grid has ten points; point t holds rows
  5000·t … 5000·t + 4999 of the 50000-row input, of the one-column scale array and of the output, and the whole 128×128
  weight matrix. Each point writes back its block of ONE function of the three input arrays,
      out(i, j) = (Σ_k x(i, k) · W(k, j)) · d(i, 0),
  and the ten blocks tile the output (row r lies in block r / 5000), so after the last point the output array is that
  function, whatever the arrays held when the region was entered.
-/
import proofs.«111989_j69879117906023_2_alg».proof.Proof.Gen.KernelIdeal.Frame
import proofs.«111989_j69879117906023_2_alg».proof.Proof.GcnSpec
import proofs.«111989_j69879117906023_2_alg».proof.Proof.Region0Pay
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The output array as one function of the three input arrays, entry by entry. -/
def G (A0 : Cert.Gcn.Mat 50000 128) (A1 : Cert.Gcn.Mat 128 128) (A2 : Cert.Gcn.Mat 50000 1) : Cert.Gcn.Mat 50000 128 :=
  fun i => Cert.Gcn.mm (fun r k => A0 (ix2 r k)) A1 (i 0) (i 1) * A2 (ix2 (i 0) (0 : Fin 1))

/-- The block indices over the grid: the three row-blocked windows sit at block row t, column 0; the weight matrix at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input block at point `t` is rows 5000·t … of the input array. -/
theorem iblk_x (c : Dev nD) (t : Fin cfg0.N) (y : S5000x128.Idx) (k : S50000x128.Idx)
    (hk0 : (k 0).val = 5000 * t.val + (y 0).val) (hk1 : (k 1).val = (y 1).val) :
    (iblk0 V c 0 t : Vec Ideal S5000x128 .f32) y = (V c (Pipeline.arrRef spec0 0) : S50000x128.Idx → EReal) k := by
  obtain ⟨e0, e1, -⟩ := idx_facts t
  unfold iblk0
  rw [View.read_apply]
  show (V c (Pipeline.arrRef spec0 0) : S50000x128.Idx → EReal) _ = _
  refine congrArg _ (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The weight block at every point is the whole weight matrix. -/
theorem iblk_w (c : Dev nD) (t : Fin cfg0.N) (y : S128x128.Idx) :
    (iblk0 V c 1 t : Vec Ideal S128x128 .f32) y = (V c (Pipeline.arrRef spec0 1) : S128x128.Idx → EReal) y := by
  obtain ⟨-, -, e0, e1, -⟩ := idx_facts t
  unfold iblk0
  rw [View.read_apply]
  show (V c (Pipeline.arrRef spec0 1) : S128x128.Idx → EReal) _ = _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The scale block at point `t` is rows 5000·t … of the scale column. -/
theorem iblk_d (c : Dev nD) (t : Fin cfg0.N) (y : S5000x1.Idx) (k : S50000x1.Idx)
    (hk0 : (k 0).val = 5000 * t.val + (y 0).val) (hk1 : (k 1).val = (y 1).val) :
    (iblk0 V c 2 t : Vec Ideal S5000x1 .f32) y = (V c (Pipeline.arrRef spec0 2) : S50000x1.Idx → EReal) k := by
  obtain ⟨-, -, -, -, e0, e1, -⟩ := idx_facts t
  unfold iblk0
  rw [View.read_apply]
  show (V c (Pipeline.arrRef spec0 2) : S50000x1.Idx → EReal) _ = _
  refine congrArg _ (funext fun a => Fin.ext ?_)
  match a with
  | ⟨0, _⟩ => show win0_2.index t (0 : Fin 2) * 5000 + 1 * (y 0).val = (k 0).val; rw [e0, hk0]; omega
  | ⟨1, _⟩ => show win0_2.index t (1 : Fin 2) * 1 + 1 * (y 1).val = (k 1).val; rw [e1, hk1]; omega

/-- Where the output block's entry (r, q) at point `t` sits in the output array: row 5000·t + r, column q. -/
theorem out_emb (t : Fin cfg0.N) (r : Fin 5000) (q : Fin 128) :
    ((((cfg0.win 3).blk t).view.emb (ix2 r q) : S50000x128.Idx) 0).val = 5000 * t.val + r.val
    ∧ ((((cfg0.win 3).blk t).view.emb (ix2 r q) : S50000x128.Idx) 1).val = q.val := by
  obtain ⟨-, -, -, -, -, -, e0, e1⟩ := idx_facts t
  constructor
  · show win0_3.index t (0 : Fin 2) * 5000 + 1 * r.val = _; rw [e0]; omega
  · show win0_3.index t (1 : Fin 2) * 128 + 1 * q.val = _; rw [e1]; omega

/-- What point `t` writes back is block `t` of `G` of the input arrays as the region finds them. -/
theorem flushed_eq (c : Dev nD) (t : Fin cfg0.N) :
    (dat0 V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext y
  obtain ⟨r, q, rfl⟩ : ∃ (r : Fin 5000) (q : Fin 128), y = ix2 r q := ⟨y 0, y 1, eq_ix2 y⟩
  obtain ⟨h0, h1⟩ := out_emb t r q
  show k0_pay1 (F := Ideal) (iblk0 V c 0 t) (iblk0 V c 1 t) (iblk0 V c 2 t) (ix2 r q)
    = G (V c (Pipeline.arrRef spec0 0)) (V c (Pipeline.arrRef spec0 1)) (V c (Pipeline.arrRef spec0 2)) (((cfg0.win 3).blk t).view.emb (ix2 r q))
  refine (pay_apply (iblk0 V c 0 t) (iblk0 V c 1 t) (iblk0 V c 2 t) r q).trans ?_
  unfold G Cert.Gcn.mm
  refine congrArg₂ (· * ·) (Finset.sum_congr rfl fun k _ => congrArg₂ (· * ·) ?_ ?_) ?_
  · exact iblk_x V c t (ix2 r k) _ h0 rfl
  · refine (iblk_w V c t (ix2 k q)).trans (congrArg _ (funext fun a => Fin.ext ?_))
    match a with
    | ⟨0, _⟩ => rfl
    | ⟨1, _⟩ => exact h1.symm
  · exact iblk_d V c t (ix2 r (0 : Fin 1)) _ h0 rfl

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- The ten blocks tile the output: row r lies in the block of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by omega
  obtain ⟨-, -, -, -, -, -, e0, e1⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- The output array after the region is `G` of the input arrays. -/
theorem final (c : Dev nD) :
    (dat0 V c).arrAt 3 cfg0.N = G (V c (Pipeline.arrRef spec0 0)) (V c (Pipeline.arrRef spec0 1)) (V c (Pipeline.arrRef spec0 2)) :=
  (dat0 V c).arrAt_eq_of_cover 3 _ (fun t _ => flushed_eq V c t) cover

/-- Entry (i, j) of the output array after the region: row i of the input against column j of the weights, scaled by
    the scale column's entry i. -/
theorem value (c : Dev nD) (i : Fin 50000) (j : Fin 128) :
    ((dat0 V c).arrAt 3 cfg0.N : S50000x128.Idx → EReal) (ix2 i j)
      = Cert.Gcn.mm (fun i k => (V c (Pipeline.arrRef spec0 0) : S50000x128.Idx → EReal) (ix2 i k))
          (V c (Pipeline.arrRef spec0 1) : S128x128.Idx → EReal) i j
        * (V c (Pipeline.arrRef spec0 2) : S50000x1.Idx → EReal) (ix2 i (0 : Fin 1)) := by
  rw [final]; rfl

/-- The same with the three arrays named: whatever functions they are known to be when the region is entered. -/
theorem value_of (c : Dev nD) (A0 : Cert.Gcn.Mat 50000 128) (A1 : Cert.Gcn.Mat 128 128) (A2 : Cert.Gcn.Mat 50000 1)
    (h0 : (V c (Pipeline.arrRef spec0 0) : S50000x128.Idx → EReal) = A0)
    (h1 : (V c (Pipeline.arrRef spec0 1) : S128x128.Idx → EReal) = A1)
    (h2 : (V c (Pipeline.arrRef spec0 2) : S50000x1.Idx → EReal) = A2)
    (i : Fin 50000) (j : Fin 128) :
    ((dat0 V c).arrAt 3 cfg0.N : S50000x128.Idx → EReal) (ix2 i j)
      = Cert.Gcn.mm (fun i k => A0 (ix2 i k)) A1 i j * A2 (ix2 i (0 : Fin 1)) := by
  subst h0 h1 h2
  exact value V c i j

end Cert.KernelIdeal.Region0

end
-- ==== Proof.Region1Pay.lean ====
/-
  The first layer's combine stage fused with the second layer's linear stage, on one block of 5000 rows, read at one
  entry. Row r of the aggregate block and of the scaled-row block are added, scaled by the row's entry of the
  one-column scale block, and the bias row is added: y(r, k) = (g(r, k) + h(r, k)) · d(r, 0) + b(0, k). The activation
  keeps y where y ≥ 0 and takes a · y elsewhere, a the one entry of the slope block. The activated rows are multiplied
  by the 128×64 weight matrix (both operands pass through a narrower format first, which on the extended reals changes
  nothing) and each product row is scaled by the row's scale entry again.
-/
import proofs.«111989_j69879117906023_2_alg».proof.Proof.Gen.KernelIdeal.Skeleton
import proofs.«111989_j69879117906023_2_alg».proof.Proof.GcnSpec
import proofs.«111989_j69879117906023_2_alg».proof.Proof.LibPlainMatmul
import proofs.«111989_j69879117906023_2_alg».proof.Proof.LibKeepdimsColumn
import Idealize.ShloMosaic.Lib.ValueIdx
import Idealize.ShloMosaic.Lib.ValueLayout
import Idealize.ShloMosaic.Lib.Pipeline.Value

noncomputable section

namespace Cert.KernelIdeal.Region1

open Idealize.ShloMosaic Idealize.ShloMosaic.ValueIdx Cert.KernelIdeal.Gen

/-- The product's dimension numbers are the plain ones: rows by columns, one shared axis. -/
theorem dot_plain : dot_S5000x128_S128x64_S5000x64_1_0_0_1_n_n = DotDims.plain 5000 128 64 := rfl

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The activated row entry: the combine and the activation of the block's row `r` at feature `k`. -/
def act (v0 : Vec Ideal S5000x128 .f32) (v2 : Vec Ideal S5000x128 .bf16) (v6 : Vec Ideal S5000x1 .f32)
    (v10 : Vec Ideal S1x128 .f32) (v16 : Vec Ideal S1x1 .f32) (r : Fin 5000) (k : Fin 128) : EReal :=
  Cert.Gcn.prelu (v16 (ix2 (0 : Fin 1) (0 : Fin 1)))
    ((v0 (ix2 r k) + v2 (ix2 r k)) * v6 (ix2 r (0 : Fin 1)) + v10 (ix2 (0 : Fin 1) k))

/-- The left operand of the product, as the block's body spells it. -/
def lhs (v0 : Vec Ideal S5000x128 .f32) (v2 : Vec Ideal S5000x128 .bf16) (v6 : Vec Ideal S5000x1 .f32)
    (v10 : Vec Ideal S1x128 .f32) (v16 : Vec Ideal S1x1 .f32) : FVec Ideal S5000x128 .f32 :=
  select
    (cmpf .oge
      (addf (mulf (addf (shapeCast S5000x128 v0 shapeCasts_S5000x128_S5000x128)
                (extf .f32 (shapeCast S5000x128 v2 shapeCasts_S5000x128_S5000x128) bitsLt_bf16_f32))
              (broadcastTo S5000x128 (shapeCast S5000x1 v6 shapeCasts_S5000x1_S5000x1) broadcasts_S5000x1_S5000x128))
        (broadcastTo S5000x128 (shapeCast S1x128 v10 shapeCasts_S1x128_S1x128) broadcasts_S1x128_S5000x128))
      (broadcast S5000x128 (Scalar.ofBits (F := Ideal) .f32 0x00000000#32)))
    (addf (mulf (addf (shapeCast S5000x128 v0 shapeCasts_S5000x128_S5000x128)
              (extf .f32 (shapeCast S5000x128 v2 shapeCasts_S5000x128_S5000x128) bitsLt_bf16_f32))
            (broadcastTo S5000x128 (shapeCast S5000x1 v6 shapeCasts_S5000x1_S5000x1) broadcasts_S5000x1_S5000x128))
      (broadcastTo S5000x128 (shapeCast S1x128 v10 shapeCasts_S1x128_S1x128) broadcasts_S1x128_S5000x128))
    (mulf (broadcastTo S5000x128 (shapeCast S1x1 v16 shapeCasts_S1x1_S1x1) broadcasts_S1x1_S5000x128)
      (addf (mulf (addf (shapeCast S5000x128 v0 shapeCasts_S5000x128_S5000x128)
                (extf .f32 (shapeCast S5000x128 v2 shapeCasts_S5000x128_S5000x128) bitsLt_bf16_f32))
              (broadcastTo S5000x128 (shapeCast S5000x1 v6 shapeCasts_S5000x1_S5000x1) broadcasts_S5000x1_S5000x128))
        (broadcastTo S5000x128 (shapeCast S1x128 v10 shapeCasts_S1x128_S1x128) broadcasts_S1x128_S5000x128)))

/-- The left operand at row `r`, feature `k` is the activated row entry. -/
theorem lhs_apply (v0 : Vec Ideal S5000x128 .f32) (v2 : Vec Ideal S5000x128 .bf16) (v6 : Vec Ideal S5000x1 .f32)
    (v10 : Vec Ideal S1x128 .f32) (v16 : Vec Ideal S1x1 .f32) (r : Fin 5000) (k : Fin 128) :
    lhs v0 v2 v6 v10 v16 (ix2 r k) = act v0 v2 v6 v10 v16 r k := by
  have ey : (addf (mulf (addf (shapeCast S5000x128 v0 shapeCasts_S5000x128_S5000x128)
                (extf .f32 (shapeCast S5000x128 v2 shapeCasts_S5000x128_S5000x128) bitsLt_bf16_f32))
              (broadcastTo S5000x128 (shapeCast S5000x1 v6 shapeCasts_S5000x1_S5000x1) broadcasts_S5000x1_S5000x128))
        (broadcastTo S5000x128 (shapeCast S1x128 v10 shapeCasts_S1x128_S1x128) broadcasts_S1x128_S5000x128) : FVec Ideal S5000x128 .f32) (ix2 r k)
      = (v0 (ix2 r k) + v2 (ix2 r k)) * v6 (ix2 r (0 : Fin 1)) + v10 (ix2 (0 : Fin 1) k) := by
    rw [shapeCast_self, shapeCast_self, shapeCast_self, shapeCast_self]
    show (v0 (ix2 r k) + v2 (ix2 r k)) * broadcastTo S5000x128 v6 broadcasts_S5000x1_S5000x128 (ix2 r k)
        + broadcastTo S5000x128 v10 broadcasts_S1x128_S5000x128 (ix2 r k) = _
    rw [KeepdimsColumn.broadcastTo_a1_ab_apply v6 broadcasts_S5000x1_S5000x128 r k,
      broadcastTo_1b_ab_apply v10 broadcasts_S1x128_S5000x128 r k]
  have ea : (broadcastTo S5000x128 (shapeCast S1x1 v16 shapeCasts_S1x1_S1x1) broadcasts_S1x1_S5000x128 : FVec Ideal S5000x128 .f32) (ix2 r k)
      = v16 (ix2 (0 : Fin 1) (0 : Fin 1)) := by
    rw [shapeCast_self]
    exact broadcastTo_11_ab_apply v16 broadcasts_S1x1_S5000x128 r k
  unfold lhs act Cert.Gcn.prelu Cert.Gcn.zeroE
  rw [select_apply, cmpf_apply, mulf_apply, broadcast_apply, ey, ea]
  rfl

/-- The block's result at row `r`, column `c`: the activated row `r` against the column of `v22`, scaled by `v25` at row `r`. -/
theorem pay_apply (v0 : Vec Ideal S5000x128 .f32) (v2 : Vec Ideal S5000x128 .bf16) (v6 : Vec Ideal S5000x1 .f32)
    (v10 : Vec Ideal S1x128 .f32) (v16 : Vec Ideal S1x1 .f32) (v22 : Vec Ideal S128x64 .f32) (v25 : Vec Ideal S5000x1 .f32)
    (r : Fin 5000) (c : Fin 64) :
    k1_pay1 (F := Ideal) v0 v2 v6 v10 v16 v22 v25 (ix2 r c)
      = (∑ k : Fin 128, act v0 v2 v6 v10 v16 r k * v22 (ix2 k c)) * v25 (ix2 r (0 : Fin 1)) := by
  unfold k1_pay1
  show FloatOps.matmul (F := Ideal) (φ₁ := .bf16) (φ₂ := .bf16) dot_S5000x128_S128x64_S5000x64_1_0_0_1_n_n none
        (lhs v0 v2 v6 v10 v16) v22 (constant (F := Ideal) S5000x64 .f32 0x00000000#32) (ix2 r c)
      * broadcastTo S5000x64 (shapeCast S5000x1 v25 shapeCasts_S5000x1_S5000x1) broadcasts_S5000x1_S5000x64 (ix2 r c) = _
  rw [dot_plain]
  refine congrArg₂ (· * ·) ((PlainMatmul.apply_zero (M := 5000) (K := 128) (N := 64) (φ₁ := .bf16) (φ₂ := .bf16) (lhs v0 v2 v6 v10 v16) v22 r c).trans
    (Finset.sum_congr rfl fun k _ => congrArg (· * v22 (ix2 k c)) (lhs_apply v0 v2 v6 v10 v16 r k))) ?_
  rw [shapeCast_self]
  exact KeepdimsColumn.broadcastTo_a1_ab_apply v25 broadcasts_S5000x1_S5000x64 r c

end Cert.KernelIdeal.Region1

end
-- ==== Proof.Region1.lean ====
/-
  The first layer's combine stage fused with the second layer's linear stage, over the whole node table. The grid has
  ten points; point t holds rows 5000·t … 5000·t + 4999 of the aggregate array, of the scaled-row array, of the
  one-column scale array and of the output, and the whole bias row, slope entry and 128×64 weight matrix. Each point
  writes back its block of ONE function of the six input arrays,
      y(i, k)   = (g(i, k) + h(i, k)) · d(i, 0) + b(0, k),
      x(i, k)   = y(i, k) where y(i, k) ≥ 0, else a(0, 0) · y(i, k),
      out(i, j) = (Σ_k x(i, k) · W(k, j)) · d(i, 0),
  and the ten blocks tile the output (row r lies in block r / 5000), so after the last point the output array is that
  function, whatever the arrays held when the region was entered.
-/
import proofs.«111989_j69879117906023_2_alg».proof.Proof.Gen.KernelIdeal.Frame
import proofs.«111989_j69879117906023_2_alg».proof.Proof.GcnSpec
import proofs.«111989_j69879117906023_2_alg».proof.Proof.Region1Pay
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-- The output array as one function of the six input arrays, entry by entry. -/
def G (A0 : Cert.Gcn.Mat 50000 128) (A1 : Cert.Gcn.Mat 50000 128) (A2 : Cert.Gcn.Mat 50000 1) (A3 : Cert.Gcn.Mat 1 128)
    (A4 : Cert.Gcn.Mat 1 1) (A5 : Cert.Gcn.Mat 128 64) : Cert.Gcn.Mat 50000 64 :=
  fun i => Cert.Gcn.mm (fun r k => Cert.Gcn.prelu (A4 (ix2 (0 : Fin 1) (0 : Fin 1)))
      ((A0 (ix2 r k) + A1 (ix2 r k)) * A2 (ix2 r (0 : Fin 1)) + A3 (ix2 (0 : Fin 1) k))) A5 (i 0) (i 1)
    * A2 (ix2 (i 0) (0 : Fin 1))

/-- The block indices over the grid: the four row-blocked windows sit at block row t, column 0; the bias row, the slope
    entry and the weight matrix at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregate block at point `t` is rows 5000·t … of the aggregate array. -/
theorem iblk_g (c : Dev nD) (t : Fin cfg1.N) (y : S5000x128.Idx) (k : S50000x128.Idx)
    (hk0 : (k 0).val = 5000 * t.val + (y 0).val) (hk1 : (k 1).val = (y 1).val) :
    (iblk1 V c 0 t : Vec Ideal S5000x128 .f32) y = (V c (Pipeline.arrRef spec1 0) : S50000x128.Idx → EReal) k := by
  obtain ⟨e0, e1, -⟩ := idx_facts t
  unfold iblk1
  rw [View.read_apply]
  show (V c (Pipeline.arrRef spec1 0) : S50000x128.Idx → EReal) _ = _
  refine congrArg _ (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- The scaled-row block at point `t` is rows 5000·t … of the scaled-row array. -/
theorem iblk_h (c : Dev nD) (t : Fin cfg1.N) (y : S5000x128.Idx) (k : S50000x128.Idx)
    (hk0 : (k 0).val = 5000 * t.val + (y 0).val) (hk1 : (k 1).val = (y 1).val) :
    (iblk1 V c 1 t : Vec Ideal S5000x128 .bf16) y = (V c (Pipeline.arrRef spec1 1) : S50000x128.Idx → EReal) k := by
  obtain ⟨-, -, e0, e1, -⟩ := idx_facts t
  unfold iblk1
  rw [View.read_apply]
  show (V c (Pipeline.arrRef spec1 1) : S50000x128.Idx → EReal) _ = _
  refine congrArg _ (funext fun a => Fin.ext ?_)
  match a with
  | ⟨0, _⟩ => show win1_1.index t (0 : Fin 2) * 5000 + 1 * (y 0).val = (k 0).val; rw [e0, hk0]; omega
  | ⟨1, _⟩ => show win1_1.index t (1 : Fin 2) * 128 + 1 * (y 1).val = (k 1).val; rw [e1, hk1]; omega

/-- The scale block at point `t` is rows 5000·t … of the scale column. -/
theorem iblk_d (c : Dev nD) (t : Fin cfg1.N) (y : S5000x1.Idx) (k : S50000x1.Idx)
    (hk0 : (k 0).val = 5000 * t.val + (y 0).val) (hk1 : (k 1).val = (y 1).val) :
    (iblk1 V c 2 t : Vec Ideal S5000x1 .f32) y = (V c (Pipeline.arrRef spec1 2) : S50000x1.Idx → EReal) k := by
  obtain ⟨-, -, -, -, e0, e1, -⟩ := idx_facts t
  unfold iblk1
  rw [View.read_apply]
  show (V c (Pipeline.arrRef spec1 2) : S50000x1.Idx → EReal) _ = _
  refine congrArg _ (funext fun a => Fin.ext ?_)
  match a with
  | ⟨0, _⟩ => show win1_2.index t (0 : Fin 2) * 5000 + 1 * (y 0).val = (k 0).val; rw [e0, hk0]; omega
  | ⟨1, _⟩ => show win1_2.index t (1 : Fin 2) * 1 + 1 * (y 1).val = (k 1).val; rw [e1, hk1]; omega

/-- The bias block at every point is the whole bias row. -/
theorem iblk_b (c : Dev nD) (t : Fin cfg1.N) (y : S1x128.Idx) :
    (iblk1 V c 3 t : Vec Ideal S1x128 .f32) y = (V c (Pipeline.arrRef spec1 3) : S1x128.Idx → EReal) y := by
  obtain ⟨-, -, -, -, -, -, e0, e1, -⟩ := idx_facts t
  unfold iblk1
  rw [View.read_apply]
  show (V c (Pipeline.arrRef spec1 3) : S1x128.Idx → EReal) _ = _
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The slope block at every point is the whole one-entry slope array. -/
theorem iblk_a (c : Dev nD) (t : Fin cfg1.N) (y : S1x1.Idx) :
    (iblk1 V c 4 t : Vec Ideal S1x1 .f32) y = (V c (Pipeline.arrRef spec1 4) : S1x1.Idx → EReal) y := by
  obtain ⟨-, -, -, -, -, -, -, -, e0, e1, -⟩ := idx_facts t
  unfold iblk1
  rw [View.read_apply]
  show (V c (Pipeline.arrRef spec1 4) : S1x1.Idx → EReal) _ = _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 1 + 1 * (y 1).val = (y 1).val; rw [e1]; omega

/-- The weight block at every point is the whole weight matrix. -/
theorem iblk_w (c : Dev nD) (t : Fin cfg1.N) (y : S128x64.Idx) :
    (iblk1 V c 5 t : Vec Ideal S128x64 .f32) y = (V c (Pipeline.arrRef spec1 5) : S128x64.Idx → EReal) y := by
  obtain ⟨-, -, -, -, -, -, -, -, -, -, e0, e1, -⟩ := idx_facts t
  unfold iblk1
  rw [View.read_apply]
  show (V c (Pipeline.arrRef spec1 5) : S128x64.Idx → EReal) _ = _
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

/-- Where the output block's entry (r, q) at point `t` sits in the output array: row 5000·t + r, column q. -/
theorem out_emb (t : Fin cfg1.N) (r : Fin 5000) (q : Fin 64) :
    ((((cfg1.win 6).blk t).view.emb (ix2 r q) : S50000x64.Idx) 0).val = 5000 * t.val + r.val
    ∧ ((((cfg1.win 6).blk t).view.emb (ix2 r q) : S50000x64.Idx) 1).val = q.val := by
  obtain ⟨-, -, -, -, -, -, -, -, -, -, -, -, e0, e1⟩ := idx_facts t
  constructor
  · show win1_6.index t (0 : Fin 2) * 5000 + 1 * r.val = _; rw [e0]; omega
  · show win1_6.index t (1 : Fin 2) * 64 + 1 * q.val = _; rw [e1]; omega

/-- What point `t` writes back is block `t` of `G` of the input arrays as the region finds them. -/
theorem flushed_eq (c : Dev nD) (t : Fin cfg1.N) :
    (dat1 V c).flushed 6 t = ((cfg1.win 6).blk t).view.read (Elt Ideal)
      (G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S1x128) hz,
    View.ld_unit_zero (S := S1x1) hz, View.ld_unit_zero (S := S128x64) hz]
  funext y
  obtain ⟨r, q, rfl⟩ : ∃ (r : Fin 5000) (q : Fin 64), y = ix2 r q := ⟨y 0, y 1, eq_ix2 y⟩
  obtain ⟨h0, h1⟩ := out_emb t r q
  show k1_pay1 (F := Ideal) (iblk1 V c 0 t) (iblk1 V c 1 t) (iblk1 V c 2 t) (iblk1 V c 3 t) (iblk1 V c 4 t) (iblk1 V c 5 t) (iblk1 V c 2 t) (ix2 r q)
    = G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (((cfg1.win 6).blk t).view.emb (ix2 r q))
  refine (pay_apply (iblk1 V c 0 t) (iblk1 V c 1 t) (iblk1 V c 2 t) (iblk1 V c 3 t) (iblk1 V c 4 t) (iblk1 V c 5 t) (iblk1 V c 2 t) r q).trans ?_
  unfold G Cert.Gcn.mm act
  refine congrArg₂ (· * ·) (Finset.sum_congr rfl fun k _ => congrArg₂ (· * ·)
    (congrArg₂ Cert.Gcn.prelu ?_ (congrArg₂ (· + ·) (congrArg₂ (· * ·) (congrArg₂ (· + ·) ?_ ?_) ?_) ?_)) ?_) ?_
  · exact iblk_a V c t _
  · exact iblk_g V c t (ix2 r k) _ h0 rfl
  · exact iblk_h V c t (ix2 r k) _ h0 rfl
  · exact iblk_d V c t (ix2 r (0 : Fin 1)) _ h0 rfl
  · exact iblk_b V c t _
  · refine (iblk_w V c t (ix2 k q)).trans (congrArg _ (funext fun a => Fin.ext ?_))
    match a with
    | ⟨0, _⟩ => rfl
    | ⟨1, _⟩ => exact h1.symm
  · exact iblk_d V c t (ix2 r (0 : Fin 1)) _ h0 rfl

/-- An index of the output array is in point `t`'s block iff each coordinate is in the block's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v26).slice (win1_6.rect t)).set ↔ _
  rw [View.set_slice_whole, Rect.mem_set_unit]
  exact Iff.rfl

/-- The ten blocks tile the output: row r lies in the block of point r / 5000. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  have ht : (i 0).val / 5000 < cfg1.N := by omega
  obtain ⟨-, -, -, -, -, -, -, -, -, -, -, -, e0, e1⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    rw [e1]; omega

/-- The output array after the region is `G` of the input arrays. -/
theorem final (c : Dev nD) :
    (dat1 V c).arrAt 6 cfg1.N = G (V c (Pipeline.arrRef spec1 0)) (V c (Pipeline.arrRef spec1 1)) (V c (Pipeline.arrRef spec1 2))
      (V c (Pipeline.arrRef spec1 3)) (V c (Pipeline.arrRef spec1 4)) (V c (Pipeline.arrRef spec1 5)) :=
  (dat1 V c).arrAt_eq_of_cover 6 _ (fun t _ => flushed_eq V c t) cover

/-- The six input arrays as the region finds them, each at its literal shape. -/
abbrev arr0 (c : Dev nD) : Cert.Gcn.Mat 50000 128 := V c (Pipeline.arrRef spec1 0)
abbrev arr1 (c : Dev nD) : Cert.Gcn.Mat 50000 128 := V c (Pipeline.arrRef spec1 1)
abbrev arr2 (c : Dev nD) : Cert.Gcn.Mat 50000 1 := V c (Pipeline.arrRef spec1 2)
abbrev arr3 (c : Dev nD) : Cert.Gcn.Mat 1 128 := V c (Pipeline.arrRef spec1 3)
abbrev arr4 (c : Dev nD) : Cert.Gcn.Mat 1 1 := V c (Pipeline.arrRef spec1 4)
abbrev arr5 (c : Dev nD) : Cert.Gcn.Mat 128 64 := V c (Pipeline.arrRef spec1 5)

/-- Entry (i, j) of the output array after the region: the activated combine of row i against column j of the weights,
    scaled by the scale column's entry i. -/
theorem value (c : Dev nD) (i : Fin 50000) (j : Fin 64) :
    ((dat1 V c).arrAt 6 cfg1.N : S50000x64.Idx → EReal) (ix2 i j)
      = Cert.Gcn.mm (fun i k => Cert.Gcn.prelu (arr4 V c (ix2 (0 : Fin 1) (0 : Fin 1)))
            ((arr0 V c (ix2 i k) + arr1 V c (ix2 i k)) * arr2 V c (ix2 i (0 : Fin 1)) + arr3 V c (ix2 (0 : Fin 1) k)))
          (arr5 V c) i j
        * arr2 V c (ix2 i (0 : Fin 1)) := by
  rw [final]; rfl

/-- The same with the six arrays named: whatever functions they are known to be when the region is entered. -/
theorem value_of (c : Dev nD) (A0 A1 : Cert.Gcn.Mat 50000 128) (A2 : Cert.Gcn.Mat 50000 1) (A3 : Cert.Gcn.Mat 1 128)
    (A4 : Cert.Gcn.Mat 1 1) (A5 : Cert.Gcn.Mat 128 64)
    (h0 : (V c (Pipeline.arrRef spec1 0) : S50000x128.Idx → EReal) = A0)
    (h1 : (V c (Pipeline.arrRef spec1 1) : S50000x128.Idx → EReal) = A1)
    (h2 : (V c (Pipeline.arrRef spec1 2) : S50000x1.Idx → EReal) = A2)
    (h3 : (V c (Pipeline.arrRef spec1 3) : S1x128.Idx → EReal) = A3)
    (h4 : (V c (Pipeline.arrRef spec1 4) : S1x1.Idx → EReal) = A4)
    (h5 : (V c (Pipeline.arrRef spec1 5) : S128x64.Idx → EReal) = A5)
    (i : Fin 50000) (j : Fin 64) :
    ((dat1 V c).arrAt 6 cfg1.N : S50000x64.Idx → EReal) (ix2 i j)
      = Cert.Gcn.mm (fun i k => Cert.Gcn.prelu (A4 (ix2 (0 : Fin 1) (0 : Fin 1)))
            ((A0 (ix2 i k) + A1 (ix2 i k)) * A2 (ix2 i (0 : Fin 1)) + A3 (ix2 (0 : Fin 1) k))) A5 i j
        * A2 (ix2 i (0 : Fin 1)) := by
  subst h0 h1 h2 h3 h4 h5
  exact value V c i j

end Cert.KernelIdeal.Region1

end
-- ==== Proof.Region2Payload.lean ====
/-
  The body of the third fused kernel at one grid point, read entry by entry.

  One grid point holds a block of 5000 node rows. With agg and hs the block's aggregated and scaled rows (64 features),
  dinv its column of inverse square-root degrees, b2 the layer's bias row and a the PReLU slope, the body forms
      y = (agg + hs) * dinv + b2,          x = y where y ≥ 0, else a * y,
      h = x · P1 + pb1,                    e = h where h > 0, else exp h − 1,
      out = e · P2 + pb2.
  The two products are exact products into a zero accumulator and the format changes around them are the identity on
  the extended reals, so every entry of the block is a finite sum of finite sums: entry (p, q) reads row p of the
  block's inputs only.
-/
import proofs.«111989_j69879117906023_2_alg».proof.Proof.Gen.KernelIdeal.Frame
import proofs.«111989_j69879117906023_2_alg».proof.Proof.GcnSpec
import proofs.«111989_j69879117906023_2_alg».proof.Proof.LibPlainMatmul
import proofs.«111989_j69879117906023_2_alg».proof.Proof.LibKeepdimsColumn
import Idealize.ShloMosaic.Lib.ValueIdx
import Idealize.ShloMosaic.Lib.ValueLayout
import Idealize.ShloMosaic.Lib.Pipeline.Value

noncomputable section

namespace Cert.KernelIdeal.Region2

open Cert.KernelIdeal Idealize.ShloMosaic Idealize.ShloMosaic.ValueIdx Cert.Gcn

/-- The block's result at row `i` and feature `j` from `n` rows of inputs: a function of row `i` of `X0`, `X1`, `X2`
    and of the whole small operands. -/
def rowsOut {n : Nat} (X0 X1 : Mat n 64) (X2 : Mat n 1) (A3 : Mat 1 64) (A4 : Mat 1 1) (A5 : Mat 64 64) (A6 : Mat 1 64)
    (A7 : Mat 64 64) (A8 : Mat 1 64) (i : Fin n) (j : Fin 64) : EReal :=
  mm (fun i t => eluK (mm (fun i k => prelu (A4 (ix2 0 0)) ((X0 (ix2 i k) + X1 (ix2 i k)) * X2 (ix2 i 0) + A3 (ix2 0 k))) A5 i t
    + A6 (ix2 0 t))) A7 i j + A8 (ix2 0 j)

/-- Entry `(i, j)` depends on row `i` of the row-indexed inputs only: two families of rows that agree on one row give
    the same entry there. -/
theorem rowsOut_congr {n n' : Nat} (X0 X1 : Mat n 64) (X2 : Mat n 1) (Y0 Y1 : Mat n' 64) (Y2 : Mat n' 1)
    (A3 : Mat 1 64) (A4 : Mat 1 1) (A5 : Mat 64 64) (A6 : Mat 1 64) (A7 : Mat 64 64) (A8 : Mat 1 64)
    (p : Fin n) (i : Fin n') (j : Fin 64)
    (h0 : ∀ k : Fin 64, X0 (ix2 p k) = Y0 (ix2 i k)) (h1 : ∀ k : Fin 64, X1 (ix2 p k) = Y1 (ix2 i k))
    (h2 : X2 (ix2 p 0) = Y2 (ix2 i 0)) :
    rowsOut X0 X1 X2 A3 A4 A5 A6 A7 A8 p j = rowsOut Y0 Y1 Y2 A3 A4 A5 A6 A7 A8 i j := by
  unfold rowsOut mm
  simp only [h0, h1, h2]

/-! ## The non-pointwise operations at an entry -/

theorem hz : (![0, 0] : Fin 2 → Nat) = fun _ => 0 := funext fun a => by fin_cases a <;> rfl

/-- The kernel's product record is the plain one: left axis 1 against right axis 0, no batch axis. -/
theorem dot_eq : dot_S5000x64_S64x64_S5000x64_1_0_0_1_n_n = DotDims.plain 5000 64 64 := rfl

/-- The exponential of a vector, at an entry. -/
theorem exp_apply {s : Shape} {φ : FTy} (x : FVec Ideal s φ) (i : s.Idx) : exp x i = Ideal.exp (x i) := rfl

/-- A 5000×64 by 64×64 product into the zero accumulator, at `(p, t)`: the sum over the shared axis. -/
theorem matmul_apply {φ₁ φ₂ : FTy} (l : FVec Ideal S5000x64 φ₁) (r : FVec Ideal S64x64 φ₂) (p : Fin 5000) (t : Fin 64) :
    matmul dot_S5000x64_S64x64_S5000x64_1_0_0_1_n_n none l r (constant (F := Ideal) S5000x64 .f32 0x00000000#32) (ix2 p t)
      = ∑ k : Fin 64, l (ix2 p k) * r (ix2 k t) := by
  rw [dot_eq]
  exact PlainMatmul.apply_zero l r p t

/-- A bias row put beside every row of the block. -/
theorem bias_row_apply (v : FVec Ideal S1x64 .f32) (h2 : S1x64.Broadcasts S5000x64)
    (p : Fin 5000) (c : Fin 64) : broadcastTo S5000x64 v h2 (ix2 p c) = v (ix2 0 c) :=
  broadcastTo_1b_ab_apply v h2 p c

/-- The column of per-row factors put beside every entry of its row. -/
theorem column_apply (v : FVec Ideal S5000x1 .f32) (h2 : S5000x1.Broadcasts S5000x64)
    (p : Fin 5000) (c : Fin 64) : broadcastTo S5000x64 v h2 (ix2 p c) = v (ix2 p 0) :=
  KeepdimsColumn.broadcastTo_a1_ab_apply v h2 p c

/-- The one slope put beside every entry. -/
theorem slope_apply (v : FVec Ideal S1x1 .f32) (h2 : S1x1.Broadcasts S5000x64)
    (p : Fin 5000) (c : Fin 64) : broadcastTo S5000x64 v h2 (ix2 p c) = v (ix2 0 0) := by
  refine broadcastTo_apply v h2 (ix2 p c) (ix2 (0 : Fin 1) (0 : Fin 1)) fun ax => ?_
  match ax with
  | ⟨0, _⟩ => rfl
  | ⟨1, _⟩ => rfl

/-! ## The body's two parts and the block at an entry -/

/-- The first part of the body at `(p, t)`: the ELU of the first projection of the activated row `p`. -/
theorem pay2_apply (x0 : Vec Ideal S5000x64 .f32) (x1 : Vec Ideal S5000x64 .bf16) (x2 : Vec Ideal S5000x1 .f32)
    (x3 : Vec Ideal S1x64 .f32) (x4 : Vec Ideal S1x1 .f32) (x5 : Vec Ideal S64x64 .f32) (x6 : Vec Ideal S1x64 .f32)
    (p : Fin 5000) (t : Fin 64) :
    Gen.k2_pay2 x0 x1 x2 x3 x4 x5 x6 (ix2 p t)
      = eluK (mm (fun p k => prelu (x4 (ix2 0 0)) ((x0 (ix2 p k) + x1 (ix2 p k)) * x2 (ix2 p 0) + x3 (ix2 0 k))) x5 p t
          + x6 (ix2 0 t)) := by
  unfold Gen.k2_pay2
  simp only [truncf_apply, extf_apply, select_apply, cmpf_apply, addf_apply, subf_apply, mulf_apply, broadcast_apply,
    exp_apply, shapeCast_self, matmul_apply, bias_row_apply, column_apply, slope_apply]
  rfl

/-- The second part at `(p, q)`: the second projection of row `p` of what the first part left, plus its bias. -/
theorem pay1_apply (v35 : FVec Ideal S5000x64 .bf16) (v37 : FVec Ideal S64x64 .bf16) (v39 : Vec Ideal S1x64 .f32)
    (p : Fin 5000) (q : Fin 64) :
    Gen.k2_pay1 v35 v37 (constant (F := Ideal) S5000x64 .f32 0x00000000#32) v39 (ix2 p q)
      = (∑ k : Fin 64, v35 (ix2 p k) * v37 (ix2 k q)) + v39 (ix2 0 q) := by
  unfold Gen.k2_pay1
  simp only [addf_apply, shapeCast_self, matmul_apply, bias_row_apply]

/-- WHAT ONE GRID POINT LEAVES in the output's staging buffer, at `(p, q)`, from the point's nine input blocks. -/
theorem block_apply (x0 : Vec Ideal S5000x64 .f32) (x1 : Vec Ideal S5000x64 .bf16) (x2 : Vec Ideal S5000x1 .f32)
    (x3 : Vec Ideal S1x64 .f32) (x4 : Vec Ideal S1x1 .f32) (x5 : Vec Ideal S64x64 .f32) (x6 : Vec Ideal S1x64 .f32)
    (x7 : Vec Ideal S64x64 .f32) (x8 : Vec Ideal S1x64 .f32) (p : Fin 5000) (q : Fin 64) :
    Gen.out2_9 x0 x1 x2 x3 x4 x5 x6 x7 x8 (ix2 p q) = rowsOut x0 x1 x2 x3 x4 x5 x6 x7 x8 p q := by
  unfold Gen.out2_9
  rw [View.canon_unit_zero hz]
  simp only [View.ld_unit_zero (S := S5000x64) hz, View.ld_unit_zero (S := S5000x1) hz, View.ld_unit_zero (S := S1x64) hz,
    View.ld_unit_zero (S := S1x1) hz, View.ld_unit_zero (S := S64x64) hz]
  rw [pay1_apply]
  simp only [pay2_apply]
  rfl

end Cert.KernelIdeal.Region2

end
-- ==== Proof.Region2.lean ====
/-
  The third fused kernel's output array after its ten grid points.

  Grid point t holds rows 5000·t … 5000·t + 4999 of the three row-indexed inputs (the aggregated rows, the scaled rows,
  the column of inverse square-root degrees) and of the output; the six small operands (two bias rows and a slope, the
  two 64×64 projections with their bias rows) are whole at every point. An entry of a point's block reads its own row of
  the row-indexed inputs only, so the block point t writes back is block t of ONE function of the nine input arrays,
  and the ten blocks tile the 50000 rows: row r lies in the block of point r / 5000. Hence the array after the last
  point is that function, entry by entry.
-/
import proofs.«111989_j69879117906023_2_alg».proof.Proof.Region2Payload
import Idealize.ShloMosaic.Lib.Pipeline.Value

noncomputable section

namespace Cert.KernelIdeal.Region2

open Cert.KernelIdeal Cert.KernelIdeal.Gen Idealize.ShloMosaic Idealize.ShloMosaic.TcCoe Idealize.ShloMosaic.ValueIdx
open Cert.Gcn Idealize.SL.Sem
open Idealize.ShloMosaic.Pipeline (Dat)

/-- The array the region leaves, as one function of its nine input arrays: at `(i, j)` the block formula read on row
    `i` of the whole arrays. -/
def outArr (A0 A1 : Mat 50000 64) (A2 : Mat 50000 1) (A3 : Mat 1 64) (A4 : Mat 1 1) (A5 : Mat 64 64) (A6 : Mat 1 64)
    (A7 : Mat 64 64) (A8 : Mat 1 64) : Mat 50000 64 :=
  fun idx => rowsOut A0 A1 A2 A3 A4 A5 A6 A7 A8 (idx 0) (idx 1)

/-- A point's block against the whole arrays, over plain functions: if the point's row-indexed blocks are rows
    `tv·5000 + p` of the arrays and its small blocks are the small arrays, then entry `y` of what the point leaves is the
    array function at the entry `i` that lies `tv` blocks further down. -/
theorem point_eq (x0 : Vec Ideal S5000x64 .f32) (x1 : Vec Ideal S5000x64 .bf16) (x2 : Vec Ideal S5000x1 .f32)
    (x3 : Vec Ideal S1x64 .f32) (x4 : Vec Ideal S1x1 .f32) (x5 : Vec Ideal S64x64 .f32) (x6 : Vec Ideal S1x64 .f32)
    (x7 : Vec Ideal S64x64 .f32) (x8 : Vec Ideal S1x64 .f32)
    (A0 A1 : Mat 50000 64) (A2 : Mat 50000 1) (A3 : Mat 1 64) (A4 : Mat 1 1) (A5 : Mat 64 64) (A6 : Mat 1 64)
    (A7 : Mat 64 64) (A8 : Mat 1 64) (tv : Nat)
    (h0 : ∀ (p : Fin 5000) (k : Fin 64) (i : Fin 50000), i.val = tv * 5000 + p.val → x0 (ix2 p k) = A0 (ix2 i k))
    (h1 : ∀ (p : Fin 5000) (k : Fin 64) (i : Fin 50000), i.val = tv * 5000 + p.val → x1 (ix2 p k) = A1 (ix2 i k))
    (h2 : ∀ (p : Fin 5000) (i : Fin 50000), i.val = tv * 5000 + p.val → x2 (ix2 p 0) = A2 (ix2 i 0))
    (h3 : x3 = A3) (h4 : x4 = A4) (h5 : x5 = A5) (h6 : x6 = A6) (h7 : x7 = A7) (h8 : x8 = A8)
    (y : S5000x64.Idx) (i : S50000x64.Idx) (hi0 : (i 0).val = tv * 5000 + (y 0).val) (hi1 : (i 1).val = (y 1).val) :
    Gen.out2_9 x0 x1 x2 x3 x4 x5 x6 x7 x8 y = outArr A0 A1 A2 A3 A4 A5 A6 A7 A8 i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  subst h3 h4 h5 h6 h7 h8
  rw [block_apply]
  exact rowsOut_congr x0 x1 x2 A0 A1 A2 x3 x4 x5 x6 x7 x8 p r s (fun k => h0 p k r hi0) (fun k => h1 p k r hi0) (h2 p r hi0)

variable (V : (c : Dev nD) → (b : Ref sig .tc) → Buf (Elt Ideal) ((c : Thread nD τ).loc b))

/-! ## The index maps, decided over the ten points -/

/-- Windows 0, 1, 2 and 9 move down one block of rows per point; windows 3 … 8 stay on their one block. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-! ## The region's input arrays on their literal index types -/

/-- Input window 0's array (the aggregated rows) as the region finds it. -/
abbrev in0 (c : Dev nD) : Mat 50000 64 := V c (Pipeline.arrRef spec2 0)
/-- Input window 1's array (the scaled rows) as the region finds it. -/
abbrev in1 (c : Dev nD) : Mat 50000 64 := V c (Pipeline.arrRef spec2 1)
/-- Input window 2's array (the column of inverse square-root degrees) as the region finds it. -/
abbrev in2 (c : Dev nD) : Mat 50000 1 := V c (Pipeline.arrRef spec2 2)
/-- Input window 3's array (the layer's bias row) as the region finds it. -/
abbrev in3 (c : Dev nD) : Mat 1 64 := V c (Pipeline.arrRef spec2 3)
/-- Input window 4's array (the PReLU slope) as the region finds it. -/
abbrev in4 (c : Dev nD) : Mat 1 1 := V c (Pipeline.arrRef spec2 4)
/-- Input window 5's array (the first projection) as the region finds it. -/
abbrev in5 (c : Dev nD) : Mat 64 64 := V c (Pipeline.arrRef spec2 5)
/-- Input window 6's array (its bias row) as the region finds it. -/
abbrev in6 (c : Dev nD) : Mat 1 64 := V c (Pipeline.arrRef spec2 6)
/-- Input window 7's array (the second projection) as the region finds it. -/
abbrev in7 (c : Dev nD) : Mat 64 64 := V c (Pipeline.arrRef spec2 7)
/-- Input window 8's array (its bias row) as the region finds it. -/
abbrev in8 (c : Dev nD) : Mat 1 64 := V c (Pipeline.arrRef spec2 8)

/-! ## Each input window's block at a point, read off its array -/

/-- Window 0's block at point `t`, row `p`: row `t·5000 + p` of its array. -/
theorem iblk0_apply (c : Dev nD) (t : Fin cfg2.N) (p : Fin 5000) (k : Fin 64) (i : Fin 50000) (hi : i.val = t.val * 5000 + p.val) :
    (Gen.iblk2 V c 0 t : Vec Ideal S5000x64 .f32) (ix2 p k) = (V c (Pipeline.arrRef spec2 0) : S50000x64.Idx → EReal) (ix2 i k) := by
  obtain ⟨e0_0, e0_1, -, -, -, -, -, -, -, -, -, -, -, -, -, -, -, -, -, -⟩ := idx_facts t
  show (V c (Pipeline.arrRef spec2 0) : S50000x64.Idx → EReal) (((cfg2.win 0).blk t).view.emb (ix2 p k)) = _
  refine congrArg (V c (Pipeline.arrRef spec2 0) : S50000x64.Idx → EReal) (funext fun a => Fin.ext ?_)
  match a with
  | ⟨0, _⟩ => show win2_0.index t (0 : Fin 2) * 5000 + 1 * p.val = i.val; omega
  | ⟨1, _⟩ => show win2_0.index t (1 : Fin 2) * 64 + 1 * k.val = k.val; omega

/-- Window 1's block at point `t`, row `p`: row `t·5000 + p` of its array. -/
theorem iblk1_apply (c : Dev nD) (t : Fin cfg2.N) (p : Fin 5000) (k : Fin 64) (i : Fin 50000) (hi : i.val = t.val * 5000 + p.val) :
    (Gen.iblk2 V c 1 t : Vec Ideal S5000x64 .bf16) (ix2 p k) = (V c (Pipeline.arrRef spec2 1) : S50000x64.Idx → EReal) (ix2 i k) := by
  obtain ⟨-, -, e1_0, e1_1, -, -, -, -, -, -, -, -, -, -, -, -, -, -, -, -⟩ := idx_facts t
  show (V c (Pipeline.arrRef spec2 1) : S50000x64.Idx → EReal) (((cfg2.win 1).blk t).view.emb (ix2 p k)) = _
  refine congrArg (V c (Pipeline.arrRef spec2 1) : S50000x64.Idx → EReal) (funext fun a => Fin.ext ?_)
  match a with
  | ⟨0, _⟩ => show win2_1.index t (0 : Fin 2) * 5000 + 1 * p.val = i.val; omega
  | ⟨1, _⟩ => show win2_1.index t (1 : Fin 2) * 64 + 1 * k.val = k.val; omega

/-- Window 2's block at point `t`, row `p`: row `t·5000 + p` of its array. -/
theorem iblk2_apply (c : Dev nD) (t : Fin cfg2.N) (p : Fin 5000) (k : Fin 1) (i : Fin 50000) (hi : i.val = t.val * 5000 + p.val) :
    (Gen.iblk2 V c 2 t : Vec Ideal S5000x1 .f32) (ix2 p k) = (V c (Pipeline.arrRef spec2 2) : S50000x1.Idx → EReal) (ix2 i k) := by
  obtain ⟨-, -, -, -, e2_0, e2_1, -, -, -, -, -, -, -, -, -, -, -, -, -, -⟩ := idx_facts t
  show (V c (Pipeline.arrRef spec2 2) : S50000x1.Idx → EReal) (((cfg2.win 2).blk t).view.emb (ix2 p k)) = _
  refine congrArg (V c (Pipeline.arrRef spec2 2) : S50000x1.Idx → EReal) (funext fun a => Fin.ext ?_)
  match a with
  | ⟨0, _⟩ => show win2_2.index t (0 : Fin 2) * 5000 + 1 * p.val = i.val; omega
  | ⟨1, _⟩ => show win2_2.index t (1 : Fin 2) * 1 + 1 * k.val = k.val; omega

/-- Window 3's block at every point is its whole array. -/
theorem iblk3_eq (c : Dev nD) (t : Fin cfg2.N) :
    (Gen.iblk2 V c 3 t : Vec Ideal S1x64 .f32) = (V c (Pipeline.arrRef spec2 3) : S1x64.Idx → EReal) := by
  obtain ⟨-, -, -, -, -, -, e3_0, e3_1, -, -, -, -, -, -, -, -, -, -, -, -⟩ := idx_facts t
  funext y
  show (V c (Pipeline.arrRef spec2 3) : S1x64.Idx → EReal) (((cfg2.win 3).blk t).view.emb y) = _
  refine congrArg (V c (Pipeline.arrRef spec2 3) : S1x64.Idx → EReal) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Window 4's block at every point is its whole array. -/
theorem iblk4_eq (c : Dev nD) (t : Fin cfg2.N) :
    (Gen.iblk2 V c 4 t : Vec Ideal S1x1 .f32) = (V c (Pipeline.arrRef spec2 4) : S1x1.Idx → EReal) := by
  obtain ⟨-, -, -, -, -, -, -, -, e4_0, e4_1, -, -, -, -, -, -, -, -, -, -⟩ := idx_facts t
  funext y
  show (V c (Pipeline.arrRef spec2 4) : S1x1.Idx → EReal) (((cfg2.win 4).blk t).view.emb y) = _
  refine congrArg (V c (Pipeline.arrRef spec2 4) : S1x1.Idx → EReal) (funext fun a => Fin.ext ?_)
  match a with
  | ⟨0, _⟩ => show win2_4.index t (0 : Fin 2) * 1 + 1 * (y 0).val = (y 0).val; omega
  | ⟨1, _⟩ => show win2_4.index t (1 : Fin 2) * 1 + 1 * (y 1).val = (y 1).val; omega

/-- Window 5's block at every point is its whole array. -/
theorem iblk5_eq (c : Dev nD) (t : Fin cfg2.N) :
    (Gen.iblk2 V c 5 t : Vec Ideal S64x64 .f32) = (V c (Pipeline.arrRef spec2 5) : S64x64.Idx → EReal) := by
  obtain ⟨-, -, -, -, -, -, -, -, -, -, e5_0, e5_1, -, -, -, -, -, -, -, -⟩ := idx_facts t
  funext y
  show (V c (Pipeline.arrRef spec2 5) : S64x64.Idx → EReal) (((cfg2.win 5).blk t).view.emb y) = _
  refine congrArg (V c (Pipeline.arrRef spec2 5) : S64x64.Idx → EReal) (funext fun a => Fin.ext ?_)
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- Window 6's block at every point is its whole array. -/
theorem iblk6_eq (c : Dev nD) (t : Fin cfg2.N) :
    (Gen.iblk2 V c 6 t : Vec Ideal S1x64 .f32) = (V c (Pipeline.arrRef spec2 6) : S1x64.Idx → EReal) := by
  obtain ⟨-, -, -, -, -, -, -, -, -, -, -, -, e6_0, e6_1, -, -, -, -, -, -⟩ := idx_facts t
  funext y
  show (V c (Pipeline.arrRef spec2 6) : S1x64.Idx → EReal) (((cfg2.win 6).blk t).view.emb y) = _
  refine congrArg (V c (Pipeline.arrRef spec2 6) : S1x64.Idx → EReal) (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- Window 7's block at every point is its whole array. -/
theorem iblk7_eq (c : Dev nD) (t : Fin cfg2.N) :
    (Gen.iblk2 V c 7 t : Vec Ideal S64x64 .f32) = (V c (Pipeline.arrRef spec2 7) : S64x64.Idx → EReal) := by
  obtain ⟨-, -, -, -, -, -, -, -, -, -, -, -, -, -, e7_0, e7_1, -, -, -, -⟩ := idx_facts t
  funext y
  show (V c (Pipeline.arrRef spec2 7) : S64x64.Idx → EReal) (((cfg2.win 7).blk t).view.emb y) = _
  refine congrArg (V c (Pipeline.arrRef spec2 7) : S64x64.Idx → EReal) (funext fun a => Fin.ext ?_)
  match a with
  | ⟨0, _⟩ => show win2_7.index t (0 : Fin 2) * 64 + 1 * (y 0).val = (y 0).val; omega
  | ⟨1, _⟩ => show win2_7.index t (1 : Fin 2) * 64 + 1 * (y 1).val = (y 1).val; omega

/-- Window 8's block at every point is its whole array. -/
theorem iblk8_eq (c : Dev nD) (t : Fin cfg2.N) :
    (Gen.iblk2 V c 8 t : Vec Ideal S1x64 .f32) = (V c (Pipeline.arrRef spec2 8) : S1x64.Idx → EReal) := by
  obtain ⟨-, -, -, -, -, -, -, -, -, -, -, -, -, -, -, -, e8_0, e8_1, -, -⟩ := idx_facts t
  funext y
  show (V c (Pipeline.arrRef spec2 8) : S1x64.Idx → EReal) (((cfg2.win 8).blk t).view.emb y) = _
  refine congrArg (V c (Pipeline.arrRef spec2 8) : S1x64.Idx → EReal) (funext fun a => Fin.ext ?_)
  match a with
  | ⟨0, _⟩ => show win2_8.index t (0 : Fin 2) * 1 + 1 * (y 0).val = (y 0).val; omega
  | ⟨1, _⟩ => show win2_8.index t (1 : Fin 2) * 64 + 1 * (y 1).val = (y 1).val; omega

/-! ## From the blocks to the array -/

/-- The array function at the region-entry contents `V` of the nine input windows' arrays. -/
abbrev outAt (c : Dev nD) : Mat 50000 64 :=
  outArr (in0 V c) (in1 V c) (in2 V c) (in3 V c) (in4 V c) (in5 V c) (in6 V c) (in7 V c) (in8 V c)

/-- WHAT POINT `t` WRITES BACK is block `t` of the array function of the region's input arrays. -/
theorem flushed_eq (c : Dev nD) (t : Fin cfg2.N) :
    (Gen.dat2 V c).flushed 9 t = ((cfg2.win 9).blk t).view.read (Elt Ideal)
      (outAt V c) := by
  show (cfg2.win 9).cut (grid2.coords t) ((Gen.dat2 V c).after 9 t) = _
  rw [Gen.after2_9]
  obtain ⟨-, -, -, -, -, -, -, -, -, -, -, -, -, -, -, -, -, -, e9_0, e9_1⟩ := idx_facts t
  funext y
  show Gen.out2_9 (Gen.iblk2 V c 0 t) (Gen.iblk2 V c 1 t) (Gen.iblk2 V c 2 t) (Gen.iblk2 V c 3 t) (Gen.iblk2 V c 4 t)
      (Gen.iblk2 V c 5 t) (Gen.iblk2 V c 6 t) (Gen.iblk2 V c 7 t) (Gen.iblk2 V c 8 t) y
    = outAt V c (((cfg2.win 9).blk t).view.emb y)
  refine point_eq (Gen.iblk2 V c 0 t) (Gen.iblk2 V c 1 t) (Gen.iblk2 V c 2 t) (Gen.iblk2 V c 3 t) (Gen.iblk2 V c 4 t)
    (Gen.iblk2 V c 5 t) (Gen.iblk2 V c 6 t) (Gen.iblk2 V c 7 t) (Gen.iblk2 V c 8 t)
    (in0 V c) (in1 V c) (in2 V c) (in3 V c) (in4 V c) (in5 V c) (in6 V c) (in7 V c) (in8 V c)
    t.val (iblk0_apply V c t) (iblk1_apply V c t) (fun p i hi => iblk2_apply V c t p 0 i hi)
    (iblk3_eq V c t) (iblk4_eq V c t) (iblk5_eq V c t) (iblk6_eq V c t) (iblk7_eq V c t) (iblk8_eq V c t)
    y (((cfg2.win 9).blk t).view.emb y) ?_ ?_
  · show win2_9.index t (0 : Fin 2) * 5000 + 1 * (y 0).val = t.val * 5000 + (y 0).val
    omega
  · show win2_9.index t (1 : Fin 2) * 64 + 1 * (y 1).val = (y 1).val
    omega

/-- An entry of the output array is in point `t`'s block iff each coordinate is in the block's range on its axis. -/
theorem mem_blk (t : Fin cfg2.N) (i : S50000x64.Idx) :
    i ∈ ((cfg2.win 9).blk t).view.set ↔ ∀ a : Fin 2, win2_9.index t a * S5000x64.size a ≤ (i a).val
      ∧ (i a).val < win2_9.index t a * S5000x64.size a + S5000x64.size a := by
  show i ∈ ((View.whole main_v42).slice (win2_9.rect t)).set ↔ _
  rw [View.set_slice_whole, Rect.mem_set_unit]
  exact Iff.rfl

/-- The ten blocks cover the array: row `r` lies in the block of point `r / 5000`, and every point writes back. -/
theorem cover (i : S50000x64.Idx) :
    ∃ t : Fin cfg2.N, (cfg2.win 9).flush t = true ∧ i ∈ ((cfg2.win 9).blk t).view.set := by
  have hi0 : (i 0).val < 50000 := idx2_lt0 i
  have hi1 : (i 1).val < 64 := idx2_lt1 i
  have hN : cfg2.N = 10 := Gen.N_2
  have ht : (i 0).val / 5000 < cfg2.N := by rw [hN]; omega
  obtain ⟨-, -, -, -, -, -, -, -, -, -, -, -, -, -, -, -, -, -, e9_0, e9_1⟩ := idx_facts ⟨(i 0).val / 5000, ht⟩
  have e0 : win2_9.index ⟨(i 0).val / 5000, ht⟩ (0 : Fin 2) = (i 0).val / 5000 := e9_0
  refine ⟨⟨(i 0).val / 5000, ht⟩, Gen.flush2_9 _, ?_⟩
  rw [mem_blk]
  intro a
  match a with
  | ⟨0, _⟩ =>
    show win2_9.index ⟨(i 0).val / 5000, ht⟩ (0 : Fin 2) * 5000 ≤ (i 0).val
      ∧ (i 0).val < win2_9.index ⟨(i 0).val / 5000, ht⟩ (0 : Fin 2) * 5000 + 5000
    omega
  | ⟨1, _⟩ =>
    show win2_9.index ⟨(i 0).val / 5000, ht⟩ (1 : Fin 2) * 64 ≤ (i 1).val
      ∧ (i 1).val < win2_9.index ⟨(i 0).val / 5000, ht⟩ (1 : Fin 2) * 64 + 64
    omega

/-- THE ARRAY after the region: the array function of the region's nine input arrays. -/
theorem final (c : Dev nD) :
    (Gen.dat2 V c).arrAt 9 cfg2.N = outAt V c :=
  (Gen.dat2 V c).arrAt_eq_of_cover 9 (outAt V c)
    (fun t _ => flushed_eq V c t) cover

/-! ## The value, entry by entry -/

/-- THE REGION'S VALUE at node `i` and feature `j`, the input arrays read where the region finds them: with
    y = (agg + hs) · dinv + b2 and x = PReLU y on row `i`, the ELU of x · P1 + pb1, projected by P2, plus pb2. -/
theorem value (c : Dev nD) (i : Fin 50000) (j : Fin 64) :
    (Gen.dat2 V c).arrAt 9 cfg2.N (ix2 i j)
      = mm (fun i t => eluK (mm (fun i k => prelu (in4 V c (ix2 0 0)) ((in0 V c (ix2 i k) + in1 V c (ix2 i k)) * in2 V c (ix2 i 0) + in3 V c (ix2 0 k))) (in5 V c) i t
          + in6 V c (ix2 0 t))) (in7 V c) i j + in8 V c (ix2 0 j) :=
  congrFun (final V c) (ix2 i j)

/-- The same over nine named functions, each with the equation that the region finds it in its window's array. -/
theorem value_of (c : Dev nD) (A0 : Mat 50000 64) (A1 : Mat 50000 64) (A2 : Mat 50000 1) (A3 : Mat 1 64) (A4 : Mat 1 1) (A5 : Mat 64 64) (A6 : Mat 1 64) (A7 : Mat 64 64) (A8 : Mat 1 64)
    (h0 : (V c (Pipeline.arrRef spec2 0) : S50000x64.Idx → EReal) = A0)
    (h1 : (V c (Pipeline.arrRef spec2 1) : S50000x64.Idx → EReal) = A1)
    (h2 : (V c (Pipeline.arrRef spec2 2) : S50000x1.Idx → EReal) = A2)
    (h3 : (V c (Pipeline.arrRef spec2 3) : S1x64.Idx → EReal) = A3)
    (h4 : (V c (Pipeline.arrRef spec2 4) : S1x1.Idx → EReal) = A4)
    (h5 : (V c (Pipeline.arrRef spec2 5) : S64x64.Idx → EReal) = A5)
    (h6 : (V c (Pipeline.arrRef spec2 6) : S1x64.Idx → EReal) = A6)
    (h7 : (V c (Pipeline.arrRef spec2 7) : S64x64.Idx → EReal) = A7)
    (h8 : (V c (Pipeline.arrRef spec2 8) : S1x64.Idx → EReal) = A8)
    (i : Fin 50000) (j : Fin 64) :
    (Gen.dat2 V c).arrAt 9 cfg2.N (ix2 i j)
      = mm (fun i t => eluK (mm (fun i k => prelu (A4 (ix2 0 0)) ((A0 (ix2 i k) + A1 (ix2 i k)) * A2 (ix2 i 0) + A3 (ix2 0 k))) A5 i t
          + A6 (ix2 0 t))) A7 i j + A8 (ix2 0 j) := by
  subst h0 h1 h2 h3 h4 h5 h6 h7 h8
  exact value V c i j

end Cert.KernelIdeal.Region2

end
-- ==== Proof.KernelFold.lean ====
/-
  The idealized kernel's result, entry by entry, as a formula of the launch arrays.

  The contents of the TensorCore's buffers are followed through the six segment boundaries of @main: after the first
  host stretch the edge words are cut out of the edge array and the dinv column is computed; region 0 leaves the first
  layer's scaled rows; the second stretch gathers them along the edges and sums them at the destinations; region 1
  leaves the second layer's scaled rows; the third stretch aggregates those; region 2 leaves the result. No stretch and
  no region writes an argument array, the edge words or the dinv column after they are made.
-/
import proofs.«111989_j69879117906023_2_alg».proof.Proof.KernelHost
import proofs.«111989_j69879117906023_2_alg».proof.Proof.Region0
import proofs.«111989_j69879117906023_2_alg».proof.Proof.Region1
import proofs.«111989_j69879117906023_2_alg».proof.Proof.Region2

set_option maxRecDepth 16384

noncomputable section

namespace Cert.KernelIdeal.Fold

open Cert.KernelIdeal Cert.KernelIdeal.Gen Cert.KernelIdeal.HostStretch
open Idealize.ShloMosaic Idealize.ShloMosaic.TcCoe Idealize.ShloMosaic.StableHlo Idealize.ShloMosaic.ValueIdx Cert.Gcn

variable (m : (ℓ : Loc nD τ sig) → Buf (Elt Ideal) ℓ) (ρ : Dev nD → PrngReg) (c : Dev nD)

/-! ## The argument arrays at every boundary -/

theorem W1_arg0 : W1 m ρ c (Proc.devRef .tc main_arg0) = (m ((c : Thread nD τ).loc main_arg0)) := s0_arg0 (W0 m ρ c)
theorem W2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (W1_arg0 m ρ c)
theorem W3_arg0 : W3 m ρ c (Proc.devRef .tc main_arg0) = (m ((c : Thread nD τ).loc main_arg0)) := (s1_arg0 (W2 m ρ c)).trans (W2_arg0 m ρ c)
theorem W4_arg0 : W4 m ρ c (Proc.devRef .tc main_arg0) = (m ((c : Thread nD τ).loc main_arg0)) := (W4_of_ne m ρ c main_arg0 (by decide)).trans (W3_arg0 m ρ c)
theorem W5_arg0 : W5 m ρ c (Proc.devRef .tc main_arg0) = (m ((c : Thread nD τ).loc main_arg0)) := (s2_arg0 (W4 m ρ c)).trans (W4_arg0 m ρ c)
theorem W1_arg1 : W1 m ρ c (Proc.devRef .tc main_arg1) = (m ((c : Thread nD τ).loc main_arg1)) := s0_arg1 (W0 m ρ c)
theorem W2_arg1 : W2 m ρ c (Proc.devRef .tc main_arg1) = (m ((c : Thread nD τ).loc main_arg1)) := (W2_of_ne m ρ c main_arg1 (by decide)).trans (W1_arg1 m ρ c)
theorem W3_arg1 : W3 m ρ c (Proc.devRef .tc main_arg1) = (m ((c : Thread nD τ).loc main_arg1)) := (s1_arg1 (W2 m ρ c)).trans (W2_arg1 m ρ c)
theorem W4_arg1 : W4 m ρ c (Proc.devRef .tc main_arg1) = (m ((c : Thread nD τ).loc main_arg1)) := (W4_of_ne m ρ c main_arg1 (by decide)).trans (W3_arg1 m ρ c)
theorem W5_arg1 : W5 m ρ c (Proc.devRef .tc main_arg1) = (m ((c : Thread nD τ).loc main_arg1)) := (s2_arg1 (W4 m ρ c)).trans (W4_arg1 m ρ c)
theorem W1_arg2 : W1 m ρ c (Proc.devRef .tc main_arg2) = (m ((c : Thread nD τ).loc main_arg2)) := s0_arg2 (W0 m ρ c)
theorem W2_arg2 : W2 m ρ c (Proc.devRef .tc main_arg2) = (m ((c : Thread nD τ).loc main_arg2)) :=
  ((W2_arr m ρ c 1).trans (((dat0 (V1 m ρ) c).arrAt_in 1 rfl _).trans (A_eq0 (V1 m ρ) c 1))).trans (W1_arg2 m ρ c)
theorem W3_arg2 : W3 m ρ c (Proc.devRef .tc main_arg2) = (m ((c : Thread nD τ).loc main_arg2)) := (s1_arg2 (W2 m ρ c)).trans (W2_arg2 m ρ c)
theorem W4_arg2 : W4 m ρ c (Proc.devRef .tc main_arg2) = (m ((c : Thread nD τ).loc main_arg2)) := (W4_of_ne m ρ c main_arg2 (by decide)).trans (W3_arg2 m ρ c)
theorem W5_arg2 : W5 m ρ c (Proc.devRef .tc main_arg2) = (m ((c : Thread nD τ).loc main_arg2)) := (s2_arg2 (W4 m ρ c)).trans (W4_arg2 m ρ c)
theorem W1_arg3 : W1 m ρ c (Proc.devRef .tc main_arg3) = (m ((c : Thread nD τ).loc main_arg3)) := s0_arg3 (W0 m ρ c)
theorem W2_arg3 : W2 m ρ c (Proc.devRef .tc main_arg3) = (m ((c : Thread nD τ).loc main_arg3)) := (W2_of_ne m ρ c main_arg3 (by decide)).trans (W1_arg3 m ρ c)
theorem W3_arg3 : W3 m ρ c (Proc.devRef .tc main_arg3) = (m ((c : Thread nD τ).loc main_arg3)) := (s1_arg3 (W2 m ρ c)).trans (W2_arg3 m ρ c)
theorem W4_arg3 : W4 m ρ c (Proc.devRef .tc main_arg3) = (m ((c : Thread nD τ).loc main_arg3)) := (W4_of_ne m ρ c main_arg3 (by decide)).trans (W3_arg3 m ρ c)
theorem W5_arg3 : W5 m ρ c (Proc.devRef .tc main_arg3) = (m ((c : Thread nD τ).loc main_arg3)) := (s2_arg3 (W4 m ρ c)).trans (W4_arg3 m ρ c)
theorem W1_arg4 : W1 m ρ c (Proc.devRef .tc main_arg4) = (m ((c : Thread nD τ).loc main_arg4)) := s0_arg4 (W0 m ρ c)
theorem W2_arg4 : W2 m ρ c (Proc.devRef .tc main_arg4) = (m ((c : Thread nD τ).loc main_arg4)) := (W2_of_ne m ρ c main_arg4 (by decide)).trans (W1_arg4 m ρ c)
theorem W3_arg4 : W3 m ρ c (Proc.devRef .tc main_arg4) = (m ((c : Thread nD τ).loc main_arg4)) := (s1_arg4 (W2 m ρ c)).trans (W2_arg4 m ρ c)
theorem W4_arg4 : W4 m ρ c (Proc.devRef .tc main_arg4) = (m ((c : Thread nD τ).loc main_arg4)) :=
  ((W4_arr m ρ c 5).trans (((dat1 (V3 m ρ) c).arrAt_in 5 rfl _).trans (A_eq1 (V3 m ρ) c 5))).trans (W3_arg4 m ρ c)
theorem W5_arg4 : W5 m ρ c (Proc.devRef .tc main_arg4) = (m ((c : Thread nD τ).loc main_arg4)) := (s2_arg4 (W4 m ρ c)).trans (W4_arg4 m ρ c)
theorem W1_arg5 : W1 m ρ c (Proc.devRef .tc main_arg5) = (m ((c : Thread nD τ).loc main_arg5)) := s0_arg5 (W0 m ρ c)
theorem W2_arg5 : W2 m ρ c (Proc.devRef .tc main_arg5) = (m ((c : Thread nD τ).loc main_arg5)) := (W2_of_ne m ρ c main_arg5 (by decide)).trans (W1_arg5 m ρ c)
theorem W3_arg5 : W3 m ρ c (Proc.devRef .tc main_arg5) = (m ((c : Thread nD τ).loc main_arg5)) := (s1_arg5 (W2 m ρ c)).trans (W2_arg5 m ρ c)
theorem W4_arg5 : W4 m ρ c (Proc.devRef .tc main_arg5) = (m ((c : Thread nD τ).loc main_arg5)) := (W4_of_ne m ρ c main_arg5 (by decide)).trans (W3_arg5 m ρ c)
theorem W5_arg5 : W5 m ρ c (Proc.devRef .tc main_arg5) = (m ((c : Thread nD τ).loc main_arg5)) := (s2_arg5 (W4 m ρ c)).trans (W4_arg5 m ρ c)
theorem W1_arg6 : W1 m ρ c (Proc.devRef .tc main_arg6) = (m ((c : Thread nD τ).loc main_arg6)) := s0_arg6 (W0 m ρ c)
theorem W2_arg6 : W2 m ρ c (Proc.devRef .tc main_arg6) = (m ((c : Thread nD τ).loc main_arg6)) := (W2_of_ne m ρ c main_arg6 (by decide)).trans (W1_arg6 m ρ c)
theorem W3_arg6 : W3 m ρ c (Proc.devRef .tc main_arg6) = (m ((c : Thread nD τ).loc main_arg6)) := (s1_arg6 (W2 m ρ c)).trans (W2_arg6 m ρ c)
theorem W4_arg6 : W4 m ρ c (Proc.devRef .tc main_arg6) = (m ((c : Thread nD τ).loc main_arg6)) := (W4_of_ne m ρ c main_arg6 (by decide)).trans (W3_arg6 m ρ c)
theorem W5_arg6 : W5 m ρ c (Proc.devRef .tc main_arg6) = (m ((c : Thread nD τ).loc main_arg6)) := (s2_arg6 (W4 m ρ c)).trans (W4_arg6 m ρ c)
theorem W1_arg7 : W1 m ρ c (Proc.devRef .tc main_arg7) = (m ((c : Thread nD τ).loc main_arg7)) := s0_arg7 (W0 m ρ c)
theorem W2_arg7 : W2 m ρ c (Proc.devRef .tc main_arg7) = (m ((c : Thread nD τ).loc main_arg7)) := (W2_of_ne m ρ c main_arg7 (by decide)).trans (W1_arg7 m ρ c)
theorem W3_arg7 : W3 m ρ c (Proc.devRef .tc main_arg7) = (m ((c : Thread nD τ).loc main_arg7)) := (s1_arg7 (W2 m ρ c)).trans (W2_arg7 m ρ c)
theorem W4_arg7 : W4 m ρ c (Proc.devRef .tc main_arg7) = (m ((c : Thread nD τ).loc main_arg7)) := (W4_of_ne m ρ c main_arg7 (by decide)).trans (W3_arg7 m ρ c)
theorem W5_arg7 : W5 m ρ c (Proc.devRef .tc main_arg7) = (m ((c : Thread nD τ).loc main_arg7)) := (s2_arg7 (W4 m ρ c)).trans (W4_arg7 m ρ c)
theorem W1_arg8 : W1 m ρ c (Proc.devRef .tc main_arg8) = (m ((c : Thread nD τ).loc main_arg8)) := s0_arg8 (W0 m ρ c)
theorem W2_arg8 : W2 m ρ c (Proc.devRef .tc main_arg8) = (m ((c : Thread nD τ).loc main_arg8)) := (W2_of_ne m ρ c main_arg8 (by decide)).trans (W1_arg8 m ρ c)
theorem W3_arg8 : W3 m ρ c (Proc.devRef .tc main_arg8) = (m ((c : Thread nD τ).loc main_arg8)) := (s1_arg8 (W2 m ρ c)).trans (W2_arg8 m ρ c)
theorem W4_arg8 : W4 m ρ c (Proc.devRef .tc main_arg8) = (m ((c : Thread nD τ).loc main_arg8)) := (W4_of_ne m ρ c main_arg8 (by decide)).trans (W3_arg8 m ρ c)
theorem W5_arg8 : W5 m ρ c (Proc.devRef .tc main_arg8) = (m ((c : Thread nD τ).loc main_arg8)) := (s2_arg8 (W4 m ρ c)).trans (W4_arg8 m ρ c)
theorem W1_arg9 : W1 m ρ c (Proc.devRef .tc main_arg9) = (m ((c : Thread nD τ).loc main_arg9)) := s0_arg9 (W0 m ρ c)
theorem W2_arg9 : W2 m ρ c (Proc.devRef .tc main_arg9) = (m ((c : Thread nD τ).loc main_arg9)) := (W2_of_ne m ρ c main_arg9 (by decide)).trans (W1_arg9 m ρ c)
theorem W3_arg9 : W3 m ρ c (Proc.devRef .tc main_arg9) = (m ((c : Thread nD τ).loc main_arg9)) := (s1_arg9 (W2 m ρ c)).trans (W2_arg9 m ρ c)
theorem W4_arg9 : W4 m ρ c (Proc.devRef .tc main_arg9) = (m ((c : Thread nD τ).loc main_arg9)) := (W4_of_ne m ρ c main_arg9 (by decide)).trans (W3_arg9 m ρ c)
theorem W5_arg9 : W5 m ρ c (Proc.devRef .tc main_arg9) = (m ((c : Thread nD τ).loc main_arg9)) := (s2_arg9 (W4 m ρ c)).trans (W4_arg9 m ρ c)
theorem W1_arg10 : W1 m ρ c (Proc.devRef .tc main_arg10) = (m ((c : Thread nD τ).loc main_arg10)) := s0_arg10 (W0 m ρ c)
theorem W2_arg10 : W2 m ρ c (Proc.devRef .tc main_arg10) = (m ((c : Thread nD τ).loc main_arg10)) := (W2_of_ne m ρ c main_arg10 (by decide)).trans (W1_arg10 m ρ c)
theorem W3_arg10 : W3 m ρ c (Proc.devRef .tc main_arg10) = (m ((c : Thread nD τ).loc main_arg10)) := (s1_arg10 (W2 m ρ c)).trans (W2_arg10 m ρ c)
theorem W4_arg10 : W4 m ρ c (Proc.devRef .tc main_arg10) = (m ((c : Thread nD τ).loc main_arg10)) := (W4_of_ne m ρ c main_arg10 (by decide)).trans (W3_arg10 m ρ c)
theorem W5_arg10 : W5 m ρ c (Proc.devRef .tc main_arg10) = (m ((c : Thread nD τ).loc main_arg10)) := (s2_arg10 (W4 m ρ c)).trans (W4_arg10 m ρ c)

/-! ## The edge words -/

theorem W1_v1 (e : Fin 800000) : W1 m ρ c (Proc.devRef .tc main_v1) (ix1 e) = (srcW (m ((c : Thread nD τ).loc main_arg1))) e := s0_v1 (W0 m ρ c) e
theorem W2_v1 (e : Fin 800000) : W2 m ρ c (Proc.devRef .tc main_v1) (ix1 e) = (srcW (m ((c : Thread nD τ).loc main_arg1))) e := by
  rw [W2_of_ne m ρ c main_v1 (by decide)]; exact W1_v1 m ρ c e
theorem W3_v1 (e : Fin 800000) : W3 m ρ c (Proc.devRef .tc main_v1) (ix1 e) = (srcW (m ((c : Thread nD τ).loc main_arg1))) e := by
  show after (hostOps1 (F := Ideal)) (W2 m ρ c) (Proc.devRef .tc main_v1) (ix1 e) = _
  rw [s1_v1]; exact W2_v1 m ρ c e
theorem W4_v1 (e : Fin 800000) : W4 m ρ c (Proc.devRef .tc main_v1) (ix1 e) = (srcW (m ((c : Thread nD τ).loc main_arg1))) e := by
  rw [W4_of_ne m ρ c main_v1 (by decide)]; exact W3_v1 m ρ c e
theorem W1_v3 (e : Fin 800000) : W1 m ρ c (Proc.devRef .tc main_v3) (ix1 e) = (dstW (m ((c : Thread nD τ).loc main_arg1))) e := s0_v3 (W0 m ρ c) e
theorem W2_v3 (e : Fin 800000) : W2 m ρ c (Proc.devRef .tc main_v3) (ix1 e) = (dstW (m ((c : Thread nD τ).loc main_arg1))) e := by
  rw [W2_of_ne m ρ c main_v3 (by decide)]; exact W1_v3 m ρ c e
theorem W3_v3 (e : Fin 800000) : W3 m ρ c (Proc.devRef .tc main_v3) (ix1 e) = (dstW (m ((c : Thread nD τ).loc main_arg1))) e := by
  show after (hostOps1 (F := Ideal)) (W2 m ρ c) (Proc.devRef .tc main_v3) (ix1 e) = _
  rw [s1_v3]; exact W2_v3 m ρ c e
theorem W4_v3 (e : Fin 800000) : W4 m ρ c (Proc.devRef .tc main_v3) (ix1 e) = (dstW (m ((c : Thread nD τ).loc main_arg1))) e := by
  rw [W4_of_ne m ρ c main_v3 (by decide)]; exact W3_v3 m ρ c e

/-! ## The dinv column -/

theorem W1_v11 (i : Fin 50000) (u : Fin 1) : W1 m ρ c (Proc.devRef .tc main_v11) (ix2 i u) = dinvK (dstW (m ((c : Thread nD τ).loc main_arg1))) i := s0_v11 (W0 m ρ c) i u
theorem W2_v11 (i : Fin 50000) (u : Fin 1) : W2 m ρ c (Proc.devRef .tc main_v11) (ix2 i u) = dinvK (dstW (m ((c : Thread nD τ).loc main_arg1))) i := by
  have h : W2 m ρ c (Proc.devRef .tc main_v11) = W1 m ρ c (Proc.devRef .tc main_v11) :=
    (W2_arr m ρ c 2).trans (((dat0 (V1 m ρ) c).arrAt_in 2 rfl _).trans (A_eq0 (V1 m ρ) c 2))
  rw [h]; exact W1_v11 m ρ c i u
theorem W3_v11 (i : Fin 50000) (u : Fin 1) : W3 m ρ c (Proc.devRef .tc main_v11) (ix2 i u) = dinvK (dstW (m ((c : Thread nD τ).loc main_arg1))) i := by
  show after (hostOps1 (F := Ideal)) (W2 m ρ c) (Proc.devRef .tc main_v11) (ix2 i u) = _
  rw [s1_v11]; exact W2_v11 m ρ c i u
theorem W4_v11 (i : Fin 50000) (u : Fin 1) : W4 m ρ c (Proc.devRef .tc main_v11) (ix2 i u) = dinvK (dstW (m ((c : Thread nD τ).loc main_arg1))) i := by
  have h : W4 m ρ c (Proc.devRef .tc main_v11) = W3 m ρ c (Proc.devRef .tc main_v11) :=
    (W4_arr m ρ c 2).trans (((dat1 (V3 m ρ) c).arrAt_in 2 rfl _).trans (A_eq1 (V3 m ρ) c 2))
  rw [h]; exact W3_v11 m ρ c i u
theorem W5_v11 (i : Fin 50000) (u : Fin 1) : W5 m ρ c (Proc.devRef .tc main_v11) (ix2 i u) = dinvK (dstW (m ((c : Thread nD τ).loc main_arg1))) i := by
  show after (hostOps2 (F := Ideal)) (W4 m ρ c) (Proc.devRef .tc main_v11) (ix2 i u) = _
  rw [s2_v11]; exact W4_v11 m ρ c i u

/-! ## The first layer -/

/-- Region 0 leaves the first layer's rows, each scaled by its node's dinv. -/
theorem W2_v12 (i : Fin 50000) (j : Fin 128) :
    W2 m ρ c (Proc.devRef .tc main_v12) (ix2 i j) = scaledK (dstW (m ((c : Thread nD τ).loc main_arg1))) (mm (fun i k => (m ((c : Thread nD τ).loc main_arg0)) (ix2 i k)) (m ((c : Thread nD τ).loc main_arg2))) i j := by
  have h : W2 m ρ c (Proc.devRef .tc main_v12) = (dat0 (V1 m ρ) c).arrAt 3 cfg0.N := W2_arr m ρ c 3
  rw [h]
  refine (Region0.value (V1 m ρ) c i j).trans ?_
  show _ = (mm (fun i k => (m ((c : Thread nD τ).loc main_arg0)) (ix2 i k)) (m ((c : Thread nD τ).loc main_arg2))) i j * dinvK (dstW (m ((c : Thread nD τ).loc main_arg1))) i
  exact congrArg₂ (· * ·)
    (congrArg₂ (fun (X : Mat 50000 128) (W : Mat 128 128) => mm (fun i k => X (ix2 i k)) W i j) (W1_arg0 m ρ c) (W1_arg2 m ρ c))
    (W1_v11 m ρ c i 0)

theorem W3_v12 (i : Fin 50000) (j : Fin 128) :
    W3 m ρ c (Proc.devRef .tc main_v12) (ix2 i j) = scaledK (dstW (m ((c : Thread nD τ).loc main_arg1))) (mm (fun i k => (m ((c : Thread nD τ).loc main_arg0)) (ix2 i k)) (m ((c : Thread nD τ).loc main_arg2))) i j := by
  show after (hostOps1 (F := Ideal)) (W2 m ρ c) (Proc.devRef .tc main_v12) (ix2 i j) = _
  rw [s1_v12]; exact W2_v12 m ρ c i j

/-- The second stretch sums the scaled rows along the edges. -/
theorem W3_v23 (i : Fin 50000) (k : Fin 128) :
    W3 m ρ c (Proc.devRef .tc main_v23) (ix2 i k) = aggK (srcW (m ((c : Thread nD τ).loc main_arg1))) (dstW (m ((c : Thread nD τ).loc main_arg1))) (scaledK (dstW (m ((c : Thread nD τ).loc main_arg1))) (mm (fun i k => (m ((c : Thread nD τ).loc main_arg0)) (ix2 i k)) (m ((c : Thread nD τ).loc main_arg2)))) i k := by
  show after (hostOps1 (F := Ideal)) (W2 m ρ c) (Proc.devRef .tc main_v23) (ix2 i k) = _
  refine (s1_v23 (W2 m ρ c) i k).trans ?_
  have hs : (fun e => W2 m ρ c (Proc.devRef .tc main_v1) (ix1 e)) = (srcW (m ((c : Thread nD τ).loc main_arg1))) := funext (W2_v1 m ρ c)
  have hd : (fun e => W2 m ρ c (Proc.devRef .tc main_v3) (ix1 e)) = (dstW (m ((c : Thread nD τ).loc main_arg1))) := funext (W2_v3 m ρ c)
  have hh : (fun i c' => W2 m ρ c (Proc.devRef .tc main_v12) (ix2 i c')) = scaledK (dstW (m ((c : Thread nD τ).loc main_arg1))) (mm (fun i k => (m ((c : Thread nD τ).loc main_arg0)) (ix2 i k)) (m ((c : Thread nD τ).loc main_arg2))) :=
    funext fun i => funext fun c' => W2_v12 m ρ c i c'
  rw [hs, hd, hh]

theorem W3_v24 (u : Fin 1) (k : Fin 128) : W3 m ρ c (Proc.devRef .tc main_v24) (ix2 u k) = (m ((c : Thread nD τ).loc main_arg3)) (ix1 k) := by
  show after (hostOps1 (F := Ideal)) (W2 m ρ c) (Proc.devRef .tc main_v24) (ix2 u k) = _
  rw [s1_v24, W2_arg3]
theorem W3_v25 (u v : Fin 1) : W3 m ρ c (Proc.devRef .tc main_v25) (ix2 u v) = (m ((c : Thread nD τ).loc main_arg6)) ix0 := by
  show after (hostOps1 (F := Ideal)) (W2 m ρ c) (Proc.devRef .tc main_v25) (ix2 u v) = _
  rw [s1_v25, W2_arg6]

/-! ## The second layer -/

/-- Region 1 leaves the second layer's rows, each scaled by its node's dinv. -/
theorem W4_v26 (i : Fin 50000) (j : Fin 64) :
    W4 m ρ c (Proc.devRef .tc main_v26) (ix2 i j) = scaledK (dstW (m ((c : Thread nD τ).loc main_arg1))) (mm (layerK (srcW (m ((c : Thread nD τ).loc main_arg1))) (dstW (m ((c : Thread nD τ).loc main_arg1))) (mm (fun i k => (m ((c : Thread nD τ).loc main_arg0)) (ix2 i k)) (m ((c : Thread nD τ).loc main_arg2))) (m ((c : Thread nD τ).loc main_arg3)) ((m ((c : Thread nD τ).loc main_arg6)) ix0)) (m ((c : Thread nD τ).loc main_arg4))) i j := by
  have h : W4 m ρ c (Proc.devRef .tc main_v26) = (dat1 (V3 m ρ) c).arrAt 6 cfg1.N := W4_arr m ρ c 6
  rw [h]
  refine (Region1.value (V3 m ρ) c i j).trans ?_
  show _ = (mm (layerK (srcW (m ((c : Thread nD τ).loc main_arg1))) (dstW (m ((c : Thread nD τ).loc main_arg1))) (mm (fun i k => (m ((c : Thread nD τ).loc main_arg0)) (ix2 i k)) (m ((c : Thread nD τ).loc main_arg2))) (m ((c : Thread nD τ).loc main_arg3)) ((m ((c : Thread nD τ).loc main_arg6)) ix0)) (m ((c : Thread nD τ).loc main_arg4))) i j * dinvK (dstW (m ((c : Thread nD τ).loc main_arg1))) i
  refine congrArg₂ (· * ·)
    (congrArg₂ (fun (X : Fin 50000 → Fin 128 → EReal) (W : Mat 128 64) => mm X W i j) (funext fun i => funext fun k => ?_) (W3_arg4 m ρ c))
    (W3_v11 m ρ c i 0)
  show prelu _ _ = prelu ((m ((c : Thread nD τ).loc main_arg6)) ix0)
    ((aggK (srcW (m ((c : Thread nD τ).loc main_arg1))) (dstW (m ((c : Thread nD τ).loc main_arg1))) (scaledK (dstW (m ((c : Thread nD τ).loc main_arg1))) (mm (fun i k => (m ((c : Thread nD τ).loc main_arg0)) (ix2 i k)) (m ((c : Thread nD τ).loc main_arg2)))) i k + scaledK (dstW (m ((c : Thread nD τ).loc main_arg1))) (mm (fun i k => (m ((c : Thread nD τ).loc main_arg0)) (ix2 i k)) (m ((c : Thread nD τ).loc main_arg2))) i k) * dinvK (dstW (m ((c : Thread nD τ).loc main_arg1))) i + (m ((c : Thread nD τ).loc main_arg3)) (ix1 k))
  exact congrArg₂ prelu (W3_v25 m ρ c 0 0)
    (congrArg₂ (· + ·) (congrArg₂ (· * ·) (congrArg₂ (· + ·) (W3_v23 m ρ c i k) (W3_v12 m ρ c i k)) (W3_v11 m ρ c i 0))
      (W3_v24 m ρ c 0 k))

theorem W5_v26 (i : Fin 50000) (j : Fin 64) :
    W5 m ρ c (Proc.devRef .tc main_v26) (ix2 i j) = scaledK (dstW (m ((c : Thread nD τ).loc main_arg1))) (mm (layerK (srcW (m ((c : Thread nD τ).loc main_arg1))) (dstW (m ((c : Thread nD τ).loc main_arg1))) (mm (fun i k => (m ((c : Thread nD τ).loc main_arg0)) (ix2 i k)) (m ((c : Thread nD τ).loc main_arg2))) (m ((c : Thread nD τ).loc main_arg3)) ((m ((c : Thread nD τ).loc main_arg6)) ix0)) (m ((c : Thread nD τ).loc main_arg4))) i j := by
  show after (hostOps2 (F := Ideal)) (W4 m ρ c) (Proc.devRef .tc main_v26) (ix2 i j) = _
  rw [s2_v26]; exact W4_v26 m ρ c i j

theorem W5_v37 (i : Fin 50000) (k : Fin 64) :
    W5 m ρ c (Proc.devRef .tc main_v37) (ix2 i k) = aggK (srcW (m ((c : Thread nD τ).loc main_arg1))) (dstW (m ((c : Thread nD τ).loc main_arg1))) (scaledK (dstW (m ((c : Thread nD τ).loc main_arg1))) (mm (layerK (srcW (m ((c : Thread nD τ).loc main_arg1))) (dstW (m ((c : Thread nD τ).loc main_arg1))) (mm (fun i k => (m ((c : Thread nD τ).loc main_arg0)) (ix2 i k)) (m ((c : Thread nD τ).loc main_arg2))) (m ((c : Thread nD τ).loc main_arg3)) ((m ((c : Thread nD τ).loc main_arg6)) ix0)) (m ((c : Thread nD τ).loc main_arg4)))) i k := by
  show after (hostOps2 (F := Ideal)) (W4 m ρ c) (Proc.devRef .tc main_v37) (ix2 i k) = _
  refine (s2_v37 (W4 m ρ c) i k).trans ?_
  have hs : (fun e => W4 m ρ c (Proc.devRef .tc main_v1) (ix1 e)) = (srcW (m ((c : Thread nD τ).loc main_arg1))) := funext (W4_v1 m ρ c)
  have hd : (fun e => W4 m ρ c (Proc.devRef .tc main_v3) (ix1 e)) = (dstW (m ((c : Thread nD τ).loc main_arg1))) := funext (W4_v3 m ρ c)
  have hh : (fun i c' => W4 m ρ c (Proc.devRef .tc main_v26) (ix2 i c')) = scaledK (dstW (m ((c : Thread nD τ).loc main_arg1))) (mm (layerK (srcW (m ((c : Thread nD τ).loc main_arg1))) (dstW (m ((c : Thread nD τ).loc main_arg1))) (mm (fun i k => (m ((c : Thread nD τ).loc main_arg0)) (ix2 i k)) (m ((c : Thread nD τ).loc main_arg2))) (m ((c : Thread nD τ).loc main_arg3)) ((m ((c : Thread nD τ).loc main_arg6)) ix0)) (m ((c : Thread nD τ).loc main_arg4))) :=
    funext fun i => funext fun c' => W4_v26 m ρ c i c'
  rw [hs, hd, hh]

theorem W5_v38 (u : Fin 1) (k : Fin 64) : W5 m ρ c (Proc.devRef .tc main_v38) (ix2 u k) = (m ((c : Thread nD τ).loc main_arg5)) (ix1 k) := by
  show after (hostOps2 (F := Ideal)) (W4 m ρ c) (Proc.devRef .tc main_v38) (ix2 u k) = _
  rw [s2_v38, W4_arg5]
theorem W5_v39 (u v : Fin 1) : W5 m ρ c (Proc.devRef .tc main_v39) (ix2 u v) = (m ((c : Thread nD τ).loc main_arg6)) ix0 := by
  show after (hostOps2 (F := Ideal)) (W4 m ρ c) (Proc.devRef .tc main_v39) (ix2 u v) = _
  rw [s2_v39, W4_arg6]
theorem W5_v40 (u : Fin 1) (k : Fin 64) : W5 m ρ c (Proc.devRef .tc main_v40) (ix2 u k) = (m ((c : Thread nD τ).loc main_arg8)) (ix1 k) := by
  show after (hostOps2 (F := Ideal)) (W4 m ρ c) (Proc.devRef .tc main_v40) (ix2 u k) = _
  rw [s2_v40, W4_arg8]
theorem W5_v41 (u : Fin 1) (k : Fin 64) : W5 m ρ c (Proc.devRef .tc main_v41) (ix2 u k) = (m ((c : Thread nD τ).loc main_arg10)) (ix1 k) := by
  show after (hostOps2 (F := Ideal)) (W4 m ρ c) (Proc.devRef .tc main_v41) (ix2 u k) = _
  rw [s2_v41, W4_arg10]

/-! ## The result -/

/-- Region 2 leaves the projection head of the second layer's activation: arrangement K's formula. -/
theorem result (i : Fin 50000) (j : Fin 64) :
    W6 m ρ c (Proc.devRef .tc main_v42) (ix2 i j)
      = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i j := by
  have h : W6 m ρ c (Proc.devRef .tc main_v42) = (dat2 (V5 m ρ) c).arrAt 9 cfg2.N := W6_arr m ρ c 9
  rw [h]
  refine (Region2.value (V5 m ρ) c i j).trans ?_
  show _ = mm (fun i t => eluK (mm (layerK (srcW (m ((c : Thread nD τ).loc main_arg1))) (dstW (m ((c : Thread nD τ).loc main_arg1))) (mm (layerK (srcW (m ((c : Thread nD τ).loc main_arg1))) (dstW (m ((c : Thread nD τ).loc main_arg1))) (mm (fun i k => (m ((c : Thread nD τ).loc main_arg0)) (ix2 i k)) (m ((c : Thread nD τ).loc main_arg2))) (m ((c : Thread nD τ).loc main_arg3)) ((m ((c : Thread nD τ).loc main_arg6)) ix0)) (m ((c : Thread nD τ).loc main_arg4))) (m ((c : Thread nD τ).loc main_arg5)) ((m ((c : Thread nD τ).loc main_arg6)) ix0)) (m ((c : Thread nD τ).loc main_arg7)) i t + (m ((c : Thread nD τ).loc main_arg8)) (ix1 t))) (m ((c : Thread nD τ).loc main_arg9)) i j + (m ((c : Thread nD τ).loc main_arg10)) (ix1 j)
  refine congrArg₂ (· + ·)
    (congrArg₂ (fun (X : Fin 50000 → Fin 64 → EReal) (W : Mat 64 64) => mm X W i j) (funext fun i => funext fun t => ?_) (W5_arg9 m ρ c))
    (W5_v41 m ρ c 0 j)
  refine congrArg eluK (congrArg₂ (· + ·)
    (congrArg₂ (fun (X : Fin 50000 → Fin 64 → EReal) (W : Mat 64 64) => mm X W i t) (funext fun i => funext fun k => ?_) (W5_arg7 m ρ c))
    (W5_v40 m ρ c 0 t))
  show prelu _ _ = prelu ((m ((c : Thread nD τ).loc main_arg6)) ix0)
    ((aggK (srcW (m ((c : Thread nD τ).loc main_arg1))) (dstW (m ((c : Thread nD τ).loc main_arg1))) (scaledK (dstW (m ((c : Thread nD τ).loc main_arg1))) (mm (layerK (srcW (m ((c : Thread nD τ).loc main_arg1))) (dstW (m ((c : Thread nD τ).loc main_arg1))) (mm (fun i k => (m ((c : Thread nD τ).loc main_arg0)) (ix2 i k)) (m ((c : Thread nD τ).loc main_arg2))) (m ((c : Thread nD τ).loc main_arg3)) ((m ((c : Thread nD τ).loc main_arg6)) ix0)) (m ((c : Thread nD τ).loc main_arg4)))) i k + scaledK (dstW (m ((c : Thread nD τ).loc main_arg1))) (mm (layerK (srcW (m ((c : Thread nD τ).loc main_arg1))) (dstW (m ((c : Thread nD τ).loc main_arg1))) (mm (fun i k => (m ((c : Thread nD τ).loc main_arg0)) (ix2 i k)) (m ((c : Thread nD τ).loc main_arg2))) (m ((c : Thread nD τ).loc main_arg3)) ((m ((c : Thread nD τ).loc main_arg6)) ix0)) (m ((c : Thread nD τ).loc main_arg4))) i k) * dinvK (dstW (m ((c : Thread nD τ).loc main_arg1))) i + (m ((c : Thread nD τ).loc main_arg5)) (ix1 k))
  exact congrArg₂ prelu (W5_v39 m ρ c 0 0)
    (congrArg₂ (· + ·) (congrArg₂ (· * ·) (congrArg₂ (· + ·) (W5_v37 m ρ c i k) (W5_v26 m ρ c i k)) (W5_v11 m ρ c i 0))
      (W5_v38 m ρ c 0 k))

end Cert.KernelIdeal.Fold

end
-- ==== Proof.RefOps.lean ====
/-
  The reference program's @main as three lists of host operations, one per printed window, the outlined functions
  (the selects, and the ELU, which itself calls two selects) unfolded at their call sites over each call's buffer record.
-/
import proofs.«111989_j69879117906023_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The first window: the first layer up to its bias. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v12) (.of main_v13) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v5 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v5 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v5 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v5 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.unary main_cst_9 main_v47 (broadcastInDim S50000x128 ![] bcast_S_S50000x128 : (⟨S_, .f32⟩ : BufTy).Contents (Elt F) → (⟨S50000x128, .f32⟩ : BufTy).Contents (Elt F)) ]

/-- The second window: the first activation and the second layer up to its bias. -/
abbrev ops1 : List (HloOp τ sig (Elt F)) :=
  [ StableHlo.binary main_v46 main_v47 main_v48 (cmpf .oge : (⟨S50000x128, .f32⟩ : BufTy).Contents (Elt F) → (⟨S50000x128, .f32⟩ : BufTy).Contents (Elt F) → (⟨S50000x128, .i1⟩ : BufTy).Contents (Elt F)),
    StableHlo.unary main_arg6 main_v49 (broadcastInDim S50000x128 ![] bcast_S_S50000x128 : (⟨S_, .f32⟩ : BufTy).Contents (Elt F) → (⟨S50000x128, .f32⟩ : BufTy).Contents (Elt F)),
    StableHlo.binary main_v49 main_v46 main_v50 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v48) (.of main_v46) (.of main_v50) main_call1.v0 select,
    StableHlo.nullary main_v52 (iotaInDim S50000 32 0),
    StableHlo.binary main_v1 main_v52 main_v53 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v52 main_v54 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_10 (constant S_ .f32 0x3F800000#32),
    StableHlo.unary main_cst_10 main_v55 (broadcastInDim S850000 ![] bcast_S_S850000 : (⟨S_, .f32⟩ : BufTy).Contents (Elt F) → (⟨S850000, .f32⟩ : BufTy).Contents (Elt F)),
    StableHlo.nullary main_cst_11 (constant S_ .f32 0x00000000#32),
    StableHlo.unary main_cst_11 main_v56 (broadcastInDim S50000 ![] bcast_S_S50000 : (⟨S_, .f32⟩ : BufTy).Contents (Elt F) → (⟨S50000, .f32⟩ : BufTy).Contents (Elt F)),
    StableHlo.unary main_v54 main_v57 (broadcastInDim S850000x1 ![0] bcast_S850000_S850000x1_0 : (⟨S850000, .i32⟩ : BufTy).Contents (Elt F) → (⟨S850000x1, .i32⟩ : BufTy).Contents (Elt F)),
    StableHlo.ternary main_v56 main_v57 main_v55 main_v58 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_12 (constant S_ .f32 0x00000000#32),
    StableHlo.unary main_cst_12 main_v59 (broadcastInDim S50000 ![] bcast_S_S50000 : (⟨S_, .f32⟩ : BufTy).Contents (Elt F) → (⟨S50000, .f32⟩ : BufTy).Contents (Elt F)),
    StableHlo.binary main_v58 main_v59 main_v60 (cmpf .ogt : (⟨S50000, .f32⟩ : BufTy).Contents (Elt F) → (⟨S50000, .f32⟩ : BufTy).Contents (Elt F) → (⟨S50000, .i1⟩ : BufTy).Contents (Elt F)),
    StableHlo.unary main_v58 main_v61 (Host.rsqrt : (⟨S50000, .f32⟩ : BufTy).Contents (Elt F) → (⟨S50000, .f32⟩ : BufTy).Contents (Elt F)),
    StableHlo.nullary main_cst_13 (constant S_ .f32 0x00000000#32),
    StableHlo.TRef.unary (.of main_cst_13) main_call2.v0 id,
    StableHlo.TRef.unary main_call2.v0 main_call2.v1 (broadcastInDim S50000 ![] bcast_S_S50000),
    StableHlo.TRef.ternary (.of main_v60) (.of main_v61) main_call2.v1 main_call2.v2 select,
    StableHlo.nullary main_c_14 (constantI S_ 32 0#32),
    StableHlo.unary main_c_14 main_v63 (broadcastInDim S850000 ![] bcast_S_S850000 : (⟨S_, .i32⟩ : BufTy).Contents (Elt F) → (⟨S850000, .i32⟩ : BufTy).Contents (Elt F)),
    StableHlo.binary main_v53 main_v63 main_v64 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v65 (broadcastInDim S850000 ![] bcast_S_S850000 : (⟨S_, .i32⟩ : BufTy).Contents (Elt F) → (⟨S850000, .i32⟩ : BufTy).Contents (Elt F)),
    StableHlo.binary main_v53 main_v65 main_v66 (addi : (⟨S850000, .i32⟩ : BufTy).Contents (Elt F) → (⟨S850000, .i32⟩ : BufTy).Contents (Elt F) → (⟨S850000, .i32⟩ : BufTy).Contents (Elt F)),
    StableHlo.ternary main_v64 main_v66 main_v53 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v67 main_v68 (broadcastInDim S850000x1 ![0] bcast_S850000_S850000x1_0 : (⟨S850000, .i32⟩ : BufTy).Contents (Elt F) → (⟨S850000x1, .i32⟩ : BufTy).Contents (Elt F)),
    StableHlo.binary main_v62 main_v68 main_v69 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_16 (constantI S_ 32 0#32),
    StableHlo.unary main_c_16 main_v70 (broadcastInDim S850000 ![] bcast_S_S850000 : (⟨S_, .i32⟩ : BufTy).Contents (Elt F) → (⟨S850000, .i32⟩ : BufTy).Contents (Elt F)),
    StableHlo.binary main_v54 main_v70 main_v71 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v72 (broadcastInDim S850000 ![] bcast_S_S850000 : (⟨S_, .i32⟩ : BufTy).Contents (Elt F) → (⟨S850000, .i32⟩ : BufTy).Contents (Elt F)),
    StableHlo.binary main_v54 main_v72 main_v73 (addi : (⟨S850000, .i32⟩ : BufTy).Contents (Elt F) → (⟨S850000, .i32⟩ : BufTy).Contents (Elt F) → (⟨S850000, .i32⟩ : BufTy).Contents (Elt F)),
    StableHlo.ternary main_v71 main_v73 main_v54 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v74 main_v75 (broadcastInDim S850000x1 ![0] bcast_S850000_S850000x1_0 : (⟨S850000, .i32⟩ : BufTy).Contents (Elt F) → (⟨S850000x1, .i32⟩ : BufTy).Contents (Elt F)),
    StableHlo.binary main_v62 main_v75 main_v76 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v69 main_v76 main_v77 (mulf : (⟨S850000, .f32⟩ : BufTy).Contents (Elt F) → (⟨S850000, .f32⟩ : BufTy).Contents (Elt F) → (⟨S850000, .f32⟩ : BufTy).Contents (Elt F)),
    StableHlo.binary main_v51 main_arg4 main_v78 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_18 (constantI S_ 32 0#32),
    StableHlo.unary main_c_18 main_v79 (broadcastInDim S850000 ![] bcast_S_S850000 : (⟨S_, .i32⟩ : BufTy).Contents (Elt F) → (⟨S850000, .i32⟩ : BufTy).Contents (Elt F)),
    StableHlo.binary main_v53 main_v79 main_v80 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v81 (broadcastInDim S850000 ![] bcast_S_S850000 : (⟨S_, .i32⟩ : BufTy).Contents (Elt F) → (⟨S850000, .i32⟩ : BufTy).Contents (Elt F)),
    StableHlo.binary main_v53 main_v81 main_v82 (addi : (⟨S850000, .i32⟩ : BufTy).Contents (Elt F) → (⟨S850000, .i32⟩ : BufTy).Contents (Elt F) → (⟨S850000, .i32⟩ : BufTy).Contents (Elt F)),
    StableHlo.ternary main_v80 main_v82 main_v53 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v83 main_v84 (broadcastInDim S850000x1 ![0] bcast_S850000_S850000x1_0 : (⟨S850000, .i32⟩ : BufTy).Contents (Elt F) → (⟨S850000x1, .i32⟩ : BufTy).Contents (Elt F)),
    StableHlo.binary main_v78 main_v84 main_v85 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v77 main_v86 (broadcastInDim S850000x1 ![0] bcast_S850000_S850000x1_0 : (⟨S850000, .f32⟩ : BufTy).Contents (Elt F) → (⟨S850000x1, .f32⟩ : BufTy).Contents (Elt F)),
    StableHlo.unary main_v86 main_v87 (broadcastInDim S850000x64 ![0, 1] bcast_S850000x1_S850000x64_0_1 : (⟨S850000x1, .f32⟩ : BufTy).Contents (Elt F) → (⟨S850000x64, .f32⟩ : BufTy).Contents (Elt F)),
    StableHlo.binary main_v85 main_v87 main_v88 (mulf : (⟨S850000x64, .f32⟩ : BufTy).Contents (Elt F) → (⟨S850000x64, .f32⟩ : BufTy).Contents (Elt F) → (⟨S850000x64, .f32⟩ : BufTy).Contents (Elt F)),
    StableHlo.nullary main_cst_20 (constant S_ .f32 0x00000000#32),
    StableHlo.unary main_cst_20 main_v89 (broadcastInDim S50000x64 ![] bcast_S_S50000x64 : (⟨S_, .f32⟩ : BufTy).Contents (Elt F) → (⟨S50000x64, .f32⟩ : BufTy).Contents (Elt F)),
    StableHlo.unary main_v54 main_v90 (broadcastInDim S850000x1 ![0] bcast_S850000_S850000x1_0 : (⟨S850000, .i32⟩ : BufTy).Contents (Elt F) → (⟨S850000x1, .i32⟩ : BufTy).Contents (Elt F)),
    StableHlo.ternary main_v89 main_v90 main_v88 main_v91 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x00000000#32),
    StableHlo.unary main_cst_21 main_v95 (broadcastInDim S50000x64 ![] bcast_S_S50000x64 : (⟨S_, .f32⟩ : BufTy).Contents (Elt F) → (⟨S50000x64, .f32⟩ : BufTy).Contents (Elt F)) ]

/-- The third window: the second activation and the projection head. -/
abbrev ops2 : List (HloOp τ sig (Elt F)) :=
  [ StableHlo.binary main_v94 main_v95 main_v96 (cmpf .oge : (⟨S50000x64, .f32⟩ : BufTy).Contents (Elt F) → (⟨S50000x64, .f32⟩ : BufTy).Contents (Elt F) → (⟨S50000x64, .i1⟩ : BufTy).Contents (Elt F)),
    StableHlo.unary main_arg6 main_v97 (broadcastInDim S50000x64 ![] bcast_S_S50000x64 : (⟨S_, .f32⟩ : BufTy).Contents (Elt F) → (⟨S50000x64, .f32⟩ : BufTy).Contents (Elt F)),
    StableHlo.binary main_v97 main_v94 main_v98 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v96) (.of main_v94) (.of main_v98) main_call3.v0 select,
    StableHlo.binary main_v99 main_arg7 main_v100 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v102 main_v103 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (.of main_v103) main_call4.v0 main_call4.v1 (cmpf .ogt),
    StableHlo.TRef.nullary main_call4.cst_0 (constant S_ .f32 0x00000000#32),
    StableHlo.TRef.unary main_call4.cst_0 main_call4.v2 (broadcastInDim S50000x64 ![] bcast_S_S50000x64),
    StableHlo.TRef.binary (.of main_v103) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x64 ![] bcast_S_S50000x64),
    StableHlo.TRef.ternary main_call4.v3 main_call4.call0.v1 (.of main_v103) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x64 ![] bcast_S_S50000x64),
    StableHlo.TRef.binary main_call4.v6 main_call4.v5 main_call4.v7 mulf,
    StableHlo.TRef.ternary main_call4.v1 (.of main_v103) main_call4.v7 main_call4.call1.v0 select,
    StableHlo.binary main_v104 main_arg9 main_v105 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v107 main_v108 (addf : (⟨S50000x64, .f32⟩ : BufTy).Contents (Elt F) → (⟨S50000x64, .f32⟩ : BufTy).Contents (Elt F) → (⟨S50000x64, .f32⟩ : BufTy).Contents (Elt F)) ]

/-- The whole program's operations. -/
abbrev ops : List (HloOp τ sig (Elt F)) := ops0 ++ (ops1 ++ ops2)

end Cert.ReferenceIdeal.RefOps

end
-- ==== Proof.RefRun.lean ====
/-
  The reference program's run: each printed window of @main is the sequence of its operations, @main is the three
  windows in order, so every weakly fair execution terminates with each buffer at the fold of all the operations over
  the launch contents.
-/
import proofs.«111989_j69879117906023_2_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 4096 in
theorem part0_eq (c : Dev nD) : main_part0 (F := F) c = seq ops0 := by
  simp only [main_part0, fn_where.body, seq, bind_assoc, pure_bind]
  rfl

set_option maxRecDepth 4096 in
theorem part1_eq (c : Dev nD) : main_part1 (F := F) c = seq ops1 := by
  simp only [main_part1, fn_where.body, fn_where_0.body, seq, bind_assoc, pure_bind]
  rfl

set_option maxRecDepth 4096 in
theorem part2_eq (c : Dev nD) : main_part2 (F := F) c = seq ops2 := by
  simp only [main_part2, fn_where_1.body, fn_where_2.body, fn_elu.body, seq, bind_assoc, pure_bind]

theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub ..⟩
theorem ops1_sub : (ops1 : List (HloOp τ sig (Elt F))).Forall fun op => op.bufs ⊆ tcRefs τ sig :=
  ⟨binary_bufs_sub .., unary_bufs_sub .., binary_bufs_sub .., ternary_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub ..⟩
theorem ops2_sub : (ops2 : List (HloOp τ sig (Elt F))).Forall fun op => op.bufs ⊆ tcRefs τ sig :=
  ⟨binary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., binary_bufs_sub ..,
    unary_bufs_sub .., unary_bufs_sub .., binary_bufs_sub ..⟩

theorem ops_sub : (ops : List (HloOp τ sig (Elt F))).Forall fun op => op.bufs ⊆ tcRefs τ sig := by
  rw [List.forall_iff_forall_mem]
  intro op h
  rcases List.mem_append.mp h with h | h
  · exact (List.forall_iff_forall_mem.mp ops0_sub) op h
  · rcases List.mem_append.mp h with h | h
    · exact (List.forall_iff_forall_mem.mp ops1_sub) op h
    · exact (List.forall_iff_forall_mem.mp ops2_sub) op h

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

/-- Every operation determines its results. -/
theorem ops_fresh : ∀ op ∈ (ops : List (HloOp τ sig (Elt F))), op.fresh = ∅ := by
  intro op h
  rcases List.mem_append.mp h with h | h
  · exact ops0_fresh op h
  · rcases List.mem_append.mp h with h | h
    · exact ops1_fresh op h
    · exact ops2_fresh op h

/-- At the compiled mesh, from any memory with zero counters: every weakly fair execution of @main terminates, and
    every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«111989_j69879117906023_2_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.RefHead.lean ====
/-
  The projection head of the reference, read as a formula.

  The third stretch of the reference program takes the second layer's pre-activation Y (50000 × 64), applies the
  activation  y ↦ y where y ≥ 0, else a · y  with the one learnt slope a, then a linear map with bias, the exponential
  unit  h ↦ h where h > 0, else 1.0 · (exp(h guarded to 0 where h > 0) − 1),  and a second linear map with bias.
  Each of the four pieces is first named as a function of whole arrays, the stretch's result is their composition, and
  each piece is then read entry by entry: a product entry (i, j) is the sum over k of X(i, k) · W(k, j), a bias row
  is read at its column, a scalar is read everywhere.
-/
import proofs.«111989_j69879117906023_2_alg».proof.Proof.RefOps
import proofs.«111989_j69879117906023_2_alg».proof.Proof.GcnSpec
import proofs.«111989_j69879117906023_2_alg».proof.Proof.LibPlainDot
import proofs.«111989_j69879117906023_2_alg».proof.Proof.LibRowIndexed
import Idealize.ShloMosaic.Lib.KernelVsHost
import Idealize.ShloMosaic.Lib.Pipeline.Value
import Idealize.ShloMosaic.Lib.ValueIdx
import Idealize.ShloMosaic.Lib.StableHlo.Run

noncomputable section

namespace Cert.ReferenceIdeal.RefHead

open Cert.ReferenceIdeal Cert.ReferenceIdeal.Gen Cert.ReferenceIdeal.RefOps Idealize.ShloMosaic Idealize.ShloMosaic.TcCoe
  Idealize.SL.Sem Idealize.ShloMosaic.StableHlo Idealize.ShloMosaic.ValueIdx

/-! ## The pieces on whole arrays -/

/-- The activation between the layers: y where y ≥ z, else a · y (z is the zero array). -/
def actV (a : FVec Ideal S_ .f32) (y z : FVec Ideal S50000x64 .f32) : FVec Ideal S50000x64 .f32 :=
  select (cmpf .oge y z) y (mulf (broadcastInDim S50000x64 ![] bcast_S_S50000x64 a) y)

/-- A linear map with its bias row: X · W + b. -/
def linV (X : FVec Ideal S50000x64 .f32) (W : FVec Ideal S64x64 .f32) (b : FVec Ideal S64 .f32) : FVec Ideal S50000x64 .f32 :=
  addf (Host.dotGeneral (F := Ideal) dot_S50000x64_S64x64_S50000x64_1_0_0_1_n_n none X W)
    (broadcastInDim S50000x64 ![0, 1] bcast_S1x64_S50000x64_0_1 (broadcastInDim S1x64 ![1] bcast_S64_S1x64_1 b))

/-- The head's exponential unit: h where h > 0, else 1.0 · (exp(h', with h' = 0 where h > 0 and h elsewhere) − 1). -/
def eluV (h : FVec Ideal S50000x64 .f32) : FVec Ideal S50000x64 .f32 :=
  select (cmpf .ogt h (broadcastInDim S50000x64 ![] bcast_S_S50000x64 (constant (F := Ideal) S_ .f32 0x00000000#32))) h
    (mulf (broadcastInDim S50000x64 ![] bcast_S_S50000x64 (constant (F := Ideal) S_ .f32 0x3F800000#32))
      (Host.expm1 (select (cmpf .ogt h (broadcastInDim S50000x64 ![] bcast_S_S50000x64 (constant (F := Ideal) S_ .f32 0x00000000#32)))
        (broadcastInDim S50000x64 ![] bcast_S_S50000x64 (constant (F := Ideal) S_ .f32 0x00000000#32)) h)))

/-! ## The pieces read at an entry -/

theorem actV_apply (a : FVec Ideal S_ .f32) (y z : FVec Ideal S50000x64 .f32) (i : Fin 50000) (k : Fin 64) :
    actV a y z (ix2 i k)
      = Scalar.select (Ideal.cmp .oge (y (ix2 i k)) (z (ix2 i k))) (y (ix2 i k)) (a ix0 * y (ix2 i k)) := by
  unfold actV
  rw [select_apply, cmpf_apply, mulf_apply, RowIndexed.bcast_scalar_apply]
  rfl

/-- A bias vector laid as one row and repeated down the rows reads, at (i, t), its entry t. -/
theorem biasRow_apply (b : FVec Ideal S64 .f32) (i : Fin 50000) (t : Fin 64) :
    broadcastInDim S50000x64 ![0, 1] bcast_S1x64_S50000x64_0_1 (broadcastInDim S1x64 ![1] bcast_S64_S1x64_1 b) (ix2 i t)
      = b (ix1 t) := by
  rw [broadcastInDim_oneRow_apply]
  exact broadcastInDim_apply ![1] bcast_S64_S1x64_1 b (ix2 (0 : Fin 1) t) (ix1 t) (fun a => by
    match a with
    | ⟨0, _⟩ => rfl)

theorem linV_apply (X : FVec Ideal S50000x64 .f32) (W : FVec Ideal S64x64 .f32) (b : FVec Ideal S64 .f32)
    (i : Fin 50000) (t : Fin 64) :
    linV X W b (ix2 i t) = (∑ k : Fin 64, X (ix2 i k) * W (ix2 k t)) + b (ix1 t) := by
  unfold linV
  rw [addf_apply, biasRow_apply]
  have hd : dot_S50000x64_S64x64_S50000x64_1_0_0_1_n_n = DotDims.plain 50000 64 64 := rfl
  rw [hd, PlainDot.apply]

theorem eluV_apply (h : FVec Ideal S50000x64 .f32) (i : Fin 50000) (t : Fin 64) :
    eluV h (ix2 i t) = Cert.Gcn.eluR (h (ix2 i t)) := by
  unfold eluV Cert.Gcn.eluR
  rw [select_apply, cmpf_apply, mulf_apply, RowIndexed.bcast_scalar_apply, RowIndexed.bcast_scalar_apply]
  show Scalar.select _ _ (_ * FloatOps.hostUnary .expm1 (select _ _ h (ix2 i t))) = _
  rw [select_apply, cmpf_apply, Ideal.hostUnary_expm1_def]
  rfl

/-! ## The stretch's result -/

variable (V : Valuation τ sig (Elt Ideal))

attribute [local irreducible] Host.expm1 broadcastInDim in
/-- What the third stretch leaves in its result buffer: the four pieces composed. -/
theorem v108_eq :
    after ops2 V (main_v108 : DevRef τ sig)
      = linV (eluV (linV (actV (V (main_arg6 : DevRef τ sig)) (V (main_v94 : DevRef τ sig)) (V (main_v95 : DevRef τ sig)))
          (V (main_arg7 : DevRef τ sig)) (V (main_arg8 : DevRef τ sig)))) (V (main_arg9 : DevRef τ sig)) (V (main_arg10 : DevRef τ sig)) := by
  simp only [after_cons, after_nil]
  rfl

/-- The head read as a formula: entry (i, j) of the third stretch's result, when the buffer the stretch compares the
    pre-activation against holds the zero word everywhere. -/
theorem value (hz : ∀ q, V (main_v95 : DevRef τ sig) q = Cert.Gcn.zeroE) (i : Fin 50000) (j : Fin 64) :
    after ops2 V (main_v108 : DevRef τ sig) (ix2 i j)
      = Cert.Gcn.head Cert.Gcn.eluR
          (fun i k => Cert.Gcn.prelu (V (main_arg6 : DevRef τ sig) ix0) (V (main_v94 : DevRef τ sig) (ix2 i k)))
          (V (main_arg7 : DevRef τ sig)) (V (main_arg8 : DevRef τ sig)) (V (main_arg9 : DevRef τ sig)) (V (main_arg10 : DevRef τ sig)) i j := by
  rw [v108_eq]
  simp only [linV_apply, eluV_apply, actV_apply, hz]
  rfl

/-! ## The arguments are left as they were -/

theorem arg0 : after ops2 V (main_arg0 : DevRef τ sig) = V (main_arg0 : DevRef τ sig) := by simp only [after_cons, after_nil]; rfl
theorem arg1 : after ops2 V (main_arg1 : DevRef τ sig) = V (main_arg1 : DevRef τ sig) := by simp only [after_cons, after_nil]; rfl
theorem arg2 : after ops2 V (main_arg2 : DevRef τ sig) = V (main_arg2 : DevRef τ sig) := by simp only [after_cons, after_nil]; rfl
theorem arg3 : after ops2 V (main_arg3 : DevRef τ sig) = V (main_arg3 : DevRef τ sig) := by simp only [after_cons, after_nil]; rfl
theorem arg4 : after ops2 V (main_arg4 : DevRef τ sig) = V (main_arg4 : DevRef τ sig) := by simp only [after_cons, after_nil]; rfl
theorem arg5 : after ops2 V (main_arg5 : DevRef τ sig) = V (main_arg5 : DevRef τ sig) := by simp only [after_cons, after_nil]; rfl
theorem arg6 : after ops2 V (main_arg6 : DevRef τ sig) = V (main_arg6 : DevRef τ sig) := by simp only [after_cons, after_nil]; rfl
theorem arg7 : after ops2 V (main_arg7 : DevRef τ sig) = V (main_arg7 : DevRef τ sig) := by simp only [after_cons, after_nil]; rfl
theorem arg8 : after ops2 V (main_arg8 : DevRef τ sig) = V (main_arg8 : DevRef τ sig) := by simp only [after_cons, after_nil]; rfl
theorem arg9 : after ops2 V (main_arg9 : DevRef τ sig) = V (main_arg9 : DevRef τ sig) := by simp only [after_cons, after_nil]; rfl
theorem arg10 : after ops2 V (main_arg10 : DevRef τ sig) = V (main_arg10 : DevRef τ sig) := by simp only [after_cons, after_nil]; rfl

end Cert.ReferenceIdeal.RefHead

end
-- ==== Proof.LibFoldAppend.lean ====
/-
  A fold of host operations over a concatenation of two lists is the fold over the first list followed by the fold
  over the second: the contents after a line are the contents after its stretches, composed.
-/
import Idealize.ShloMosaic.Lib.StableHlo.Run

namespace LibFoldAppend

open Idealize.ShloMosaic Idealize.ShloMosaic.StableHlo

variable {nD : Nat} {τ : Topo} {sig : RefSig} {Val : EltTy → Type}

/-- Folding over `l₁ ++ l₂` from `V` is folding over `l₂` from the fold over `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end LibFoldAppend
-- ==== Proof.RefReads.lean ====
/-
  The pieces of one graph-convolution layer of the reference program, each as a function of its operands and each
  read at an index: the two rows of the edge array as vectors, the index words with the self-loop words 0 … 49999
  appended, the index words wrapped by the table height, the degree (ones summed at the destinations), its inverse
  square root guarded at zero, and the edge weights (the product of the two ends' inverse square roots).
-/
import proofs.«111989_j69879117906023_2_alg».proof.Proof.Gen.ReferenceIdeal
import proofs.«111989_j69879117906023_2_alg».proof.Proof.GcnSpec
import proofs.«111989_j69879117906023_2_alg».proof.Proof.LibRowIndexed
import Idealize.ShloMosaic.Lib.Pipeline.Value
import Idealize.ShloMosaic.Lib.ValueLayout

noncomputable section

namespace Cert.ReferenceIdeal.RefReads

open Cert.ReferenceIdeal Cert.ReferenceIdeal.Gen Idealize.ShloMosaic Idealize.ShloMosaic.ValueIdx Idealize.ShloMosaic.RowIndexed Cert.Gcn

/-! ## The edge words -/

/-- Row `r` of the edge array, as a vector of 800000 words. -/
def wordsT (r : Nat) (hs : S2x800000.Slices ![r, 0] S1x800000) (ei : IVec S2x800000 32) : IVec S800000 32 :=
  shapeCast S800000 (extractStridedSlice S1x800000 ![r, 0] ei hs) shapeCasts_S1x800000_S800000

/-- Entry `e` of row `r` is the edge array's entry `(r, e)`. -/
theorem wordsT_apply (r : Fin 2) (hs : S2x800000.Slices ![r.val, 0] S1x800000) (ei : IVec S2x800000 32) (e : Fin 800000) :
    wordsT r.val hs ei (ix1 e) = ei (ix2 r e) := by
  unfold wordsT
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact extractStridedSlice_apply _ ei hs (ix2 (0 : Fin 1) e) (ix2 r e) (fun a => match a with
      | ⟨0, _⟩ => by show r.val = r.val + 0; omega
      | ⟨1, _⟩ => by show e.val = 0 + e.val; omega)

/-- The index words followed by the self-loop words 0 … 49999. -/
def loopsT (a : IVec S800000 32) : IVec S850000 32 :=
  concatenate S850000 0 [⟨S800000, a⟩, ⟨S50000, iotaInDim S50000 32 0⟩] concatenates_S800000_S50000_S850000_d0

/-- Word `j` of the lengthened vector: the edge's word below 800000, the number `j - 800000` from there on. -/
theorem loopsT_apply (a : IVec S800000 32) (j : Fin 850000) : loopsT a (ix1 j) = withLoops (fun e => a (ix1 e)) j := by
  unfold loopsT withLoops
  by_cases h : j.val < 800000
  · rw [dif_pos h]
    exact concatenate_pair_apply_left (0 : Fin 1) a _ concatenates_S800000_S50000_S850000_d0 (ix1 j) rfl (ix1 ⟨j.val, h⟩)
      (fun b => match b with | ⟨0, _⟩ => rfl)
  · rw [dif_neg h]
    have hj : j.val - 800000 < 50000 := by have := j.isLt; omega
    refine (concatenate_pair_apply_right (t := S850000) (s₁ := S800000) (s₂ := S50000) (0 : Fin 1) a (iotaInDim S50000 32 0)
      concatenates_S800000_S50000_S850000_d0 (ix1 j) rfl rfl (ix1 (⟨j.val - 800000, hj⟩ : Fin 50000)) ?_ ?_).trans ?_
    · intro b hb
      exact absurd (Subsingleton.elim _ _) hb
    · show (j.val - 800000) + 800000 = j.val
      omega
    · rfl

/-- Negative index words wrapped by the table height 50000. -/
def wrapT (w : IVec S850000 32) : IVec S850000 32 :=
  select (cmpi .slt w (broadcastInDim S850000 ![] bcast_S_S850000 (constantI S_ 32 0#32)))
    (addi w (broadcastInDim S850000 ![] bcast_S_S850000 (constantI S_ 32 50000#32))) w

theorem wrapT_apply (w : IVec S850000 32) (j : S850000.Idx) : wrapT w j = wrapW (w j) := rfl

/-! ## Degree, inverse square root, edge weights -/

/-- The degree: a one per index word, summed at the node the word names, into zeros. -/
def degT (w6 : IVec S850000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 w6)
    (broadcastInDim S850000 ![] bcast_S_S850000 (constant (F := Ideal) S_ .f32 0x3F800000#32))

theorem degT_apply (w6 : IVec S850000 32) (d : Fin 800000 → BitVec 32) (h6 : ∀ j, w6 (ix1 j) = withLoops d j) (i : Fin 50000) :
    degT w6 (ix1 i) = degR d i := by
  unfold degT degR
  rw [scatterAdd_ideal]
  have e : scatter_S50000_S850000x1_S850000_n_0_0_1 = vecScatter 50000 850000 scatter_S50000_S850000x1_S850000_n_0_0_1_wf := rfl
  rw [e, vecScatter_add_apply]
  have hz : broadcastInDim S50000 ![] bcast_S_S50000 (constant (F := Ideal) S_ .f32 0x00000000#32) (ix1 i) = zeroE := rfl
  have ho : ∀ e : Fin 850000,
      broadcastInDim S850000 ![] bcast_S_S850000 (constant (F := Ideal) S_ .f32 0x3F800000#32) (ix1 e) = oneE := fun _ => rfl
  have hf : (Finset.univ.filter fun e : Fin 850000 =>
        ((broadcastInDim S850000x1 ![0] bcast_S850000_S850000x1_0 w6) (ix2 e 0)).toInt = (i.val : Int))
      = Finset.univ.filter fun j : Fin 850000 => (withLoops d j).toInt = (i.val : Int) :=
    Finset.filter_congr fun e _ => by rw [col_apply, h6]
  rw [hz, hf]
  exact congrArg _ (Finset.sum_congr rfl fun e _ => ho e)

/-- The inverse square root of the degree where the degree is positive, the word 0.0 elsewhere. -/
def dinvT (deg : FVec Ideal S50000 .f32) : FVec Ideal S50000 .f32 :=
  select (cmpf .ogt deg (broadcastInDim S50000 ![] bcast_S_S50000 (constant (F := Ideal) S_ .f32 0x00000000#32)))
    (Host.rsqrt deg) (broadcastInDim S50000 ![] bcast_S_S50000 (constant (F := Ideal) S_ .f32 0x00000000#32))

theorem dinvT_apply (deg : FVec Ideal S50000 .f32) (d : Fin 800000 → BitVec 32) (hd : ∀ i, deg (ix1 i) = degR d i) (i : Fin 50000) :
    dinvT deg (ix1 i) = dinvR d i := by
  unfold dinvR
  rw [← hd i]
  rfl

/-- The weight of every index position: the inverse square roots at the two ends' rows, multiplied. -/
def normT (w5 w6 : IVec S850000 32) (dinv : FVec Ideal S50000 .f32) : FVec Ideal S850000 .f32 :=
  mulf
    (Host.gather gather_S50000_S850000x1_S850000_n_0_n_n_0_1_1 dinv (broadcastInDim S850000x1 ![0] bcast_S850000_S850000x1_0 (wrapT w5)))
    (Host.gather gather_S50000_S850000x1_S850000_n_0_n_n_0_1_1 dinv (broadcastInDim S850000x1 ![0] bcast_S850000_S850000x1_0 (wrapT w6)))

theorem normT_apply (w5 w6 : IVec S850000 32) (dinv : FVec Ideal S50000 .f32) (s d : Fin 800000 → BitVec 32)
    (h5 : ∀ j, w5 (ix1 j) = withLoops s j) (h6 : ∀ j, w6 (ix1 j) = withLoops d j) (hv : ∀ i, dinv (ix1 i) = dinvR d i)
    (j : Fin 850000) : normT w5 w6 dinv (ix1 j) = normR s d j := by
  unfold normT normR
  rw [mulf_apply]
  show Host.gather (vecGather 50000 850000 gather_S50000_S850000x1_S850000_n_0_n_n_0_1_1_wf) dinv _ (ix1 j)
      * Host.gather (vecGather 50000 850000 gather_S50000_S850000x1_S850000_n_0_n_n_0_1_1_wf) dinv _ (ix1 j) = _
  rw [vecGather_apply (by decide), vecGather_apply (by decide), col_apply, col_apply, wrapT_apply, wrapT_apply, h5, h6, hv, hv]
  unfold node
  rfl

/-- The inverse square roots at the rows the wrapped index words address. -/
def endT (dinv : FVec Ideal S50000 .f32) (w : IVec S850000 32) : FVec Ideal S850000 .f32 :=
  Host.gather gather_S50000_S850000x1_S850000_n_0_n_n_0_1_1 dinv (broadcastInDim S850000x1 ![0] bcast_S850000_S850000x1_0 (wrapT w))

/-- The weights are the product of the two ends' vectors. -/
theorem normT_eq (w5 w6 : IVec S850000 32) (dinv : FVec Ideal S50000 .f32) :
    normT w5 w6 dinv = mulf (endT dinv w5) (endT dinv w6) := rfl

end Cert.ReferenceIdeal.RefReads

end
-- ==== Proof.RefLayer0.lean ====
/-
  The reference's first graph-convolution layer read as a formula. Its sixty-two host operations are cut into seven
  stretches: the edge words and the lengthened index words; the degree; its guarded inverse square root; the two
  ends' values and the edge weights; the product x·W1 gathered along the index words; its weighted sum at the
  destinations plus the bias. Each stretch leaves in a named buffer a function of the buffers it reads, and read at an
  index that function is the corresponding formula of the specification (arrangement R).
-/
import proofs.«111989_j69879117906023_2_alg».proof.Proof.RefOps
import proofs.«111989_j69879117906023_2_alg».proof.Proof.GcnSpec
import proofs.«111989_j69879117906023_2_alg».proof.Proof.LibFoldAppend
import proofs.«111989_j69879117906023_2_alg».proof.Proof.LibPlainDot
import proofs.«111989_j69879117906023_2_alg».proof.Proof.LibRowIndexed
import proofs.«111989_j69879117906023_2_alg».proof.Proof.RefReads
import Idealize.ShloMosaic.Lib.Pipeline.Value
import Idealize.ShloMosaic.Lib.ValueLayout

noncomputable section

namespace Cert.ReferenceIdeal.RefLayer0

open Cert.ReferenceIdeal Cert.ReferenceIdeal.Gen Cert.ReferenceIdeal.RefOps Cert.ReferenceIdeal.RefReads Idealize.ShloMosaic Idealize.ShloMosaic.TcCoe Idealize.SL.Sem Idealize.ShloMosaic.StableHlo Idealize.ShloMosaic.ValueIdx Idealize.ShloMosaic.RowIndexed Cert.Gcn LibFoldAppend

/-- The layer before its activation: the product rows gathered along the index words, each multiplied by its weight,
    summed at the destinations into zeros, plus the bias row. -/
def preT (x : FVec Ideal S50000x128 .f32) (W : FVec Ideal S128x128 .f32) (w5 w6 : IVec S850000 32)
    (nrm : FVec Ideal S850000 .f32) (b : FVec Ideal S128 .f32) : FVec Ideal S50000x128 .f32 :=
  addf
    (Host.scatterAdd (F := Ideal) scatter_S50000x128_S850000x1_S850000x128_1_0_0_1
      (broadcastInDim S50000x128 ![] bcast_S_S50000x128 (constant (F := Ideal) S_ .f32 0x00000000#32))
      (broadcastInDim S850000x1 ![0] bcast_S850000_S850000x1_0 w6)
      (mulf
        (Host.gather gather_S50000x128_S850000x1_S850000x128_1_0_n_n_0_1_1128
          (Host.dotGeneral (F := Ideal) dot_S50000x128_S128x128_S50000x128_1_0_0_1_n_n none x W)
          (broadcastInDim S850000x1 ![0] bcast_S850000_S850000x1_0 (wrapT w5)))
        (broadcastInDim S850000x128 ![0, 1] bcast_S850000x1_S850000x128_0_1
          (broadcastInDim S850000x1 ![0] bcast_S850000_S850000x1_0 nrm))))
    (broadcastInDim S50000x128 ![0, 1] bcast_S1x128_S50000x128_0_1 (broadcastInDim S1x128 ![1] bcast_S128_S1x128_1 b))

/-- Read at node `i`, channel `c`: the sum over the index positions landing on `i` of the product row of the
    position's source node times the position's weight, plus the bias. -/
theorem preT_apply (x : FVec Ideal S50000x128 .f32) (W : FVec Ideal S128x128 .f32) (w5 w6 : IVec S850000 32)
    (nrm : FVec Ideal S850000 .f32) (b : FVec Ideal S128 .f32) (s d : Fin 800000 → BitVec 32)
    (X : Fin 50000 → Fin 128 → EReal) (hx : ∀ i k, x (ix2 i k) = X i k)
    (h5 : ∀ j, w5 (ix1 j) = withLoops s j) (h6 : ∀ j, w6 (ix1 j) = withLoops d j)
    (hn : ∀ j, nrm (ix1 j) = normR s d j) (i : Fin 50000) (c : Fin 128) :
    preT x W w5 w6 nrm b (ix2 i c) = preR s d (mm X W) b i c := by
  unfold preT preR
  rw [addf_apply, scatterAdd_ideal]
  have e : scatter_S50000x128_S850000x1_S850000x128_1_0_0_1
      = rowScatter 50000 850000 128 scatter_S50000x128_S850000x1_S850000x128_1_0_0_1_wf := rfl
  rw [e, rowScatter_add_apply]
  have hz : broadcastInDim S50000x128 ![] bcast_S_S50000x128 (constant (F := Ideal) S_ .f32 0x00000000#32) (ix2 i c) = zeroE := rfl
  have hb : broadcastInDim S50000x128 ![0, 1] bcast_S1x128_S50000x128_0_1 (broadcastInDim S1x128 ![1] bcast_S128_S1x128_1 b) (ix2 i c)
      = b (ix1 c) :=
    (broadcastInDim_apply _ bcast_S1x128_S50000x128_0_1 _ (ix2 i c) (ix2 (0 : Fin 1) c) (fun a => match a with
      | ⟨0, _⟩ => rfl
      | ⟨1, _⟩ => rfl)).trans
    (broadcastInDim_apply _ bcast_S128_S1x128_1 b (ix2 (0 : Fin 1) c) (ix1 c) (fun a => match a with
      | ⟨0, _⟩ => rfl))
  have hf : (Finset.univ.filter fun e : Fin 850000 =>
        ((broadcastInDim S850000x1 ![0] bcast_S850000_S850000x1_0 w6) (ix2 e 0)).toInt = (i.val : Int))
      = Finset.univ.filter fun j : Fin 850000 => (withLoops d j).toInt = (i.val : Int) :=
    Finset.filter_congr fun e _ => by rw [col_apply, h6]
  rw [hz, hb, hf]
  refine congrArg (· + b (ix1 c)) (congrArg (zeroE + ·) (Finset.sum_congr rfl fun e _ => ?_))
  rw [mulf_apply]
  have eg : gather_S50000x128_S850000x1_S850000x128_1_0_n_n_0_1_1128
      = rowGather 50000 850000 128 gather_S50000x128_S850000x1_S850000x128_1_0_n_n_0_1_1128_wf := rfl
  have ed : dot_S50000x128_S128x128_S50000x128_1_0_0_1_n_n = DotDims.plain 50000 128 128 := rfl
  rw [eg, rowGather_apply (by decide), col_apply, wrapT_apply, h5, ed, PlainDot.apply]
  refine congrArg₂ (· * ·) ?_ ?_
  · unfold mm node
    exact Finset.sum_congr rfl fun k _ => by rw [hx]
  · exact (broadcastInDim_apply _ bcast_S850000x1_S850000x128_0_1 _ (ix2 e c) (ix2 e (0 : Fin 1)) (fun a => match a with
      | ⟨0, _⟩ => rfl
      | ⟨1, _⟩ => rfl)).trans ((col_apply _ nrm e).trans (hn e))

/-- The product rows gathered along the wrapped index words. -/
def rowsT (x : FVec Ideal S50000x128 .f32) (W : FVec Ideal S128x128 .f32) (w5 : IVec S850000 32) : FVec Ideal S850000x128 .f32 :=
  Host.gather gather_S50000x128_S850000x1_S850000x128_1_0_n_n_0_1_1128
    (Host.dotGeneral (F := Ideal) dot_S50000x128_S128x128_S50000x128_1_0_0_1_n_n none x W)
    (broadcastInDim S850000x1 ![0] bcast_S850000_S850000x1_0 (wrapT w5))

/-- Gathered rows, each multiplied by its weight, summed at the destinations into zeros, plus the bias row. -/
def aggT (rows : FVec Ideal S850000x128 .f32) (nrm : FVec Ideal S850000 .f32) (w6 : IVec S850000 32) (b : FVec Ideal S128 .f32) :
    FVec Ideal S50000x128 .f32 :=
  addf
    (Host.scatterAdd (F := Ideal) scatter_S50000x128_S850000x1_S850000x128_1_0_0_1
      (broadcastInDim S50000x128 ![] bcast_S_S50000x128 (constant (F := Ideal) S_ .f32 0x00000000#32))
      (broadcastInDim S850000x1 ![0] bcast_S850000_S850000x1_0 w6)
      (mulf rows
        (broadcastInDim S850000x128 ![0, 1] bcast_S850000x1_S850000x128_0_1
          (broadcastInDim S850000x1 ![0] bcast_S850000_S850000x1_0 nrm))))
    (broadcastInDim S50000x128 ![0, 1] bcast_S1x128_S50000x128_0_1 (broadcastInDim S1x128 ![1] bcast_S128_S1x128_1 b))

theorem preT_eq (x : FVec Ideal S50000x128 .f32) (W : FVec Ideal S128x128 .f32) (w5 w6 : IVec S850000 32)
    (nrm : FVec Ideal S850000 .f32) (b : FVec Ideal S128 .f32) :
    preT x W w5 w6 nrm b = aggT (rowsT x W w5) nrm w6 b := rfl

/-! ## The stretches of the window -/

/-- The edge words and the lengthened index words (operations 1–7). -/
abbrev l1 : List (HloOp τ sig (Elt Ideal)) := (ops0 (F := Ideal)).take 7

/-! The degree; its guarded inverse square root; the source ends' values; the destination ends' values and the
weights; the product rows gathered along the index words; their weighted sum at the destinations plus the bias. -/
abbrev l2 : List (HloOp τ sig (Elt Ideal)) := ((ops0 (F := Ideal)).drop 7).take 6
abbrev l3 : List (HloOp τ sig (Elt Ideal)) := ((ops0 (F := Ideal)).drop 13).take 8
abbrev l4a : List (HloOp τ sig (Elt Ideal)) := ((ops0 (F := Ideal)).drop 21).take 9
abbrev l4b : List (HloOp τ sig (Elt Ideal)) := ((ops0 (F := Ideal)).drop 30).take 10
abbrev l5a : List (HloOp τ sig (Elt Ideal)) := ((ops0 (F := Ideal)).drop 40).take 10
abbrev l5b : List (HloOp τ sig (Elt Ideal)) := (ops0 (F := Ideal)).drop 50

theorem ops_cut : (ops0 (F := Ideal)) = l1 ++ (l2 ++ (l3 ++ (l4a ++ (l4b ++ (l5a ++ l5b))))) := rfl

variable (V : Valuation τ sig (Elt Ideal))

/-! ### Edge words -/

theorem l1_v1 : after l1 V (main_v1 : DevRef τ sig) = wordsT 0 slices_S2x800000_S1x800000_0_0 (V (main_arg1 : DevRef τ sig)) := by
  show after [_, _, _, _, _, _, _] V _ = _
  after_results
  rfl

theorem l1_v3 : after l1 V (main_v3 : DevRef τ sig) = wordsT 1 slices_S2x800000_S1x800000_1_0 (V (main_arg1 : DevRef τ sig)) := by
  show after [_, _, _, _, _, _, _] V _ = _
  after_results
  rfl

theorem l1_v5 : after l1 V (main_v5 : DevRef τ sig) = loopsT (wordsT 0 slices_S2x800000_S1x800000_0_0 (V (main_arg1 : DevRef τ sig))) := by
  show after [_, _, _, _, _, _, _] V _ = _
  after_results
  rfl

theorem l1_v6 : after l1 V (main_v6 : DevRef τ sig) = loopsT (wordsT 1 slices_S2x800000_S1x800000_1_0 (V (main_arg1 : DevRef τ sig))) := by
  show after [_, _, _, _, _, _, _] V _ = _
  after_results
  rfl

theorem l1_arg0 : after l1 V (main_arg0 : DevRef τ sig) = V (main_arg0 : DevRef τ sig) :=
  after_of_forall_not_mem _ V (by decide)
theorem l1_arg2 : after l1 V (main_arg2 : DevRef τ sig) = V (main_arg2 : DevRef τ sig) :=
  after_of_forall_not_mem _ V (by decide)
theorem l1_arg3 : after l1 V (main_arg3 : DevRef τ sig) = V (main_arg3 : DevRef τ sig) :=
  after_of_forall_not_mem _ V (by decide)

theorem l1_v1_apply (e : Fin 800000) : after l1 V (main_v1 : DevRef τ sig) (ix1 e) = srcW (V (main_arg1 : DevRef τ sig)) e := by
  rw [l1_v1]
  exact wordsT_apply 0 _ _ e

theorem l1_v3_apply (e : Fin 800000) : after l1 V (main_v3 : DevRef τ sig) (ix1 e) = dstW (V (main_arg1 : DevRef τ sig)) e := by
  rw [l1_v3]
  exact wordsT_apply 1 _ _ e

theorem l1_v5_apply (j : Fin 850000) : after l1 V (main_v5 : DevRef τ sig) (ix1 j) = withLoops (srcW (V (main_arg1 : DevRef τ sig))) j := by
  rw [l1_v5, loopsT_apply]
  exact congrArg (fun f => withLoops f j) (funext fun e => wordsT_apply 0 _ _ e)

theorem l1_v6_apply (j : Fin 850000) : after l1 V (main_v6 : DevRef τ sig) (ix1 j) = withLoops (dstW (V (main_arg1 : DevRef τ sig))) j := by
  rw [l1_v6, loopsT_apply]
  exact congrArg (fun f => withLoops f j) (funext fun e => wordsT_apply 1 _ _ e)

/-! ### What the later stretches leave, as functions of what they read -/

theorem l2_v10 : after l2 V (main_v10 : DevRef τ sig) = degT (V (main_v6 : DevRef τ sig)) := by
  show after [_, _, _, _, _, _] V _ = _
  after_results
  rfl

theorem l3_v14 : after l3 V (main_v14 : DevRef τ sig) = dinvT (V (main_v10 : DevRef τ sig)) := by
  show after [_, _, _, _, _, _, _, _] V _ = _
  after_results
  rfl

theorem l4a_v21 : after l4a V (main_v21 : DevRef τ sig) = endT (V (main_v14 : DevRef τ sig)) (V (main_v5 : DevRef τ sig)) := by
  show after [_, _, _, _, _, _, _, _, _] V _ = _
  after_results
  rfl

theorem l4b_v29 : after l4b V (main_v29 : DevRef τ sig) = mulf (V (main_v21 : DevRef τ sig)) (endT (V (main_v14 : DevRef τ sig)) (V (main_v6 : DevRef τ sig))) := by
  show after [_, _, _, _, _, _, _, _, _, _] V _ = _
  after_results
  rfl

theorem l5a_v37 : after l5a V (main_v37 : DevRef τ sig) = rowsT (V (main_arg0 : DevRef τ sig)) (V (main_arg2 : DevRef τ sig)) (V (main_v5 : DevRef τ sig)) := by
  show after [_, _, _, _, _, _, _, _, _, _] V _ = _
  after_results
  rfl

theorem l5b_v46 : after l5b V (main_v46 : DevRef τ sig) = aggT (V (main_v37 : DevRef τ sig)) (V (main_v29 : DevRef τ sig)) (V (main_v6 : DevRef τ sig)) (V (main_arg3 : DevRef τ sig)) := by
  show after [_, _, _, _, _, _, _, _, _, _, _, _] V _ = _
  after_results
  rfl

theorem l5b_v47 : after l5b V (main_v47 : DevRef τ sig)
    = broadcastInDim S50000x128 ![] bcast_S_S50000x128 (constant (F := Ideal) S_ .f32 0x00000000#32) := by
  show after [_, _, _, _, _, _, _, _, _, _, _, _] V _ = _
  after_results
  try rfl

/-! ### Buffers a stretch does not write -/

theorem l2_arg0 : after l2 V (main_arg0 : DevRef τ sig) = V (main_arg0 : DevRef τ sig) :=
  after_of_forall_not_mem _ V (by decide)
theorem l2_arg2 : after l2 V (main_arg2 : DevRef τ sig) = V (main_arg2 : DevRef τ sig) :=
  after_of_forall_not_mem _ V (by decide)
theorem l2_arg3 : after l2 V (main_arg3 : DevRef τ sig) = V (main_arg3 : DevRef τ sig) :=
  after_of_forall_not_mem _ V (by decide)
theorem l2_v5 : after l2 V (main_v5 : DevRef τ sig) = V (main_v5 : DevRef τ sig) :=
  after_of_forall_not_mem _ V (by decide)
theorem l2_v6 : after l2 V (main_v6 : DevRef τ sig) = V (main_v6 : DevRef τ sig) :=
  after_of_forall_not_mem _ V (by decide)
theorem l2_v14 : after l2 V (main_v14 : DevRef τ sig) = V (main_v14 : DevRef τ sig) :=
  after_of_forall_not_mem _ V (by decide)
theorem l2_v29 : after l2 V (main_v29 : DevRef τ sig) = V (main_v29 : DevRef τ sig) :=
  after_of_forall_not_mem _ V (by decide)
theorem l2_v1 : after l2 V (main_v1 : DevRef τ sig) = V (main_v1 : DevRef τ sig) :=
  after_of_forall_not_mem _ V (by decide)
theorem l2_v3 : after l2 V (main_v3 : DevRef τ sig) = V (main_v3 : DevRef τ sig) :=
  after_of_forall_not_mem _ V (by decide)
theorem l3_arg0 : after l3 V (main_arg0 : DevRef τ sig) = V (main_arg0 : DevRef τ sig) :=
  after_of_forall_not_mem _ V (by decide)
theorem l3_arg2 : after l3 V (main_arg2 : DevRef τ sig) = V (main_arg2 : DevRef τ sig) :=
  after_of_forall_not_mem _ V (by decide)
theorem l3_arg3 : after l3 V (main_arg3 : DevRef τ sig) = V (main_arg3 : DevRef τ sig) :=
  after_of_forall_not_mem _ V (by decide)
theorem l3_v5 : after l3 V (main_v5 : DevRef τ sig) = V (main_v5 : DevRef τ sig) :=
  after_of_forall_not_mem _ V (by decide)
theorem l3_v6 : after l3 V (main_v6 : DevRef τ sig) = V (main_v6 : DevRef τ sig) :=
  after_of_forall_not_mem _ V (by decide)
theorem l3_v29 : after l3 V (main_v29 : DevRef τ sig) = V (main_v29 : DevRef τ sig) :=
  after_of_forall_not_mem _ V (by decide)
theorem l3_v1 : after l3 V (main_v1 : DevRef τ sig) = V (main_v1 : DevRef τ sig) :=
  after_of_forall_not_mem _ V (by decide)
theorem l3_v3 : after l3 V (main_v3 : DevRef τ sig) = V (main_v3 : DevRef τ sig) :=
  after_of_forall_not_mem _ V (by decide)
theorem l4a_arg0 : after l4a V (main_arg0 : DevRef τ sig) = V (main_arg0 : DevRef τ sig) :=
  after_of_forall_not_mem _ V (by decide)
theorem l4a_arg2 : after l4a V (main_arg2 : DevRef τ sig) = V (main_arg2 : DevRef τ sig) :=
  after_of_forall_not_mem _ V (by decide)
theorem l4a_arg3 : after l4a V (main_arg3 : DevRef τ sig) = V (main_arg3 : DevRef τ sig) :=
  after_of_forall_not_mem _ V (by decide)
theorem l4a_v5 : after l4a V (main_v5 : DevRef τ sig) = V (main_v5 : DevRef τ sig) :=
  after_of_forall_not_mem _ V (by decide)
theorem l4a_v6 : after l4a V (main_v6 : DevRef τ sig) = V (main_v6 : DevRef τ sig) :=
  after_of_forall_not_mem _ V (by decide)
theorem l4a_v14 : after l4a V (main_v14 : DevRef τ sig) = V (main_v14 : DevRef τ sig) :=
  after_of_forall_not_mem _ V (by decide)
theorem l4a_v29 : after l4a V (main_v29 : DevRef τ sig) = V (main_v29 : DevRef τ sig) :=
  after_of_forall_not_mem _ V (by decide)
theorem l4a_v1 : after l4a V (main_v1 : DevRef τ sig) = V (main_v1 : DevRef τ sig) :=
  after_of_forall_not_mem _ V (by decide)
theorem l4a_v3 : after l4a V (main_v3 : DevRef τ sig) = V (main_v3 : DevRef τ sig) :=
  after_of_forall_not_mem _ V (by decide)
theorem l4b_arg0 : after l4b V (main_arg0 : DevRef τ sig) = V (main_arg0 : DevRef τ sig) :=
  after_of_forall_not_mem _ V (by decide)
theorem l4b_arg2 : after l4b V (main_arg2 : DevRef τ sig) = V (main_arg2 : DevRef τ sig) :=
  after_of_forall_not_mem _ V (by decide)
theorem l4b_arg3 : after l4b V (main_arg3 : DevRef τ sig) = V (main_arg3 : DevRef τ sig) :=
  after_of_forall_not_mem _ V (by decide)
theorem l4b_v5 : after l4b V (main_v5 : DevRef τ sig) = V (main_v5 : DevRef τ sig) :=
  after_of_forall_not_mem _ V (by decide)
theorem l4b_v6 : after l4b V (main_v6 : DevRef τ sig) = V (main_v6 : DevRef τ sig) :=
  after_of_forall_not_mem _ V (by decide)
theorem l4b_v14 : after l4b V (main_v14 : DevRef τ sig) = V (main_v14 : DevRef τ sig) :=
  after_of_forall_not_mem _ V (by decide)
theorem l4b_v1 : after l4b V (main_v1 : DevRef τ sig) = V (main_v1 : DevRef τ sig) :=
  after_of_forall_not_mem _ V (by decide)
theorem l4b_v3 : after l4b V (main_v3 : DevRef τ sig) = V (main_v3 : DevRef τ sig) :=
  after_of_forall_not_mem _ V (by decide)
theorem l5a_arg0 : after l5a V (main_arg0 : DevRef τ sig) = V (main_arg0 : DevRef τ sig) :=
  after_of_forall_not_mem _ V (by decide)
theorem l5a_arg2 : after l5a V (main_arg2 : DevRef τ sig) = V (main_arg2 : DevRef τ sig) :=
  after_of_forall_not_mem _ V (by decide)
theorem l5a_arg3 : after l5a V (main_arg3 : DevRef τ sig) = V (main_arg3 : DevRef τ sig) :=
  after_of_forall_not_mem _ V (by decide)
theorem l5a_v5 : after l5a V (main_v5 : DevRef τ sig) = V (main_v5 : DevRef τ sig) :=
  after_of_forall_not_mem _ V (by decide)
theorem l5a_v6 : after l5a V (main_v6 : DevRef τ sig) = V (main_v6 : DevRef τ sig) :=
  after_of_forall_not_mem _ V (by decide)
theorem l5a_v14 : after l5a V (main_v14 : DevRef τ sig) = V (main_v14 : DevRef τ sig) :=
  after_of_forall_not_mem _ V (by decide)
theorem l5a_v29 : after l5a V (main_v29 : DevRef τ sig) = V (main_v29 : DevRef τ sig) :=
  after_of_forall_not_mem _ V (by decide)
theorem l5a_v1 : after l5a V (main_v1 : DevRef τ sig) = V (main_v1 : DevRef τ sig) :=
  after_of_forall_not_mem _ V (by decide)
theorem l5a_v3 : after l5a V (main_v3 : DevRef τ sig) = V (main_v3 : DevRef τ sig) :=
  after_of_forall_not_mem _ V (by decide)
theorem l5b_arg0 : after l5b V (main_arg0 : DevRef τ sig) = V (main_arg0 : DevRef τ sig) :=
  after_of_forall_not_mem _ V (by decide)
theorem l5b_arg2 : after l5b V (main_arg2 : DevRef τ sig) = V (main_arg2 : DevRef τ sig) :=
  after_of_forall_not_mem _ V (by decide)
theorem l5b_arg3 : after l5b V (main_arg3 : DevRef τ sig) = V (main_arg3 : DevRef τ sig) :=
  after_of_forall_not_mem _ V (by decide)
theorem l5b_v5 : after l5b V (main_v5 : DevRef τ sig) = V (main_v5 : DevRef τ sig) :=
  after_of_forall_not_mem _ V (by decide)
theorem l5b_v6 : after l5b V (main_v6 : DevRef τ sig) = V (main_v6 : DevRef τ sig) :=
  after_of_forall_not_mem _ V (by decide)
theorem l5b_v14 : after l5b V (main_v14 : DevRef τ sig) = V (main_v14 : DevRef τ sig) :=
  after_of_forall_not_mem _ V (by decide)
theorem l5b_v29 : after l5b V (main_v29 : DevRef τ sig) = V (main_v29 : DevRef τ sig) :=
  after_of_forall_not_mem _ V (by decide)
theorem l5b_v1 : after l5b V (main_v1 : DevRef τ sig) = V (main_v1 : DevRef τ sig) :=
  after_of_forall_not_mem _ V (by decide)
theorem l5b_v3 : after l5b V (main_v3 : DevRef τ sig) = V (main_v3 : DevRef τ sig) :=
  after_of_forall_not_mem _ V (by decide)

/-! ## The layer from the degree on

From contents `V` in which the lengthened index words are `withLoops s` and `withLoops d` and the left factor's rows are
`X`, the six stretches leave the layer before its activation in arrangement R. -/

theorem core (s d : Fin 800000 → BitVec 32) (X : Fin 50000 → Fin 128 → EReal)
    (h5 : ∀ j, V (main_v5 : DevRef τ sig) (ix1 j) = withLoops s j) (h6 : ∀ j, V (main_v6 : DevRef τ sig) (ix1 j) = withLoops d j)
    (hx : ∀ i k, V (main_arg0 : DevRef τ sig) (ix2 i k) = X i k) (i : Fin 50000) (c : Fin 128) :
    after l5b (after l5a (after l4b (after l4a (after l3 (after l2 V))))) (main_v46 : DevRef τ sig) (ix2 i c)
      = preR s d (mm X (V (main_arg2 : DevRef τ sig))) (V (main_arg3 : DevRef τ sig)) i c := by
  have h5a : ∀ j, after l3 (after l2 V) (main_v5 : DevRef τ sig) (ix1 j) = withLoops s j := fun j => by
    rw [l3_v5, l2_v5]
    exact h5 j
  have h6a : ∀ j, after l3 (after l2 V) (main_v6 : DevRef τ sig) (ix1 j) = withLoops d j := fun j => by
    rw [l3_v6, l2_v6]
    exact h6 j
  have h14 : ∀ i, after l3 (after l2 V) (main_v14 : DevRef τ sig) (ix1 i) = dinvR d i := fun i => by
    rw [l3_v14, l2_v10]
    exact dinvT_apply _ _ (fun i' => degT_apply _ _ h6 i') i
  have h29 : ∀ j, after l4b (after l4a (after l3 (after l2 V))) (main_v29 : DevRef τ sig) (ix1 j) = normR s d j := fun j => by
    rw [l4b_v29, l4a_v21, l4a_v14, l4a_v6, ← normT_eq]
    exact normT_apply _ _ _ s d h5a h6a h14 j
  rw [l5b_v46, l5a_v37, l5a_v29, l5a_v6, l5a_arg3, ← preT_eq]
  refine (preT_apply _ _ _ _ _ _ s d X (fun i k => ?_) (fun j => ?_) (fun j => ?_) h29 i c).trans ?_
  · rw [l4b_arg0, l4a_arg0, l3_arg0, l2_arg0]
    exact hx i k
  · rw [l4b_v5, l4a_v5]
    exact h5a j
  · rw [l4b_v6, l4a_v6]
    exact h6a j
  · rw [l4b_arg2, l4a_arg2, l3_arg2, l2_arg2, l4b_arg3, l4a_arg3, l3_arg3, l2_arg3]

/-! ## The first window -/

/-- The first layer before its activation, at node `i` and channel `c`: arrangement R over the edge array's words,
    the product rows x·W1 and the bias b1. -/
theorem v46_apply (i : Fin 50000) (c : Fin 128) :
    after (ops0 (F := Ideal)) V (main_v46 : DevRef τ sig) (ix2 i c)
      = preR (srcW (V (main_arg1 : DevRef τ sig))) (dstW (V (main_arg1 : DevRef τ sig)))
          (mm (fun i k => V (main_arg0 : DevRef τ sig) (ix2 i k)) (V (main_arg2 : DevRef τ sig))) (V (main_arg3 : DevRef τ sig)) i c := by
  rw [ops_cut, StableHlo.after_append, StableHlo.after_append, StableHlo.after_append, StableHlo.after_append,
    StableHlo.after_append, StableHlo.after_append]
  refine (core (after l1 V) (srcW (V (main_arg1 : DevRef τ sig))) (dstW (V (main_arg1 : DevRef τ sig))) (fun i k => V (main_arg0 : DevRef τ sig) (ix2 i k))
    (l1_v5_apply V) (l1_v6_apply V) (fun i k => by rw [l1_arg0]) i c).trans ?_
  rw [l1_arg2, l1_arg3]

/-- The source word of edge `e`, as the first window leaves it. -/
theorem v1_apply (e : Fin 800000) : after (ops0 (F := Ideal)) V (main_v1 : DevRef τ sig) (ix1 e) = srcW (V (main_arg1 : DevRef τ sig)) e := by
  rw [ops_cut, StableHlo.after_append, StableHlo.after_append, StableHlo.after_append, StableHlo.after_append,
    StableHlo.after_append, StableHlo.after_append, l5b_v1, l5a_v1, l4b_v1, l4a_v1, l3_v1, l2_v1]
  exact l1_v1_apply V e

/-- The destination word of edge `e`, as the first window leaves it. -/
theorem v3_apply (e : Fin 800000) : after (ops0 (F := Ideal)) V (main_v3 : DevRef τ sig) (ix1 e) = dstW (V (main_arg1 : DevRef τ sig)) e := by
  rw [ops_cut, StableHlo.after_append, StableHlo.after_append, StableHlo.after_append, StableHlo.after_append,
    StableHlo.after_append, StableHlo.after_append, l5b_v3, l5a_v3, l4b_v3, l4a_v3, l3_v3, l2_v3]
  exact l1_v3_apply V e

/-- The zero splat the first window leaves for the activation's comparison. -/
theorem v47_apply (i : Fin 50000) (c : Fin 128) : after (ops0 (F := Ideal)) V (main_v47 : DevRef τ sig) (ix2 i c) = zeroE := by
  rw [ops_cut, StableHlo.after_append, StableHlo.after_append, StableHlo.after_append, StableHlo.after_append,
    StableHlo.after_append, StableHlo.after_append, l5b_v47]
  rfl

/-! The arguments are not written. -/

theorem arg0_eq : after (ops0 (F := Ideal)) V (main_arg0 : DevRef τ sig) = V (main_arg0 : DevRef τ sig) :=
  after_of_forall_not_mem _ V (by decide)
theorem arg1_eq : after (ops0 (F := Ideal)) V (main_arg1 : DevRef τ sig) = V (main_arg1 : DevRef τ sig) :=
  after_of_forall_not_mem _ V (by decide)
theorem arg2_eq : after (ops0 (F := Ideal)) V (main_arg2 : DevRef τ sig) = V (main_arg2 : DevRef τ sig) :=
  after_of_forall_not_mem _ V (by decide)
theorem arg3_eq : after (ops0 (F := Ideal)) V (main_arg3 : DevRef τ sig) = V (main_arg3 : DevRef τ sig) :=
  after_of_forall_not_mem _ V (by decide)
theorem arg4_eq : after (ops0 (F := Ideal)) V (main_arg4 : DevRef τ sig) = V (main_arg4 : DevRef τ sig) :=
  after_of_forall_not_mem _ V (by decide)
theorem arg5_eq : after (ops0 (F := Ideal)) V (main_arg5 : DevRef τ sig) = V (main_arg5 : DevRef τ sig) :=
  after_of_forall_not_mem _ V (by decide)
theorem arg6_eq : after (ops0 (F := Ideal)) V (main_arg6 : DevRef τ sig) = V (main_arg6 : DevRef τ sig) :=
  after_of_forall_not_mem _ V (by decide)
theorem arg7_eq : after (ops0 (F := Ideal)) V (main_arg7 : DevRef τ sig) = V (main_arg7 : DevRef τ sig) :=
  after_of_forall_not_mem _ V (by decide)
theorem arg8_eq : after (ops0 (F := Ideal)) V (main_arg8 : DevRef τ sig) = V (main_arg8 : DevRef τ sig) :=
  after_of_forall_not_mem _ V (by decide)
theorem arg9_eq : after (ops0 (F := Ideal)) V (main_arg9 : DevRef τ sig) = V (main_arg9 : DevRef τ sig) :=
  after_of_forall_not_mem _ V (by decide)
theorem arg10_eq : after (ops0 (F := Ideal)) V (main_arg10 : DevRef τ sig) = V (main_arg10 : DevRef τ sig) :=
  after_of_forall_not_mem _ V (by decide)

end Cert.ReferenceIdeal.RefLayer0

end
-- ==== Proof.RefLayer1.lean ====
/-
  The reference's second graph-convolution layer read as a formula. Its sixty-two host operations are cut into eight
  stretches: the first layer's activation (PReLU against the zero splat); the lengthened index words; the degree; its
  guarded inverse square root; the two ends' values and the edge weights; the product of the activated rows with W2
  gathered along the index words; its weighted sum at the destinations plus the bias. Each stretch leaves in a named
  buffer a function of the buffers it reads, and read at an index that function is the corresponding formula of the
  specification (arrangement R).
-/
import proofs.«111989_j69879117906023_2_alg».proof.Proof.RefOps
import proofs.«111989_j69879117906023_2_alg».proof.Proof.GcnSpec
import proofs.«111989_j69879117906023_2_alg».proof.Proof.LibFoldAppend
import proofs.«111989_j69879117906023_2_alg».proof.Proof.LibPlainDot
import proofs.«111989_j69879117906023_2_alg».proof.Proof.LibRowIndexed
import proofs.«111989_j69879117906023_2_alg».proof.Proof.RefReads
import Idealize.ShloMosaic.Lib.Pipeline.Value
import Idealize.ShloMosaic.Lib.ValueLayout

noncomputable section

namespace Cert.ReferenceIdeal.RefLayer1

open Cert.ReferenceIdeal Cert.ReferenceIdeal.Gen Cert.ReferenceIdeal.RefOps Cert.ReferenceIdeal.RefReads Idealize.ShloMosaic Idealize.ShloMosaic.TcCoe Idealize.SL.Sem Idealize.ShloMosaic.StableHlo Idealize.ShloMosaic.ValueIdx Idealize.ShloMosaic.RowIndexed Cert.Gcn LibFoldAppend

/-- PReLU: the value where it is at least the comparison operand, the slope times the value elsewhere. -/
def preluT (a : FVec Ideal S_ .f32) (y z : FVec Ideal S50000x128 .f32) : FVec Ideal S50000x128 .f32 :=
  select (cmpf .oge y z) y (mulf (broadcastInDim S50000x128 ![] bcast_S_S50000x128 a) y)

/-- Against the zero splat it is the specification's PReLU with slope `a`. -/
theorem preluT_apply (a : FVec Ideal S_ .f32) (y z : FVec Ideal S50000x128 .f32) (hz : ∀ i k, z (ix2 i k) = zeroE)
    (i : Fin 50000) (k : Fin 128) : preluT a y z (ix2 i k) = prelu (a ix0) (y (ix2 i k)) := by
  show Scalar.select (Ideal.cmp .oge (y (ix2 i k)) (z (ix2 i k))) (y (ix2 i k))
      (broadcastInDim S50000x128 ![] bcast_S_S50000x128 a (ix2 i k) * y (ix2 i k)) = _
  rw [bcast_scalar_apply, hz]
  rfl

/-- The layer before its activation: the product rows gathered along the index words, each multiplied by its weight,
    summed at the destinations into zeros, plus the bias row. -/
def preT (x : FVec Ideal S50000x128 .f32) (W : FVec Ideal S128x64 .f32) (w5 w6 : IVec S850000 32)
    (nrm : FVec Ideal S850000 .f32) (b : FVec Ideal S64 .f32) : FVec Ideal S50000x64 .f32 :=
  addf
    (Host.scatterAdd (F := Ideal) scatter_S50000x64_S850000x1_S850000x64_1_0_0_1
      (broadcastInDim S50000x64 ![] bcast_S_S50000x64 (constant (F := Ideal) S_ .f32 0x00000000#32))
      (broadcastInDim S850000x1 ![0] bcast_S850000_S850000x1_0 w6)
      (mulf
        (Host.gather gather_S50000x64_S850000x1_S850000x64_1_0_n_n_0_1_164
          (Host.dotGeneral (F := Ideal) dot_S50000x128_S128x64_S50000x64_1_0_0_1_n_n none x W)
          (broadcastInDim S850000x1 ![0] bcast_S850000_S850000x1_0 (wrapT w5)))
        (broadcastInDim S850000x64 ![0, 1] bcast_S850000x1_S850000x64_0_1
          (broadcastInDim S850000x1 ![0] bcast_S850000_S850000x1_0 nrm))))
    (broadcastInDim S50000x64 ![0, 1] bcast_S1x64_S50000x64_0_1 (broadcastInDim S1x64 ![1] bcast_S64_S1x64_1 b))

/-- Read at node `i`, channel `c`: the sum over the index positions landing on `i` of the product row of the
    position's source node times the position's weight, plus the bias. -/
theorem preT_apply (x : FVec Ideal S50000x128 .f32) (W : FVec Ideal S128x64 .f32) (w5 w6 : IVec S850000 32)
    (nrm : FVec Ideal S850000 .f32) (b : FVec Ideal S64 .f32) (s d : Fin 800000 → BitVec 32)
    (X : Fin 50000 → Fin 128 → EReal) (hx : ∀ i k, x (ix2 i k) = X i k)
    (h5 : ∀ j, w5 (ix1 j) = withLoops s j) (h6 : ∀ j, w6 (ix1 j) = withLoops d j)
    (hn : ∀ j, nrm (ix1 j) = normR s d j) (i : Fin 50000) (c : Fin 64) :
    preT x W w5 w6 nrm b (ix2 i c) = preR s d (mm X W) b i c := by
  unfold preT preR
  rw [addf_apply, scatterAdd_ideal]
  have e : scatter_S50000x64_S850000x1_S850000x64_1_0_0_1
      = rowScatter 50000 850000 64 scatter_S50000x64_S850000x1_S850000x64_1_0_0_1_wf := rfl
  rw [e, rowScatter_add_apply]
  have hz : broadcastInDim S50000x64 ![] bcast_S_S50000x64 (constant (F := Ideal) S_ .f32 0x00000000#32) (ix2 i c) = zeroE := rfl
  have hb : broadcastInDim S50000x64 ![0, 1] bcast_S1x64_S50000x64_0_1 (broadcastInDim S1x64 ![1] bcast_S64_S1x64_1 b) (ix2 i c)
      = b (ix1 c) :=
    (broadcastInDim_apply _ bcast_S1x64_S50000x64_0_1 _ (ix2 i c) (ix2 (0 : Fin 1) c) (fun a => match a with
      | ⟨0, _⟩ => rfl
      | ⟨1, _⟩ => rfl)).trans
    (broadcastInDim_apply _ bcast_S64_S1x64_1 b (ix2 (0 : Fin 1) c) (ix1 c) (fun a => match a with
      | ⟨0, _⟩ => rfl))
  have hf : (Finset.univ.filter fun e : Fin 850000 =>
        ((broadcastInDim S850000x1 ![0] bcast_S850000_S850000x1_0 w6) (ix2 e 0)).toInt = (i.val : Int))
      = Finset.univ.filter fun j : Fin 850000 => (withLoops d j).toInt = (i.val : Int) :=
    Finset.filter_congr fun e _ => by rw [col_apply, h6]
  rw [hz, hb, hf]
  refine congrArg (· + b (ix1 c)) (congrArg (zeroE + ·) (Finset.sum_congr rfl fun e _ => ?_))
  rw [mulf_apply]
  have eg : gather_S50000x64_S850000x1_S850000x64_1_0_n_n_0_1_164
      = rowGather 50000 850000 64 gather_S50000x64_S850000x1_S850000x64_1_0_n_n_0_1_164_wf := rfl
  have ed : dot_S50000x128_S128x64_S50000x64_1_0_0_1_n_n = DotDims.plain 50000 128 64 := rfl
  rw [eg, rowGather_apply (by decide), col_apply, wrapT_apply, h5, ed, PlainDot.apply]
  refine congrArg₂ (· * ·) ?_ ?_
  · unfold mm node
    exact Finset.sum_congr rfl fun k _ => by rw [hx]
  · exact (broadcastInDim_apply _ bcast_S850000x1_S850000x64_0_1 _ (ix2 e c) (ix2 e (0 : Fin 1)) (fun a => match a with
      | ⟨0, _⟩ => rfl
      | ⟨1, _⟩ => rfl)).trans ((col_apply _ nrm e).trans (hn e))

/-- The product rows gathered along the wrapped index words. -/
def rowsT (x : FVec Ideal S50000x128 .f32) (W : FVec Ideal S128x64 .f32) (w5 : IVec S850000 32) : FVec Ideal S850000x64 .f32 :=
  Host.gather gather_S50000x64_S850000x1_S850000x64_1_0_n_n_0_1_164
    (Host.dotGeneral (F := Ideal) dot_S50000x128_S128x64_S50000x64_1_0_0_1_n_n none x W)
    (broadcastInDim S850000x1 ![0] bcast_S850000_S850000x1_0 (wrapT w5))

/-- Gathered rows, each multiplied by its weight, summed at the destinations into zeros, plus the bias row. -/
def aggT (rows : FVec Ideal S850000x64 .f32) (nrm : FVec Ideal S850000 .f32) (w6 : IVec S850000 32) (b : FVec Ideal S64 .f32) :
    FVec Ideal S50000x64 .f32 :=
  addf
    (Host.scatterAdd (F := Ideal) scatter_S50000x64_S850000x1_S850000x64_1_0_0_1
      (broadcastInDim S50000x64 ![] bcast_S_S50000x64 (constant (F := Ideal) S_ .f32 0x00000000#32))
      (broadcastInDim S850000x1 ![0] bcast_S850000_S850000x1_0 w6)
      (mulf rows
        (broadcastInDim S850000x64 ![0, 1] bcast_S850000x1_S850000x64_0_1
          (broadcastInDim S850000x1 ![0] bcast_S850000_S850000x1_0 nrm))))
    (broadcastInDim S50000x64 ![0, 1] bcast_S1x64_S50000x64_0_1 (broadcastInDim S1x64 ![1] bcast_S64_S1x64_1 b))

theorem preT_eq (x : FVec Ideal S50000x128 .f32) (W : FVec Ideal S128x64 .f32) (w5 w6 : IVec S850000 32)
    (nrm : FVec Ideal S850000 .f32) (b : FVec Ideal S64 .f32) :
    preT x W w5 w6 nrm b = aggT (rowsT x W w5) nrm w6 b := rfl

/-! ## The stretches of the window -/

/-- The first layer's activation (operations 1–4). -/
abbrev l0 : List (HloOp τ sig (Elt Ideal)) := (ops1 (F := Ideal)).take 4
/-- The lengthened index words (operations 5–7). -/
abbrev l1 : List (HloOp τ sig (Elt Ideal)) := ((ops1 (F := Ideal)).drop 4).take 3

/-! The degree; its guarded inverse square root; the source ends' values; the destination ends' values and the
weights; the product rows gathered along the index words; their weighted sum at the destinations plus the bias. -/
abbrev l2 : List (HloOp τ sig (Elt Ideal)) := ((ops1 (F := Ideal)).drop 7).take 6
abbrev l3 : List (HloOp τ sig (Elt Ideal)) := ((ops1 (F := Ideal)).drop 13).take 8
abbrev l4a : List (HloOp τ sig (Elt Ideal)) := ((ops1 (F := Ideal)).drop 21).take 9
abbrev l4b : List (HloOp τ sig (Elt Ideal)) := ((ops1 (F := Ideal)).drop 30).take 10
abbrev l5a : List (HloOp τ sig (Elt Ideal)) := ((ops1 (F := Ideal)).drop 40).take 10
abbrev l5b : List (HloOp τ sig (Elt Ideal)) := (ops1 (F := Ideal)).drop 50

theorem ops_cut : (ops1 (F := Ideal)) = l0 ++ (l1 ++ (l2 ++ (l3 ++ (l4a ++ (l4b ++ (l5a ++ l5b)))))) := rfl

variable (V : Valuation τ sig (Elt Ideal))

/-! ### Activation and index words -/

theorem l0_v51 : after l0 V (main_v51 : DevRef τ sig) = preluT (V (main_arg6 : DevRef τ sig)) (V (main_v46 : DevRef τ sig)) (V (main_v47 : DevRef τ sig)) := by
  show after [_, _, _, _] V _ = _
  after_results
  rfl

theorem l0_v1 : after l0 V (main_v1 : DevRef τ sig) = V (main_v1 : DevRef τ sig) :=
  after_of_forall_not_mem _ V (by decide)
theorem l0_v3 : after l0 V (main_v3 : DevRef τ sig) = V (main_v3 : DevRef τ sig) :=
  after_of_forall_not_mem _ V (by decide)
theorem l0_arg4 : after l0 V (main_arg4 : DevRef τ sig) = V (main_arg4 : DevRef τ sig) :=
  after_of_forall_not_mem _ V (by decide)
theorem l0_arg5 : after l0 V (main_arg5 : DevRef τ sig) = V (main_arg5 : DevRef τ sig) :=
  after_of_forall_not_mem _ V (by decide)

theorem l1_v53 : after l1 V (main_v53 : DevRef τ sig) = loopsT (V (main_v1 : DevRef τ sig)) := by
  show after [_, _, _] V _ = _
  after_results
  rfl

theorem l1_v54 : after l1 V (main_v54 : DevRef τ sig) = loopsT (V (main_v3 : DevRef τ sig)) := by
  show after [_, _, _] V _ = _
  after_results
  rfl

theorem l1_v51 : after l1 V (main_v51 : DevRef τ sig) = V (main_v51 : DevRef τ sig) :=
  after_of_forall_not_mem _ V (by decide)
theorem l1_arg4 : after l1 V (main_arg4 : DevRef τ sig) = V (main_arg4 : DevRef τ sig) :=
  after_of_forall_not_mem _ V (by decide)
theorem l1_arg5 : after l1 V (main_arg5 : DevRef τ sig) = V (main_arg5 : DevRef τ sig) :=
  after_of_forall_not_mem _ V (by decide)

/-! ### What the later stretches leave, as functions of what they read -/

theorem l2_v58 : after l2 V (main_v58 : DevRef τ sig) = degT (V (main_v54 : DevRef τ sig)) := by
  show after [_, _, _, _, _, _] V _ = _
  after_results
  rfl

theorem l3_v62 : after l3 V (main_v62 : DevRef τ sig) = dinvT (V (main_v58 : DevRef τ sig)) := by
  show after [_, _, _, _, _, _, _, _] V _ = _
  after_results
  rfl

theorem l4a_v69 : after l4a V (main_v69 : DevRef τ sig) = endT (V (main_v62 : DevRef τ sig)) (V (main_v53 : DevRef τ sig)) := by
  show after [_, _, _, _, _, _, _, _, _] V _ = _
  after_results
  rfl

theorem l4b_v77 : after l4b V (main_v77 : DevRef τ sig) = mulf (V (main_v69 : DevRef τ sig)) (endT (V (main_v62 : DevRef τ sig)) (V (main_v54 : DevRef τ sig))) := by
  show after [_, _, _, _, _, _, _, _, _, _] V _ = _
  after_results
  rfl

theorem l5a_v85 : after l5a V (main_v85 : DevRef τ sig) = rowsT (V (main_v51 : DevRef τ sig)) (V (main_arg4 : DevRef τ sig)) (V (main_v53 : DevRef τ sig)) := by
  show after [_, _, _, _, _, _, _, _, _, _] V _ = _
  after_results
  rfl

theorem l5b_v94 : after l5b V (main_v94 : DevRef τ sig) = aggT (V (main_v85 : DevRef τ sig)) (V (main_v77 : DevRef τ sig)) (V (main_v54 : DevRef τ sig)) (V (main_arg5 : DevRef τ sig)) := by
  show after [_, _, _, _, _, _, _, _, _, _, _, _] V _ = _
  after_results
  rfl

theorem l5b_v95 : after l5b V (main_v95 : DevRef τ sig)
    = broadcastInDim S50000x64 ![] bcast_S_S50000x64 (constant (F := Ideal) S_ .f32 0x00000000#32) := by
  show after [_, _, _, _, _, _, _, _, _, _, _, _] V _ = _
  after_results
  try rfl

/-! ### Buffers a stretch does not write -/

theorem l2_v51 : after l2 V (main_v51 : DevRef τ sig) = V (main_v51 : DevRef τ sig) :=
  after_of_forall_not_mem _ V (by decide)
theorem l2_arg4 : after l2 V (main_arg4 : DevRef τ sig) = V (main_arg4 : DevRef τ sig) :=
  after_of_forall_not_mem _ V (by decide)
theorem l2_arg5 : after l2 V (main_arg5 : DevRef τ sig) = V (main_arg5 : DevRef τ sig) :=
  after_of_forall_not_mem _ V (by decide)
theorem l2_v53 : after l2 V (main_v53 : DevRef τ sig) = V (main_v53 : DevRef τ sig) :=
  after_of_forall_not_mem _ V (by decide)
theorem l2_v54 : after l2 V (main_v54 : DevRef τ sig) = V (main_v54 : DevRef τ sig) :=
  after_of_forall_not_mem _ V (by decide)
theorem l2_v62 : after l2 V (main_v62 : DevRef τ sig) = V (main_v62 : DevRef τ sig) :=
  after_of_forall_not_mem _ V (by decide)
theorem l2_v77 : after l2 V (main_v77 : DevRef τ sig) = V (main_v77 : DevRef τ sig) :=
  after_of_forall_not_mem _ V (by decide)
theorem l3_v51 : after l3 V (main_v51 : DevRef τ sig) = V (main_v51 : DevRef τ sig) :=
  after_of_forall_not_mem _ V (by decide)
theorem l3_arg4 : after l3 V (main_arg4 : DevRef τ sig) = V (main_arg4 : DevRef τ sig) :=
  after_of_forall_not_mem _ V (by decide)
theorem l3_arg5 : after l3 V (main_arg5 : DevRef τ sig) = V (main_arg5 : DevRef τ sig) :=
  after_of_forall_not_mem _ V (by decide)
theorem l3_v53 : after l3 V (main_v53 : DevRef τ sig) = V (main_v53 : DevRef τ sig) :=
  after_of_forall_not_mem _ V (by decide)
theorem l3_v54 : after l3 V (main_v54 : DevRef τ sig) = V (main_v54 : DevRef τ sig) :=
  after_of_forall_not_mem _ V (by decide)
theorem l3_v77 : after l3 V (main_v77 : DevRef τ sig) = V (main_v77 : DevRef τ sig) :=
  after_of_forall_not_mem _ V (by decide)
theorem l4a_v51 : after l4a V (main_v51 : DevRef τ sig) = V (main_v51 : DevRef τ sig) :=
  after_of_forall_not_mem _ V (by decide)
theorem l4a_arg4 : after l4a V (main_arg4 : DevRef τ sig) = V (main_arg4 : DevRef τ sig) :=
  after_of_forall_not_mem _ V (by decide)
theorem l4a_arg5 : after l4a V (main_arg5 : DevRef τ sig) = V (main_arg5 : DevRef τ sig) :=
  after_of_forall_not_mem _ V (by decide)
theorem l4a_v53 : after l4a V (main_v53 : DevRef τ sig) = V (main_v53 : DevRef τ sig) :=
  after_of_forall_not_mem _ V (by decide)
theorem l4a_v54 : after l4a V (main_v54 : DevRef τ sig) = V (main_v54 : DevRef τ sig) :=
  after_of_forall_not_mem _ V (by decide)
theorem l4a_v62 : after l4a V (main_v62 : DevRef τ sig) = V (main_v62 : DevRef τ sig) :=
  after_of_forall_not_mem _ V (by decide)
theorem l4a_v77 : after l4a V (main_v77 : DevRef τ sig) = V (main_v77 : DevRef τ sig) :=
  after_of_forall_not_mem _ V (by decide)
theorem l4b_v51 : after l4b V (main_v51 : DevRef τ sig) = V (main_v51 : DevRef τ sig) :=
  after_of_forall_not_mem _ V (by decide)
theorem l4b_arg4 : after l4b V (main_arg4 : DevRef τ sig) = V (main_arg4 : DevRef τ sig) :=
  after_of_forall_not_mem _ V (by decide)
theorem l4b_arg5 : after l4b V (main_arg5 : DevRef τ sig) = V (main_arg5 : DevRef τ sig) :=
  after_of_forall_not_mem _ V (by decide)
theorem l4b_v53 : after l4b V (main_v53 : DevRef τ sig) = V (main_v53 : DevRef τ sig) :=
  after_of_forall_not_mem _ V (by decide)
theorem l4b_v54 : after l4b V (main_v54 : DevRef τ sig) = V (main_v54 : DevRef τ sig) :=
  after_of_forall_not_mem _ V (by decide)
theorem l4b_v62 : after l4b V (main_v62 : DevRef τ sig) = V (main_v62 : DevRef τ sig) :=
  after_of_forall_not_mem _ V (by decide)
theorem l5a_v51 : after l5a V (main_v51 : DevRef τ sig) = V (main_v51 : DevRef τ sig) :=
  after_of_forall_not_mem _ V (by decide)
theorem l5a_arg4 : after l5a V (main_arg4 : DevRef τ sig) = V (main_arg4 : DevRef τ sig) :=
  after_of_forall_not_mem _ V (by decide)
theorem l5a_arg5 : after l5a V (main_arg5 : DevRef τ sig) = V (main_arg5 : DevRef τ sig) :=
  after_of_forall_not_mem _ V (by decide)
theorem l5a_v53 : after l5a V (main_v53 : DevRef τ sig) = V (main_v53 : DevRef τ sig) :=
  after_of_forall_not_mem _ V (by decide)
theorem l5a_v54 : after l5a V (main_v54 : DevRef τ sig) = V (main_v54 : DevRef τ sig) :=
  after_of_forall_not_mem _ V (by decide)
theorem l5a_v62 : after l5a V (main_v62 : DevRef τ sig) = V (main_v62 : DevRef τ sig) :=
  after_of_forall_not_mem _ V (by decide)
theorem l5a_v77 : after l5a V (main_v77 : DevRef τ sig) = V (main_v77 : DevRef τ sig) :=
  after_of_forall_not_mem _ V (by decide)
theorem l5b_v51 : after l5b V (main_v51 : DevRef τ sig) = V (main_v51 : DevRef τ sig) :=
  after_of_forall_not_mem _ V (by decide)
theorem l5b_arg4 : after l5b V (main_arg4 : DevRef τ sig) = V (main_arg4 : DevRef τ sig) :=
  after_of_forall_not_mem _ V (by decide)
theorem l5b_arg5 : after l5b V (main_arg5 : DevRef τ sig) = V (main_arg5 : DevRef τ sig) :=
  after_of_forall_not_mem _ V (by decide)
theorem l5b_v53 : after l5b V (main_v53 : DevRef τ sig) = V (main_v53 : DevRef τ sig) :=
  after_of_forall_not_mem _ V (by decide)
theorem l5b_v54 : after l5b V (main_v54 : DevRef τ sig) = V (main_v54 : DevRef τ sig) :=
  after_of_forall_not_mem _ V (by decide)
theorem l5b_v62 : after l5b V (main_v62 : DevRef τ sig) = V (main_v62 : DevRef τ sig) :=
  after_of_forall_not_mem _ V (by decide)
theorem l5b_v77 : after l5b V (main_v77 : DevRef τ sig) = V (main_v77 : DevRef τ sig) :=
  after_of_forall_not_mem _ V (by decide)

/-! ## The layer from the degree on

From contents `V` in which the lengthened index words are `withLoops s` and `withLoops d` and the left factor's rows are
`X`, the six stretches leave the layer before its activation in arrangement R. -/

theorem core (s d : Fin 800000 → BitVec 32) (X : Fin 50000 → Fin 128 → EReal)
    (h5 : ∀ j, V (main_v53 : DevRef τ sig) (ix1 j) = withLoops s j) (h6 : ∀ j, V (main_v54 : DevRef τ sig) (ix1 j) = withLoops d j)
    (hx : ∀ i k, V (main_v51 : DevRef τ sig) (ix2 i k) = X i k) (i : Fin 50000) (c : Fin 64) :
    after l5b (after l5a (after l4b (after l4a (after l3 (after l2 V))))) (main_v94 : DevRef τ sig) (ix2 i c)
      = preR s d (mm X (V (main_arg4 : DevRef τ sig))) (V (main_arg5 : DevRef τ sig)) i c := by
  have h5a : ∀ j, after l3 (after l2 V) (main_v53 : DevRef τ sig) (ix1 j) = withLoops s j := fun j => by
    rw [l3_v53, l2_v53]
    exact h5 j
  have h6a : ∀ j, after l3 (after l2 V) (main_v54 : DevRef τ sig) (ix1 j) = withLoops d j := fun j => by
    rw [l3_v54, l2_v54]
    exact h6 j
  have h14 : ∀ i, after l3 (after l2 V) (main_v62 : DevRef τ sig) (ix1 i) = dinvR d i := fun i => by
    rw [l3_v62, l2_v58]
    exact dinvT_apply _ _ (fun i' => degT_apply _ _ h6 i') i
  have h29 : ∀ j, after l4b (after l4a (after l3 (after l2 V))) (main_v77 : DevRef τ sig) (ix1 j) = normR s d j := fun j => by
    rw [l4b_v77, l4a_v69, l4a_v62, l4a_v54, ← normT_eq]
    exact normT_apply _ _ _ s d h5a h6a h14 j
  rw [l5b_v94, l5a_v85, l5a_v77, l5a_v54, l5a_arg5, ← preT_eq]
  refine (preT_apply _ _ _ _ _ _ s d X (fun i k => ?_) (fun j => ?_) (fun j => ?_) h29 i c).trans ?_
  · rw [l4b_v51, l4a_v51, l3_v51, l2_v51]
    exact hx i k
  · rw [l4b_v53, l4a_v53]
    exact h5a j
  · rw [l4b_v54, l4a_v54]
    exact h6a j
  · rw [l4b_arg4, l4a_arg4, l3_arg4, l2_arg4, l4b_arg5, l4a_arg5, l3_arg5, l2_arg5]

/-! ## The second window -/

/-- The second layer before its activation, at node `i` and channel `c`: arrangement R over the edge words the window
    finds in its two word buffers, the product of the activated first-layer rows with W2, and the bias b2. The
    activation compares against the buffer of the zero splat, hence the hypothesis. -/
theorem v94_apply (h47 : ∀ i k, V (main_v47 : DevRef τ sig) (ix2 i k) = zeroE) (i : Fin 50000) (c : Fin 64) :
    after (ops1 (F := Ideal)) V (main_v94 : DevRef τ sig) (ix2 i c)
      = preR (fun e => V (main_v1 : DevRef τ sig) (ix1 e)) (fun e => V (main_v3 : DevRef τ sig) (ix1 e))
          (mm (fun i k => prelu (V (main_arg6 : DevRef τ sig) ix0) (V (main_v46 : DevRef τ sig) (ix2 i k))) (V (main_arg4 : DevRef τ sig)))
          (V (main_arg5 : DevRef τ sig)) i c := by
  rw [ops_cut, StableHlo.after_append, StableHlo.after_append, StableHlo.after_append, StableHlo.after_append,
    StableHlo.after_append, StableHlo.after_append, StableHlo.after_append]
  refine (core (after l1 (after l0 V)) (fun e => V (main_v1 : DevRef τ sig) (ix1 e)) (fun e => V (main_v3 : DevRef τ sig) (ix1 e))
    (fun i k => prelu (V (main_arg6 : DevRef τ sig) ix0) (V (main_v46 : DevRef τ sig) (ix2 i k)))
    (fun j => ?_) (fun j => ?_) (fun i k => ?_) i c).trans ?_
  · rw [l1_v53, loopsT_apply, l0_v1]
  · rw [l1_v54, loopsT_apply, l0_v3]
  · rw [l1_v51, l0_v51]
    exact preluT_apply _ _ _ h47 i k
  · rw [l1_arg4, l0_arg4, l1_arg5, l0_arg5]

/-- The zero splat the second window leaves for the next activation's comparison. -/
theorem v95_apply (i : Fin 50000) (c : Fin 64) : after (ops1 (F := Ideal)) V (main_v95 : DevRef τ sig) (ix2 i c) = zeroE := by
  rw [ops_cut, StableHlo.after_append, StableHlo.after_append, StableHlo.after_append, StableHlo.after_append,
    StableHlo.after_append, StableHlo.after_append, StableHlo.after_append, l5b_v95]
  rfl

/-! The arguments are not written. -/

theorem arg0_eq : after (ops1 (F := Ideal)) V (main_arg0 : DevRef τ sig) = V (main_arg0 : DevRef τ sig) :=
  after_of_forall_not_mem _ V (by decide)
theorem arg1_eq : after (ops1 (F := Ideal)) V (main_arg1 : DevRef τ sig) = V (main_arg1 : DevRef τ sig) :=
  after_of_forall_not_mem _ V (by decide)
theorem arg2_eq : after (ops1 (F := Ideal)) V (main_arg2 : DevRef τ sig) = V (main_arg2 : DevRef τ sig) :=
  after_of_forall_not_mem _ V (by decide)
theorem arg3_eq : after (ops1 (F := Ideal)) V (main_arg3 : DevRef τ sig) = V (main_arg3 : DevRef τ sig) :=
  after_of_forall_not_mem _ V (by decide)
theorem arg4_eq : after (ops1 (F := Ideal)) V (main_arg4 : DevRef τ sig) = V (main_arg4 : DevRef τ sig) :=
  after_of_forall_not_mem _ V (by decide)
theorem arg5_eq : after (ops1 (F := Ideal)) V (main_arg5 : DevRef τ sig) = V (main_arg5 : DevRef τ sig) :=
  after_of_forall_not_mem _ V (by decide)
theorem arg6_eq : after (ops1 (F := Ideal)) V (main_arg6 : DevRef τ sig) = V (main_arg6 : DevRef τ sig) :=
  after_of_forall_not_mem _ V (by decide)
theorem arg7_eq : after (ops1 (F := Ideal)) V (main_arg7 : DevRef τ sig) = V (main_arg7 : DevRef τ sig) :=
  after_of_forall_not_mem _ V (by decide)
theorem arg8_eq : after (ops1 (F := Ideal)) V (main_arg8 : DevRef τ sig) = V (main_arg8 : DevRef τ sig) :=
  after_of_forall_not_mem _ V (by decide)
theorem arg9_eq : after (ops1 (F := Ideal)) V (main_arg9 : DevRef τ sig) = V (main_arg9 : DevRef τ sig) :=
  after_of_forall_not_mem _ V (by decide)
theorem arg10_eq : after (ops1 (F := Ideal)) V (main_arg10 : DevRef τ sig) = V (main_arg10 : DevRef τ sig) :=
  after_of_forall_not_mem _ V (by decide)

end Cert.ReferenceIdeal.RefLayer1

end
-- ==== Proof.RefValue.lean ====
/-
  The reference's result as one formula of its eleven arguments.

  The reference program is three stretches run one after the other, so the contents after the whole line are the
  contents after the third stretch started from those after the second started from those after the first. The first
  stretch leaves the first layer's pre-activation (and the two edge-word vectors), the second applies the activation and
  leaves the second layer's pre-activation, built over the same edge words, and ends by writing an array of zeros; the
  third applies the activation again — comparing against that array of zeros — and the projection head. None of the
  three touches an argument. Substituting each stretch's formula into the next gives the two-layer network followed by
  its head, which is the specification's reference arrangement.
-/
import proofs.«111989_j69879117906023_2_alg».proof.Proof.RefHead
import proofs.«111989_j69879117906023_2_alg».proof.Proof.LibFoldAppend
import proofs.«111989_j69879117906023_2_alg».proof.Proof.RefLayer0
import proofs.«111989_j69879117906023_2_alg».proof.Proof.RefLayer1

noncomputable section

namespace Cert.ReferenceIdeal.RefValue

open Cert.ReferenceIdeal Cert.ReferenceIdeal.Gen Cert.ReferenceIdeal.RefOps Idealize.ShloMosaic Idealize.ShloMosaic.TcCoe
  Idealize.SL.Sem Idealize.ShloMosaic.StableHlo Idealize.ShloMosaic.ValueIdx

/-- The eleven argument buffers hold the same under two contents. -/
def ArgsEq (A B : Valuation τ sig (Elt Ideal)) : Prop :=
  A (main_arg0 : DevRef τ sig) = B (main_arg0 : DevRef τ sig) ∧
    A (main_arg1 : DevRef τ sig) = B (main_arg1 : DevRef τ sig) ∧
    A (main_arg2 : DevRef τ sig) = B (main_arg2 : DevRef τ sig) ∧
    A (main_arg3 : DevRef τ sig) = B (main_arg3 : DevRef τ sig) ∧
    A (main_arg4 : DevRef τ sig) = B (main_arg4 : DevRef τ sig) ∧
    A (main_arg5 : DevRef τ sig) = B (main_arg5 : DevRef τ sig) ∧
    A (main_arg6 : DevRef τ sig) = B (main_arg6 : DevRef τ sig) ∧
    A (main_arg7 : DevRef τ sig) = B (main_arg7 : DevRef τ sig) ∧
    A (main_arg8 : DevRef τ sig) = B (main_arg8 : DevRef τ sig) ∧
    A (main_arg9 : DevRef τ sig) = B (main_arg9 : DevRef τ sig) ∧
    A (main_arg10 : DevRef τ sig) = B (main_arg10 : DevRef τ sig)

/-- What the first stretch leaves: the first layer's pre-activation, the two edge-word vectors, an array of zeros, the
    arguments. -/
def Layer0 : Prop := ∀ V : Valuation τ sig (Elt Ideal),
  (∀ (i : Fin 50000) (c : Fin 128), after ops0 V (main_v46 : DevRef τ sig) (ix2 i c)
      = Cert.Gcn.preR (Cert.Gcn.srcW (V (main_arg1 : DevRef τ sig))) (Cert.Gcn.dstW (V (main_arg1 : DevRef τ sig)))
          (Cert.Gcn.mm (fun i k => V (main_arg0 : DevRef τ sig) (ix2 i k)) (V (main_arg2 : DevRef τ sig))) (V (main_arg3 : DevRef τ sig)) i c) ∧
  (∀ e : Fin 800000, after ops0 V (main_v1 : DevRef τ sig) (ix1 e) = Cert.Gcn.srcW (V (main_arg1 : DevRef τ sig)) e) ∧
  (∀ e : Fin 800000, after ops0 V (main_v3 : DevRef τ sig) (ix1 e) = Cert.Gcn.dstW (V (main_arg1 : DevRef τ sig)) e) ∧
  (∀ (i : Fin 50000) (c : Fin 128), after ops0 V (main_v47 : DevRef τ sig) (ix2 i c) = Cert.Gcn.zeroE) ∧
  ArgsEq (after ops0 V) V

/-- What the second stretch leaves, when the array it compares the first pre-activation against holds zeros: the second
    layer's pre-activation over the edge words it finds; and the arguments. -/
def Layer1 : Prop := ∀ V : Valuation τ sig (Elt Ideal),
  ((∀ (i : Fin 50000) (k : Fin 128), V (main_v47 : DevRef τ sig) (ix2 i k) = Cert.Gcn.zeroE) →
    ∀ (i : Fin 50000) (c : Fin 64), after ops1 V (main_v94 : DevRef τ sig) (ix2 i c)
      = Cert.Gcn.preR (fun e => V (main_v1 : DevRef τ sig) (ix1 e)) (fun e => V (main_v3 : DevRef τ sig) (ix1 e))
          (Cert.Gcn.mm (fun i k => Cert.Gcn.prelu (V (main_arg6 : DevRef τ sig) ix0) (V (main_v46 : DevRef τ sig) (ix2 i k)))
            (V (main_arg4 : DevRef τ sig))) (V (main_arg5 : DevRef τ sig)) i c) ∧
  ArgsEq (after ops1 V) V

variable (V : Valuation τ sig (Elt Ideal))

attribute [local irreducible] broadcastInDim in
/-- The second stretch ends by writing the zero word everywhere in the array the third compares against. -/
theorem v95_zero (q : S50000x64.Idx) : after ops1 V (main_v95 : DevRef τ sig) q = Cert.Gcn.zeroE := by
  have e : after ops1 V (main_v95 : DevRef τ sig)
      = broadcastInDim S50000x64 ![] bcast_S_S50000x64 (constant (F := Ideal) S_ .f32 0x00000000#32) := by
    simp only [after_cons, after_nil]
    rfl
  rw [e, RowIndexed.bcast_scalar_apply]
  rfl

/-- The whole line is its three stretches in order. -/
theorem after_ops : after ops V = after ops2 (after ops1 (after ops0 V)) := by
  show after (ops0 ++ (ops1 ++ ops2)) V = _
  rw [LibFoldAppend.after_append, LibFoldAppend.after_append]

/-- The composition, over the two layers' statements. -/
theorem result_of (h0 : Layer0) (h1 : Layer1) (i : Fin 50000) (j : Fin 64) :
    after ops V (main_v108 : DevRef τ sig) (ix2 i j)
      = Cert.Gcn.refOut (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig)) i j := by
  rw [after_ops, RefHead.value (after ops1 (after ops0 V)) (v95_zero (after ops0 V)) i j]
  obtain ⟨h46, hs, hd, h47, c0, c1, c2, c3, c4, c5, c6, c7, c8, c9, c10⟩ := h0 V
  obtain ⟨h94', _, _, _, _, _, _, b6, b7, b8, b9, b10⟩ := h1 (after ops0 V)
  have h94 := h94' h47
  clear h94' h47
  rw [b6, b7, b8, b9, b10]
  simp only [h94]
  generalize after ops0 V = V0 at *
  simp only [h46, hs, hd, c0, c1, c2, c3, c4, c5, c6, c7, c8, c9, c10]
  rfl

/-- No stretch touches an argument. -/
theorem args_of (h0 : Layer0) (h1 : Layer1) : ArgsEq (after ops V) V := by
  obtain ⟨_, b0, b1, b2, b3, b4, b5, b6, b7, b8, b9, b10⟩ := h1 (after ops0 V)
  obtain ⟨_, _, _, _, c0, c1, c2, c3, c4, c5, c6, c7, c8, c9, c10⟩ := h0 V
  rw [after_ops]
  exact ⟨(RefHead.arg0 _).trans (b0.trans c0), (RefHead.arg1 _).trans (b1.trans c1), (RefHead.arg2 _).trans (b2.trans c2),
    (RefHead.arg3 _).trans (b3.trans c3), (RefHead.arg4 _).trans (b4.trans c4), (RefHead.arg5 _).trans (b5.trans c5),
    (RefHead.arg6 _).trans (b6.trans c6), (RefHead.arg7 _).trans (b7.trans c7), (RefHead.arg8 _).trans (b8.trans c8),
    (RefHead.arg9 _).trans (b9.trans c9), (RefHead.arg10 _).trans (b10.trans c10)⟩

/-! ## With the two layers' statements -/

theorem layer0 : Layer0 := fun V =>
  ⟨RefLayer0.v46_apply V, RefLayer0.v1_apply V, RefLayer0.v3_apply V, RefLayer0.v47_apply V, RefLayer0.arg0_eq V, RefLayer0.arg1_eq V, RefLayer0.arg2_eq V,
    RefLayer0.arg3_eq V, RefLayer0.arg4_eq V, RefLayer0.arg5_eq V, RefLayer0.arg6_eq V, RefLayer0.arg7_eq V, RefLayer0.arg8_eq V,
    RefLayer0.arg9_eq V, RefLayer0.arg10_eq V⟩

theorem layer1 : Layer1 := fun V =>
  ⟨RefLayer1.v94_apply V, RefLayer1.arg0_eq V, RefLayer1.arg1_eq V, RefLayer1.arg2_eq V,
    RefLayer1.arg3_eq V, RefLayer1.arg4_eq V, RefLayer1.arg5_eq V, RefLayer1.arg6_eq V, RefLayer1.arg7_eq V, RefLayer1.arg8_eq V,
    RefLayer1.arg9_eq V, RefLayer1.arg10_eq V⟩

/-- The reference's result, entry by entry, is the specification's reference arrangement of its eleven arguments. -/
theorem result (i : Fin 50000) (j : Fin 64) :
    after ops V (main_v108 : DevRef τ sig) (ix2 i j)
      = Cert.Gcn.refOut (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig)) i j :=
  result_of V layer0 layer1 i j

/-- The whole line leaves the eleven arguments as they were. -/
theorem args : ArgsEq (after ops V) V := args_of V layer0 layer1

theorem arg0 : after ops V (main_arg0 : DevRef τ sig) = V (main_arg0 : DevRef τ sig) := by
  obtain ⟨h, _⟩ := args V
  exact h
theorem arg1 : after ops V (main_arg1 : DevRef τ sig) = V (main_arg1 : DevRef τ sig) := by
  obtain ⟨_, h, _⟩ := args V
  exact h
theorem arg2 : after ops V (main_arg2 : DevRef τ sig) = V (main_arg2 : DevRef τ sig) := by
  obtain ⟨_, _, h, _⟩ := args V
  exact h
theorem arg3 : after ops V (main_arg3 : DevRef τ sig) = V (main_arg3 : DevRef τ sig) := by
  obtain ⟨_, _, _, h, _⟩ := args V
  exact h
theorem arg4 : after ops V (main_arg4 : DevRef τ sig) = V (main_arg4 : DevRef τ sig) := by
  obtain ⟨_, _, _, _, h, _⟩ := args V
  exact h
theorem arg5 : after ops V (main_arg5 : DevRef τ sig) = V (main_arg5 : DevRef τ sig) := by
  obtain ⟨_, _, _, _, _, h, _⟩ := args V
  exact h
theorem arg6 : after ops V (main_arg6 : DevRef τ sig) = V (main_arg6 : DevRef τ sig) := by
  obtain ⟨_, _, _, _, _, _, h, _⟩ := args V
  exact h
theorem arg7 : after ops V (main_arg7 : DevRef τ sig) = V (main_arg7 : DevRef τ sig) := by
  obtain ⟨_, _, _, _, _, _, _, h, _⟩ := args V
  exact h
theorem arg8 : after ops V (main_arg8 : DevRef τ sig) = V (main_arg8 : DevRef τ sig) := by
  obtain ⟨_, _, _, _, _, _, _, _, h, _⟩ := args V
  exact h
theorem arg9 : after ops V (main_arg9 : DevRef τ sig) = V (main_arg9 : DevRef τ sig) := by
  obtain ⟨_, _, _, _, _, _, _, _, _, h, _⟩ := args V
  exact h
theorem arg10 : after ops V (main_arg10 : DevRef τ sig) = V (main_arg10 : DevRef τ sig) := by
  obtain ⟨_, _, _, _, _, _, _, _, _, _, h⟩ := args V
  exact h

end Cert.ReferenceIdeal.RefValue

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.Bridge.lean ====
/-
  The law joining the two arrangements of the two-layer graph convolution, and the two spellings of the head's ELU.

  * The float words 0.0 and 1.0 are the numbers 0 and 1.
  * A sum over the 850000 index words (800000 edges, then the self-loop words 0 … 49999) landing on node i is the sum
    over the edges landing on i plus the ONE self-loop term of i: the self-loop word of node k reads, signed, as k, so it
    lands on i exactly when k = i.
  * Hence the two degree counts agree; a degree is a real number ≥ 1 (a count plus one), so it compares above 0 and
    both arrangements' dinv is the same real number 1/sqrt(degree).
  * A word whose signed reading is a node number i addresses row i (nothing is wrapped or clamped), so an edge landing
    on i has destination row i, and the self-loop of i has source and destination row i.
  * THE LAYER LAW: with real rows H and real t = dinv,
        ((Σ_e H(src e)·t(src e)) + H i·t i)·t i  =  Σ_e H(src e)·(t(src e)·t i) + H i·(t i·t i),
    distributivity of the multiplication by the real t i over the sum — which is why the rows must be real.
  * Real rows stay real through a matrix product with a real matrix, through a layer, and through PReLU, so the second
    layer's rows are real as well.
  * The two spellings of ELU agree on every extended real, so the heads agree on equal rows.
-/
import Mathlib
import Idealize.ShloMosaic.PureOps.Ideal
import Idealize.ShloMosaic.PureOps.Ideal.Laws
import proofs.«111989_j69879117906023_2_alg».proof.Proof.GcnSpec
import proofs.«111989_j69879117906023_2_alg».proof.Proof.LibMoments
import proofs.«111989_j69879117906023_2_alg».proof.Proof.LibStraightThrough

noncomputable section

namespace Cert.Gcn

open Finset Idealize.ShloMosaic Idealize.ShloMosaic.ValueIdx Idealize.ShloMosaic.RowIndexed
open Moments (Fin')

/-- The float word 0.0 is the number 0. -/
theorem zeroE_eq : zeroE = 0 := Ideal.ofBits_zero_f32

/-- The float word 1.0 is the number 1. -/
theorem oneE_eq : oneE = 1 := Cert.LibStraightThrough.one_f32

/-- A word whose signed reading is the node number `i` addresses row `i`: a non-negative word is not wrapped, and
    a number below 50000 is not clamped. -/
theorem node_of_toInt (w : BitVec 32) (i : Fin 50000) (h : w.toInt = (i.val : Int)) : node w = i := by
  have hnn : ¬ (w.toInt < 0) := by omega
  have hw : wrapW w = w := by
    unfold wrapW Scalar.select IntOp.cmpi
    simp [BitVec.slt, hnn]
  unfold node nodeOf
  apply Fin.ext
  simp only [hw, h]
  have := i.isLt
  omega

/-- The word holding the number `k < 50000` reads, signed, as `k`. -/
theorem toInt_ofNat_node (k : Fin 50000) : (BitVec.ofNat 32 k.val).toInt = (k.val : Int) := by
  have := k.isLt
  have h2 : k.val % 2 ^ 32 = k.val := Nat.mod_eq_of_lt (by omega)
  rw [BitVec.toInt_eq_toNat_cond, BitVec.toNat_ofNat, h2]
  split <;> omega

theorem withLoops_castAdd (f : Fin 800000 → BitVec 32) (e : Fin 800000) :
    withLoops f (Fin.castAdd 50000 e) = f e := by
  unfold withLoops
  have h : (Fin.castAdd 50000 e).val < 800000 := e.isLt
  rw [dif_pos h]
  rfl

theorem withLoops_natAdd (f : Fin 800000 → BitVec 32) (k : Fin 50000) :
    withLoops f (Fin.natAdd 800000 k) = BitVec.ofNat 32 k.val := by
  unfold withLoops
  have h : ¬ (Fin.natAdd 800000 k).val < 800000 := by
    show ¬ (800000 + k.val < 800000)
    omega
  rw [dif_neg h]
  show BitVec.ofNat 32 (800000 + k.val - 800000) = BitVec.ofNat 32 k.val
  rw [Nat.add_sub_cancel_left]

/-- A sum over the indices of `Fin (m + n)` satisfying `p` is the sum over the first block plus the sum over the second. -/
theorem sum_filter_add {M : Type*} [AddCommMonoid M] (m n : Nat) (p : Fin (m + n) → Prop) [DecidablePred p]
    (g : Fin (m + n) → M) :
    ∑ j ∈ univ.filter p, g j
      = ∑ e ∈ (univ : Finset (Fin m)).filter (fun e => p (Fin.castAdd n e)), g (Fin.castAdd n e)
        + ∑ k ∈ (univ : Finset (Fin n)).filter (fun k => p (Fin.natAdd m k)), g (Fin.natAdd m k) := by
  simp only [Finset.sum_filter, Fin.sum_univ_add]

/-- The reference's sum over the 850000 index words landing on node `i`: the edges landing on `i`, and the one
    self-loop of `i`. -/
theorem sum_withLoops {M : Type*} [AddCommMonoid M] (d : Fin 800000 → BitVec 32) (i : Fin 50000) (g : Fin 850000 → M) :
    ∑ j ∈ univ.filter (fun j : Fin 850000 => (withLoops d j).toInt = (i.val : Int)), g j
      = ∑ e ∈ univ.filter (fun e : Fin 800000 => (d e).toInt = (i.val : Int)), g (Fin.castAdd 50000 e)
        + g (Fin.natAdd 800000 i) := by
  have h := sum_filter_add 800000 50000 (fun j : Fin 850000 => (withLoops d j).toInt = (i.val : Int)) g
  refine h.trans ?_
  simp only [withLoops_castAdd, withLoops_natAdd, toInt_ofNat_node]
  have e : (univ : Finset (Fin 50000)).filter (fun k => (k.val : Int) = (i.val : Int)) = {i} := by
    ext k
    simp only [Finset.mem_filter, Finset.mem_univ, true_and, Finset.mem_singleton]
    constructor
    · intro hk; exact Fin.ext (by exact_mod_cast hk)
    · intro hk; rw [hk]
  rw [e, Finset.sum_singleton]

/-- The two degree counts agree: the reference counts the self-loop among its 850000 words, the kernel adds it after. -/
theorem degR_eq_degK (d : Fin 800000 → BitVec 32) (i : Fin 50000) : degR d i = degK d i := by
  unfold degR degK
  rw [sum_withLoops d i (fun _ => oneE)]
  simp only [zeroE_eq, zero_add]

/-- A degree is a real number, at least 1: the number of edges landing on the node, plus one. -/
theorem degK_real (d : Fin 800000 → BitVec 32) (i : Fin 50000) : ∃ r : ℝ, 1 ≤ r ∧ degK d i = (r : EReal) := by
  set S := univ.filter (fun e : Fin 800000 => (d e).toInt = (i.val : Int)) with hS
  refine ⟨(S.card : ℝ) + 1, by have : (0 : ℝ) ≤ (S.card : ℝ) := Nat.cast_nonneg _; linarith, ?_⟩
  unfold degK
  have h1 : ∑ _e ∈ S, (1 : EReal) = ((S.card : ℝ) : EReal) := by
    rw [← EReal.coe_one, ← Moments.coe_sum, Finset.sum_const, nsmul_eq_mul, mul_one]
  rw [← hS, zeroE_eq, oneE_eq, zero_add, h1, EReal.coe_add, EReal.coe_one]

/-- Both arrangements' dinv of a node is the same real number, 1/sqrt(degree). -/
theorem dinv_real (d : Fin 800000 → BitVec 32) (i : Fin 50000) :
    ∃ t : ℝ, dinvK d i = (t : EReal) ∧ dinvR d i = (t : EReal) := by
  obtain ⟨r, hr, hd⟩ := degK_real d i
  have hpos : (0 : ℝ) < r := by linarith
  have hrs : Ideal.rsqrt (r : EReal) = (((Real.sqrt r)⁻¹ : ℝ) : EReal) := by
    rw [Ideal.rsqrt_coe, if_neg (not_lt.mpr hpos.le), if_neg hpos.ne']
  refine ⟨(Real.sqrt r)⁻¹, ?_, ?_⟩
  · unfold dinvK; rw [hd, hrs]
  · unfold dinvR
    rw [degR_eq_degK, hd, zeroE_eq, hrs]
    have hc : Ideal.cmp .ogt (r : EReal) 0 = 1#1 := by
      have : (0 : EReal) < (r : EReal) := EReal.coe_pos.mpr hpos
      simp [Ideal.cmp, this]
    rw [hc]
    rfl

/-- The word of node `i`'s self-loop addresses row `i`. -/
theorem node_ofNat (i : Fin 50000) : node (BitVec.ofNat 32 i.val) = i :=
  node_of_toInt _ i (toInt_ofNat_node i)

/-- THE LAYER LAW, before the activation. With real rows `H` and the real number t = dinv, at node `i`:
      ((Σ_e H(src e) · t(src e)) + H i · t i) · t i  =  Σ_e H(src e) · (t(src e) · t i) + H i · (t i · t i),
    the sums over the edges `e` landing on `i`: multiplication by the real `t i` distributes over the sum. -/
theorem preK_eq_preR {C : Nat} (s d : Fin 800000 → BitVec 32) (H : Fin 50000 → Fin C → EReal)
    (hH : ∀ i c, Fin' (H i c)) (b : Vc C) (i : Fin 50000) (c : Fin C) :
    preK s d (scaledK d H) b i c = preR s d H b i c := by
  choose h hh using hH
  choose t htK htR using dinv_real d
  unfold preK preR aggK scaledK normR
  rw [sum_withLoops d i (fun j => H (node (withLoops s j)) c
        * (dinvR d (node (withLoops s j)) * dinvR d (node (withLoops d j))))]
  simp only [withLoops_castAdd, withLoops_natAdd, node_ofNat]
  have hsum : ∑ e ∈ univ.filter (fun e : Fin 800000 => (d e).toInt = (i.val : Int)),
        H (node (s e)) c * (dinvR d (node (s e)) * dinvR d (node (d e)))
      = ∑ e ∈ univ.filter (fun e : Fin 800000 => (d e).toInt = (i.val : Int)),
        H (node (s e)) c * (dinvR d (node (s e)) * dinvR d i) :=
    Finset.sum_congr rfl (fun e he => by rw [node_of_toInt (d e) i (Finset.mem_filter.mp he).2])
  rw [hsum]
  simp only [hh, htK, htR, zeroE_eq, zero_add, ← EReal.coe_mul, ← Moments.coe_sum, ← EReal.coe_add]
  have key : (∑ e ∈ univ.filter (fun e : Fin 800000 => (d e).toInt = (i.val : Int)), h (node (s e)) c * t (node (s e))
        + h i c * t i) * t i
      = ∑ e ∈ univ.filter (fun e : Fin 800000 => (d e).toInt = (i.val : Int)), h (node (s e)) c * (t (node (s e)) * t i)
        + h i c * (t i * t i) := by
    rw [add_mul, Finset.sum_mul]
    exact congrArg₂ (· + ·) (Finset.sum_congr rfl (fun e _ => by ring)) (by ring)
  rw [key]

/-- One layer agrees in the two arrangements when the product rows are real. -/
theorem layerK_eq_layerR {C : Nat} (s d : Fin 800000 → BitVec 32) (H : Fin 50000 → Fin C → EReal)
    (hH : ∀ i c, Fin' (H i c)) (b : Vc C) (a : EReal) : layerK s d H b a = layerR s d H b a := by
  funext i c
  unfold layerK layerR
  rw [preK_eq_preR s d H hH b i c]

/-! ## Finiteness goes through a layer -/

theorem mm_fin {n k c : Nat} (X : Fin n → Fin k → EReal) (W : Mat k c) (hX : ∀ i t, Fin' (X i t)) (hW : ∀ q, Fin' (W q))
    (i : Fin n) (j : Fin c) : Fin' (mm X W i j) :=
  Moments.Fin'.sum _ _ (fun t _ => (hX i t).mul (hW _))

theorem prelu_fin {a y : EReal} (ha : Fin' a) (hy : Fin' y) : Fin' (prelu a y) := by
  unfold prelu Scalar.select
  split
  · exact hy
  · exact ha.mul hy

theorem dinvK_fin (d : Fin 800000 → BitVec 32) (i : Fin 50000) : Fin' (dinvK d i) := by
  obtain ⟨t, ht, _⟩ := dinv_real d i
  exact ⟨t, ht⟩

theorem layerK_fin {C : Nat} (s d : Fin 800000 → BitVec 32) (H : Fin 50000 → Fin C → EReal)
    (hH : ∀ i c, Fin' (H i c)) (b : Vc C) (hb : ∀ q, Fin' (b q)) (a : EReal) (ha : Fin' a) (i : Fin 50000) (c : Fin C) :
    Fin' (layerK s d H b a i c) := by
  have hs : ∀ i c, Fin' (scaledK d H i c) := fun i c => (hH i c).mul (dinvK_fin d i)
  unfold layerK
  refine prelu_fin ha ?_
  unfold preK aggK
  rw [zeroE_eq, zero_add]
  exact (((Moments.Fin'.sum _ _ (fun e _ => hs _ c)).add (hs i c)).mul (dinvK_fin d i)).add (hb _)

/-! ## The head's activation -/

/-- The two spellings of ELU agree on every extended real: where `h > 0` both give `h`; elsewhere the guarded exponent
    is `h` itself and the factor 1.0 changes nothing. -/
theorem eluK_eq_eluR (h : EReal) : eluK h = eluR h := by
  unfold eluK eluR Scalar.select
  by_cases hc : Ideal.cmp .ogt h zeroE = 1
  · rw [if_pos hc, if_pos hc]
  · rw [if_neg hc, if_neg hc, if_neg hc, oneE_eq, one_mul]

/-! ## The two whole programs -/

theorem kerOut_eq_refOut (x : Mat 50000 128) (ei : Edges) (W1 : Mat 128 128) (b1 : Vc 128) (W2 : Mat 128 64) (b2 : Vc 64)
    (a : Sc) (P1 : Mat 64 64) (pb1 : Vc 64) (P2 : Mat 64 64) (pb2 : Vc 64)
    (hx : ∀ q, Fin' (x q)) (hW1 : ∀ q, Fin' (W1 q)) (hb1 : ∀ q, Fin' (b1 q)) (hW2 : ∀ q, Fin' (W2 q))
    (ha : ∀ q, Fin' (a q)) :
    kerOut x ei W1 b1 W2 b2 a P1 pb1 P2 pb2 = refOut x ei W1 b1 W2 b2 a P1 pb1 P2 pb2 := by
  have h1 : ∀ i c, Fin' (mm (fun i k => x (ix2 i k)) W1 i c) := mm_fin _ W1 (fun i k => hx _) hW1
  have h2 : ∀ i c, Fin' (mm (layerK (srcW ei) (dstW ei) (mm (fun i k => x (ix2 i k)) W1) b1 (a ix0)) W2 i c) :=
    mm_fin _ W2 (layerK_fin _ _ _ h1 b1 hb1 _ (ha _)) hW2
  have he : eluK = eluR := funext eluK_eq_eluR
  unfold kerOut refOut
  rw [layerK_eq_layerR _ _ _ h2, layerK_eq_layerR _ _ _ h1, he]

end Cert.Gcn

end
-- ==== Proof.Finite.lean ====
/-
  From the precondition to real numbers.

  The precondition is one bit: the conjunction, over the ten float arguments, of "every entry x has |x| < +∞"
  (a comparison of max(x, -x) against the f32 word of +∞, reduced by "and" over all axes from the bit 1).
  When that bit is 1 every conjunct is 1, every compared entry is 1, and an extended real whose absolute value is
  below +∞ is a real number.
-/
import Idealize.ShloMosaic.PureOps.Ideal
import Idealize.ShloMosaic.Lib.ValueIdx
import Idealize.ShloMosaic.Lib.ReduceAll
import proofs.«111989_j69879117906023_2_alg».proof.Pre_finite_inputs
import proofs.«111989_j69879117906023_2_alg».proof.Proof.LibMoments
import proofs.«111989_j69879117906023_2_alg».proof.Proof.LibStraightThrough

noncomputable section

namespace Cert.Finite

open Idealize.ShloMosaic Idealize.ShloMosaic.ValueIdx Cert.Pre_finite_inputs
open Moments (Fin')

/-- The scalar shape has one index. -/
instance : Subsingleton S_.Idx := ⟨fun a b => funext fun d => d.elim0⟩

/-- One conjunct over an array: if "all |x| < +∞" came out 1, every entry is a real number. -/
theorem real_of_all {s : Shape} {axes : List (Fin s.rank)} (a : FVec Ideal s .f32)
    (bc : S_.BroadcastsInDim s (![] : Fin 0 → Fin s.rank)) (hr : s.ReducesTo axes S_) (hu : 0 < S_.numel)
    (e : Host.reduce IntOp.andi
          (cmpf (F := Ideal) .olt (Host.absf a) (broadcastInDim s ![] bc (constant (F := Ideal) S_ .f32 0x7F800000#32)))
          (constantI S_ 1 1#1) hr hu ix0 = 1#1) (q : s.Idx) : Fin' (a q) :=
  Cert.LibStraightThrough.real_of_abs_lt_inf (a q) (Host.reduce_andi_all _ _ hr hu ix0 e q)

/-- The conjunct of the scalar argument, which is compared without a broadcast. -/
theorem real_of_all_scalar {axes : List (Fin S_.rank)} (a : FVec Ideal S_ .f32) (hr : S_.ReducesTo axes S_) (hu : 0 < S_.numel)
    (e : Host.reduce IntOp.andi
          (cmpf (F := Ideal) .olt (Host.absf a) (constant (F := Ideal) S_ .f32 0x7F800000#32))
          (constantI S_ 1 1#1) hr hu ix0 = 1#1) (q : S_.Idx) : Fin' (a q) :=
  Cert.LibStraightThrough.real_of_abs_lt_inf (a q) (Host.reduce_andi_all _ _ hr hu ix0 e q)

variable [Cert.Pre_finite_inputs.Facts]

/-- If the precondition's bit is 1, every entry of the ten float arguments is a real number. -/
theorem real_of_pre (a0 : FVec Ideal S50000x128 .f32) (a1 : IVec S2x800000 32) (a2 : FVec Ideal S128x128 .f32)
    (a3 : FVec Ideal S128 .f32) (a4 : FVec Ideal S128x64 .f32) (a5 : FVec Ideal S64 .f32) (a6 : FVec Ideal S_ .f32)
    (a7 : FVec Ideal S64x64 .f32) (a8 : FVec Ideal S64 .f32) (a9 : FVec Ideal S64x64 .f32) (a10 : FVec Ideal S64 .f32)
    (h : Cert.Pre_finite_inputs.fn (F := Ideal) a0 a1 a2 a3 a4 a5 a6 a7 a8 a9 a10 = (fun _ => 1#1)) :
    (∀ q, Fin' (a0 q)) ∧ (∀ q, Fin' (a2 q)) ∧ (∀ q, Fin' (a3 q)) ∧ (∀ q, Fin' (a4 q)) ∧ (∀ q, Fin' (a5 q))
      ∧ (∀ q, Fin' (a6 q)) ∧ (∀ q, Fin' (a7 q)) ∧ (∀ q, Fin' (a8 q)) ∧ (∀ q, Fin' (a9 q)) ∧ (∀ q, Fin' (a10 q)) := by
  have h0 := congrFun h ix0
  dsimp only [fn, fn_part1, fn_part2] at h0
  simp only [andi, IntOp.andi_eq_one] at h0
  obtain ⟨⟨⟨⟨⟨⟨⟨⟨⟨e0, e2⟩, e3⟩, e4⟩, e5⟩, e6⟩, e7⟩, e8⟩, e9⟩, e10⟩ := h0
  exact ⟨real_of_all a0 _ _ _ e0, real_of_all a2 _ _ _ e2, real_of_all a3 _ _ _ e3, real_of_all a4 _ _ _ e4,
    real_of_all a5 _ _ _ e5, real_of_all_scalar a6 _ _ e6, real_of_all a7 _ _ _ e7, real_of_all a8 _ _ _ e8,
    real_of_all a9 _ _ _ e9, real_of_all a10 _ _ _ e10⟩

end Cert.Finite

end
-- ==== Proof.lean ====
/-
  Two-layer graph convolution with a projection head: the kernel against its jnp reference, on the extended reals.

  Both programs compute, for every node i and channel j, Linear → ELU → Linear of the second layer's activation, each
  layer being PReLU(Â (X W) + b) with Â the adjacency matrix with self-loops, normalised symmetrically by
  dinv = 1/sqrt(in-degree + 1). They differ only in where the normalisation is applied. The reference appends the 50000
  self-loop edges to the 800000 edges and multiplies every gathered row by dinv(source)·dinv(destination) before summing
  at the destination. The kernel scales every node's row by dinv once (inside the matrix-product kernel), gathers and
  sums the scaled rows over the 800000 edges only, adds the node's own scaled row for its self-loop, and scales the sum
  by dinv again (inside the next kernel). The two are equal by distributivity, which holds because every entry is a
  real number: the inputs are finite, and a degree is a count plus one, so dinv is a positive real. Out-of-range edge
  words need no hypothesis: both programs gather through the same wrap-and-clamp and both scatters drop a destination
  word outside the table, and an edge that does land has its destination in range. The ELU is exp(h) − 1 on both sides
  (the reference guards the exponent and multiplies by 1). The changes of float format and the tiling of the node axis
  in ten blocks do not change a value on the extended reals.

  The pieces: the kernel's run through its three pipelined regions with every buffer at the fold of the segment
  boundaries, and the result read entry by entry as arrangement K's formula; the reference's run as a straight line
  of host operations and its result read as arrangement R's formula; the law joining the two; finiteness from the
  precondition.
-/
import proofs.«111989_j69879117906023_2_alg».proof.Defs
import proofs.«111989_j69879117906023_2_alg».proof.Proof.Gen.Kernel
import proofs.«111989_j69879117906023_2_alg».proof.Proof.Gen.Kernel.Skeleton
import proofs.«111989_j69879117906023_2_alg».proof.Proof.Gen.Kernel.Launch
import proofs.«111989_j69879117906023_2_alg».proof.Proof.Gen.Kernel.Points
import proofs.«111989_j69879117906023_2_alg».proof.Proof.Gen.Kernel.Frame
import proofs.«111989_j69879117906023_2_alg».proof.Proof.Gen.KernelIdeal
import proofs.«111989_j69879117906023_2_alg».proof.Proof.Gen.KernelIdeal.Skeleton
import proofs.«111989_j69879117906023_2_alg».proof.Proof.Gen.KernelIdeal.Launch
import proofs.«111989_j69879117906023_2_alg».proof.Proof.Gen.KernelIdeal.Points
import proofs.«111989_j69879117906023_2_alg».proof.Proof.Gen.KernelIdeal.Frame
import proofs.«111989_j69879117906023_2_alg».proof.Proof.Gen.ReferenceIdeal
import proofs.«111989_j69879117906023_2_alg».proof.Proof.Gen.Pre_finite_inputs
import proofs.«111989_j69879117906023_2_alg».proof.Proof.KernelRun
import proofs.«111989_j69879117906023_2_alg».proof.Proof.KernelFold
import proofs.«111989_j69879117906023_2_alg».proof.Proof.RefRun
import proofs.«111989_j69879117906023_2_alg».proof.Proof.RefValue
import proofs.«111989_j69879117906023_2_alg».proof.Proof.Bridge
import proofs.«111989_j69879117906023_2_alg».proof.Proof.Finite
import Idealize.ShloMosaic.Adequacy
import Idealize.ShloMosaic.Init

set_option maxRecDepth 16384

noncomputable section

namespace Cert.Proof

open Idealize.ShloMosaic Idealize.SL.Sem Idealize.ShloMosaic.ValueIdx

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: no host operation writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.RefValue.arg0 _),
     (h c Cert.ReferenceIdeal.main_arg1).trans (Cert.ReferenceIdeal.RefValue.arg1 _),
     (h c Cert.ReferenceIdeal.main_arg2).trans (Cert.ReferenceIdeal.RefValue.arg2 _),
     (h c Cert.ReferenceIdeal.main_arg3).trans (Cert.ReferenceIdeal.RefValue.arg3 _),
     (h c Cert.ReferenceIdeal.main_arg4).trans (Cert.ReferenceIdeal.RefValue.arg4 _),
     (h c Cert.ReferenceIdeal.main_arg5).trans (Cert.ReferenceIdeal.RefValue.arg5 _),
     (h c Cert.ReferenceIdeal.main_arg6).trans (Cert.ReferenceIdeal.RefValue.arg6 _),
     (h c Cert.ReferenceIdeal.main_arg7).trans (Cert.ReferenceIdeal.RefValue.arg7 _),
     (h c Cert.ReferenceIdeal.main_arg8).trans (Cert.ReferenceIdeal.RefValue.arg8 _),
     (h c Cert.ReferenceIdeal.main_arg9).trans (Cert.ReferenceIdeal.RefValue.arg9 _),
     (h c Cert.ReferenceIdeal.main_arg10).trans (Cert.ReferenceIdeal.RefValue.arg10 _)⟩)
    (Cert.ReferenceIdeal.RefRun.run_all (F := Ideal) m ρ)

/-- The ideal pass rewrote nothing. -/
theorem preserves : Cert.preserves_Kernel_KernelIdeal := trivial

/-- From memories agreeing on the arguments both idealized programs end with the same result: the kernel's is
    arrangement K's formula of the launch arrays, the reference's arrangement R's, and the two agree on real entries. -/
theorem algebraic : Cert.algebraic_KernelIdeal_ReferenceIdeal := by
  intro m ρ m' ρ' hpre hagree
  refine ⟨fun c q => Cert.Gcn.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (q 0) (q 1), ?_, ?_⟩
  · refine (θ_run Cert.KernelIdeal.defs _ _).mono (fun r h c => ⟨(h c).1.trans (funext fun q => ?_), (h c).2⟩)
      (Cert.KernelIdeal.KRun.run (F := Ideal) m ρ)
    have hq : q = ix2 (q 0) (q 1) := eq_ix2 (n0 := 50000) (n1 := 64) q
    exact (congrArg (fun z => Cert.KernelIdeal.Gen.W6 m ρ c (Proc.devRef .tc Cert.KernelIdeal.main_v42) z) hq).trans
      (Cert.KernelIdeal.Fold.result m ρ c (q 0) (q 1))
  · refine (θ_run Cert.ReferenceIdeal.defs _ _).mono (fun r h c =>
      ⟨(h c Cert.ReferenceIdeal.main_v108).trans (funext fun q => ?_),
       (h c Cert.ReferenceIdeal.main_arg0).trans (Cert.ReferenceIdeal.RefValue.arg0 _),
       (h c Cert.ReferenceIdeal.main_arg1).trans (Cert.ReferenceIdeal.RefValue.arg1 _),
       (h c Cert.ReferenceIdeal.main_arg2).trans (Cert.ReferenceIdeal.RefValue.arg2 _),
       (h c Cert.ReferenceIdeal.main_arg3).trans (Cert.ReferenceIdeal.RefValue.arg3 _),
       (h c Cert.ReferenceIdeal.main_arg4).trans (Cert.ReferenceIdeal.RefValue.arg4 _),
       (h c Cert.ReferenceIdeal.main_arg5).trans (Cert.ReferenceIdeal.RefValue.arg5 _),
       (h c Cert.ReferenceIdeal.main_arg6).trans (Cert.ReferenceIdeal.RefValue.arg6 _),
       (h c Cert.ReferenceIdeal.main_arg7).trans (Cert.ReferenceIdeal.RefValue.arg7 _),
       (h c Cert.ReferenceIdeal.main_arg8).trans (Cert.ReferenceIdeal.RefValue.arg8 _),
       (h c Cert.ReferenceIdeal.main_arg9).trans (Cert.ReferenceIdeal.RefValue.arg9 _),
       (h c Cert.ReferenceIdeal.main_arg10).trans (Cert.ReferenceIdeal.RefValue.arg10 _)⟩)
      (Cert.ReferenceIdeal.RefRun.run_all (F := Ideal) m' ρ')
    obtain ⟨hx, hW1, hb1, hW2, hb2, ha, hP1, hpb1, hP2, hpb2⟩ := Cert.Finite.real_of_pre _ _ _ _ _ _ _ _ _ _ _ (hpre c)
    obtain ⟨g0, g1, g2, g3, g4, g5, g6, g7, g8, g9, g10⟩ := hagree c
    have e := Cert.ReferenceIdeal.RefValue.result (StableHlo.launchContents m' c) (q 0) (q 1)
    have hq : q = ix2 (q 0) (q 1) := eq_ix2 (n0 := 50000) (n1 := 64) q
    refine ((congrArg (fun z => StableHlo.after Cert.ReferenceIdeal.RefOps.ops (StableHlo.launchContents m' c)
      (Proc.devRef .tc Cert.ReferenceIdeal.main_v108) z) hq).trans e).trans ?_
    show Cert.Gcn.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (q 0) (q 1) = _
    rw [g0, g1, g2, g3, g4, g5, g6, g7, g8, g9, g10]
    exact (congrFun (congrFun (Cert.Gcn.kerOut_eq_refOut _ (m ((c.tc : Thread Cert.KernelIdeal.nD Cert.KernelIdeal.τ).loc Cert.KernelIdeal.main_arg1)) _ _ _ (m ((c.tc : Thread Cert.KernelIdeal.nD Cert.KernelIdeal.τ).loc Cert.KernelIdeal.main_arg5)) _ (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) hx hW1 hb1 hW2 ha) (q 0)) (q 1)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
